-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "fold_c_134217728_9395241" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x128 : Shape := ⟨3, ![4096, 2, 128]⟩
abbrev S4096 : Shape := ⟨1, ![4096]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel

variable [Facts]

def fn {F : FTy → Type} [FloatOps F] (main_arg0 : FVec F S4096x2x128 .f32) (main_arg1 : IVec S4096 32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  main_v3
-- ==== Kernel.lean ====
abbrev S4096x2x128 : Shape := ⟨3, ![4096, 2, 128]⟩
abbrev S4096 : Shape := ⟨1, ![4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S2x4096 : Shape := ⟨2, ![2, 4096]⟩
abbrev S1x8192 : Shape := ⟨2, ![1, 8192]⟩
abbrev S4096x1 : Shape := ⟨2, ![4096, 1]⟩
abbrev S4096x4096 : Shape := ⟨2, ![4096, 4096]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 43
  | .vmem => 13
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .bf16⟩
  | .hbm, ⟨15, _⟩ => ⟨S1x4096, .i32⟩
  | .hbm, ⟨16, _⟩ => ⟨S2x4096, .i32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S2x4096, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_off2 (i : grid0.Coords) : Fin 2 → Nat :=
  let c0_3 : Index := 0#32
  let arg1 : BitVec 32 := BitVec.ofNat 32 (i 1).val
  let c1024_i32 : BitVec 32 := 1024#32
  let v5 : BitVec 32 := Scalar.muli arg1 c1024_i32
  let v6 : BitVec 32 := v5
  let v10 : Index := Scalar.indexCast v6
  ![0, v10.toNat]
def k0_cond4 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_14 : BitVec 32 := 0#32
  let v41 : BitVec 1 := Scalar.cmpi .ne v40 c0_i32_14
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096x2x128_S8192x128 : S4096x2x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S8192 : S_.BroadcastsInDim S8192 (![] : Fin 0 → Fin S8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  natLt_1_32 : 1 < 32
  iota_S1024x1_d0_w32 : S1024x1.Iotas .tc 32 [0]
  iota_S1x1024_d1_w32 : S1x1024.Iotas .tc 32 [1]
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v8) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4096x2x128 : Shape := ⟨3, ![4096, 2, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S1x4096x1x4096 : Shape := ⟨4, ![1, 4096, 1, 4096]⟩
abbrev S2x4096x2x4096 : Shape := ⟨4, ![2, 4096, 2, 4096]⟩
abbrev S2x4096 : Shape := ⟨2, ![2, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4096x2x128, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S4096x4096, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x128, .f32⟩
  | .hbm, ⟨19, _⟩ => ⟨S8192x128, .f32⟩
  | .hbm, ⟨20, _⟩ => ⟨S128x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S1x4096x1x4096, .f32⟩
  | .hbm, ⟨31, _⟩ => ⟨S2x4096x2x4096, .f32⟩
  | .hbm, ⟨32, _⟩ => ⟨S8192x8192, .f32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S2x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  shapeCasts_S4096_S4096x1 : S4096.ShapeCasts S4096x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  shapeCasts_S4096x2x128_S8192x128 : S4096x2x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  bcast_S_S8192 : S_.BroadcastsInDim S8192 (![] : Fin 0 → Fin S8192.rank)
  shapeCasts_S8192_S2x4096 : S8192.ShapeCasts S2x4096
  reducesTo_S2x4096_S_d0_1 : S2x4096.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBase.lean ====
/-
  What every module about the word-level kernel's launch shares: the contents of the TensorCore's buffers when the one
  region of @main is entered (after the host operations that normalise the features, tile the labels and count the
  positives), @main read as "host lines, the region, host lines", each window's block at a grid point, the four branch
  conditions of the body in closed form over the 8 x 8 grid (point t is row-tile t / 8, column-tile t % 8), and names for
  the staging and scratch buffers the body is called with.
-/
import proofs.«125888_j37538014167620_2_alg».proof.Proof.Gen.Kernel.Launch
import proofs.«125888_j37538014167620_2_alg».proof.Proof.Gen.Kernel.Skeleton
import proofs.«125888_j37538014167620_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three stretches of host
    operations before the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host lines, the region, host lines: it reduces to the region continued by the four lines that average the
    per-row losses, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions, in closed form over the grid -/

/-- "This is the first column tile" (the scratch is reset). -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The tile is on the diagonal" (row tile = column tile: the self-pairs are excluded here). -/
abbrev cond0_1 (i : grid0.Coords) : Prop :=
  (Scalar.cmpi .ne (Scalar.extui (Scalar.cmpi .eq (BitVec.ofNat 32 (i 0).val) (BitVec.ofNat 32 (i 1).val))) 0#32) = 1#1
theorem hcond0_1 : ∀ t : Fin cfg0.N, cond0_1 (grid0.coords t) ↔ t.val / 8 = t.val % 8 :=
  (by decide +kernel : ∀ t : Fin grid0.N, cond0_1 (grid0.coords t) ↔ t.val / 8 = t.val % 8)

/-- "The tile is off the diagonal" (the negation of the last, as the body computes it: one exclusive-or). -/
abbrev cond0_2 (i : grid0.Coords) : Prop :=
  (Scalar.cmpi .ne (Scalar.extui (Scalar.xori (Scalar.cmpi .eq (BitVec.ofNat 32 (i 0).val) (BitVec.ofNat 32 (i 1).val)) 1#1)) 0#32) = 1#1
theorem hcond0_2 : ∀ t : Fin cfg0.N, cond0_2 (grid0.coords t) ↔ t.val / 8 ≠ t.val % 8 :=
  (by decide +kernel : ∀ t : Fin grid0.N, cond0_2 (grid0.coords t) ↔ t.val / 8 ≠ t.val % 8)

/-- "This is the last column tile" (the row tile's losses are written). -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## The memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

/-- The three scratch buffers carried along a row of tiles: the running maximum, the running sum of exponentials, the
    running sum over positives. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

end Cert.Kernel.Hand

end
-- ==== Proof.KRunA.lean ====
/-
  The body of the idealized kernel, run as a whole at the grid points of case A: the first tile of the first row of tiles, which is also on the diagonal (the running statistics are reset, self-pairs are excluded, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's closing passes walk it past the default budget)
set_option maxHeartbeats 1000000 in
/-- The pieces the body's stores leave in each buffer it writes at a point of case A, with the proof that the body runs there, from the
    buffers at the stated contents, to any continuation that takes the buffers back with those pieces written. -/
noncomputable def kernelRun0_A (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KRunB.lean ====
/-
  The body of the idealized kernel, run as a whole at the grid points of case B: the first tile of a row of tiles other than the first row, off the diagonal (the running statistics are reset, no exclusion of self-pairs, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's closing passes walk it past the default budget)
set_option maxHeartbeats 1000000 in
/-- The pieces the body's stores leave in each buffer it writes at a point of case B, with the proof that the body runs there, from the
    buffers at the stated contents, to any continuation that takes the buffers back with those pieces written. -/
noncomputable def kernelRun0_B (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KRunC.lean ====
/-
  The body of the idealized kernel, run as a whole at the grid points of case C: a tile on the diagonal that is neither the first nor the last of its row of tiles (no reset of the running statistics, self-pairs are excluded, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's closing passes walk it past the default budget)
set_option maxHeartbeats 1000000 in
/-- The pieces the body's stores leave in each buffer it writes at a point of case C, with the proof that the body runs there, from the
    buffers at the stated contents, to any continuation that takes the buffers back with those pieces written. -/
noncomputable def kernelRun0_C (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KRunD.lean ====
/-
  The body of the idealized kernel, run as a whole at the grid points of case D: a tile off the diagonal that is neither the first nor the last of its row of tiles (no reset of the running statistics, no exclusion of self-pairs, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's closing passes walk it past the default budget)
set_option maxHeartbeats 1000000 in
/-- The pieces the body's stores leave in each buffer it writes at a point of case D, with the proof that the body runs there, from the
    buffers at the stated contents, to any continuation that takes the buffers back with those pieces written. -/
noncomputable def kernelRun0_D (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.KRunE.lean ====
/-
  The body of the idealized kernel, run as a whole at the grid points of case E: the last tile of the last row of tiles, which is on the diagonal (no reset of the running statistics, self-pairs are excluded, and the row tile's losses are written to the output block).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's closing passes walk it past the default budget)
set_option maxHeartbeats 1000000 in
/-- The pieces the body's stores leave in each buffer it writes at a point of case E, with the proof that the body runs there, from the
    buffers at the stated contents, to any continuation that takes the buffers back with those pieces written. -/
noncomputable def kernelRun0_E (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (x5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, ?_, fun x5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.KRunF.lean ====
/-
  The body of the idealized kernel, run as a whole at the grid points of case F: the last tile of a row of tiles other than the last row, off the diagonal (no reset of the running statistics, no exclusion of self-pairs, and the row tile's losses are written to the output block).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's closing passes walk it past the default budget)
set_option maxHeartbeats 1000000 in
/-- The pieces the body's stores leave in each buffer it writes at a point of case F, with the proof that the body runs there, from the
    buffers at the stated contents, to any continuation that takes the buffers back with those pieces written. -/
noncomputable def kernelRun0_F (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (x5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, ?_, fun x5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.KFrameA.lean ====
/-
  The proof data of the idealized kernel's one pipeline. The body runs at the 64 points of an 8 x 8 grid of tiles (point
  t is row tile t / 8, column tile t % 8) and falls into six cases by three tests: is the column tile the first (the three
  running statistics are reset), is the tile on the diagonal (the self-pairs are excluded), is the column tile the last
  (the row tile's losses are stored). Per case, the stores into each of the three scratch buffers (running maximum, running
  sum of exponentials, running sum over positives) tile that buffer, so what the case leaves there is its stores read back;
  likewise for the output's block in the two cases that store it. Point by point this gives what the four buffers hold
  after each point (an accumulation along each row of tiles: every point starts from what the point before left, and the
  first column tile of a row resets the statistics before reading them). The invariant between points is the three scratch
  buffers at those contents; before the first point they are at anything, which is what the launch hands over. The proof
  data: the arrays as the region finds them, each input's buffer left at its block, the output's at the accumulation's
  first component, nothing owed; the feature array is read through two windows (the row tile's block and the whole array
  as keys), each holding half of it. Each input's buffer holds its block at every point, fetched there or not; the
  output's window is idle away from the last column tile.
-/
import proofs.«125888_j37538014167620_2_alg».proof.Proof.KRunA
import proofs.«125888_j37538014167620_2_alg».proof.Proof.KRunB
import proofs.«125888_j37538014167620_2_alg».proof.Proof.KRunC
import proofs.«125888_j37538014167620_2_alg».proof.Proof.KRunD
import proofs.«125888_j37538014167620_2_alg».proof.Proof.KRunE
import proofs.«125888_j37538014167620_2_alg».proof.Proof.KRunF

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The views the contents are stated through -/

/-- The three scratch buffers as views: what each holds is stated through its own. -/
abbrev VS0_0 : View sig .tc .vmem S1024x1 .f32 := scM0_0.view
abbrev VS0_1 : View sig .tc .vmem S1024x1 .f32 := scM0_1.view
abbrev VS0_2 : View sig .tc .vmem S1024x1 .f32 := scM0_2.view
/-- One staging buffer of the output's window, through which the output block's contents are stated (for stores that
    cover the block the choice does not matter). -/
abbrev VO0_5 : View sig .tc .vmem S1024x1 .f32 := (Memref.whole cc0_stg5_0 : Memref sig .tc .vmem S1024x1 .f32).view

/-- Contents that nothing reads: the output block's entry at the points whose column tile is not the last (the body
    stores nothing there and the block is not written back), and what the scratch buffers hold before the first point
    (the first column tile resets them before reading them). -/
def unread0 : Vec F S1024x1 .f32 := VO0_5.read (Elt F) VO0_5.junk

/-- What the body leaves at a point: the output's block, the running maximum, the running sum of exponentials, the
    running sum over positives. -/
abbrev Outs (F : FTy → Type) : Type := Vec F S1024x1 .f32 × Vec F S1024x1 .f32 × Vec F S1024x1 .f32 × Vec F S1024x1 .f32

/-! ## Per case: the stores cover each buffer, and what they leave there -/

section Cases

variable (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)

section CaseA
variable (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runA" => kernelRun0_A c i arg2 harg2 arg3 harg3 arg4 harg4 arg5 harg5 arg6 harg6 arg7 harg7 arg8 harg8 arg9 harg9 arg10 harg10 hc0 hc1 hc2 hc3 x0 x1 x2 x3 x4 xs0 xs1 xs2

/-- Case A (first column tile, on the diagonal): the stores into the running maximum's buffer tile it. -/
theorem scover0_A_0 (y : S1024x1.Idx) : ∃ pc ∈ (runA).1, y ∈ pc.1.set :=
  View.cover_of_tiledL (runA).1 S1024x1.size (by sl_kernel_rfl) y
/-- What case A leaves there: its stores read back. -/
def sout0_A_0 : Vec F S1024x1 .f32 := VS0_0.read (Elt F) (VS0_0.writes (Elt F) VS0_0.junk (runA).1)
/-- The stores into the exponential sum's buffer tile it. -/
theorem scover0_A_1 (y : S1024x1.Idx) : ∃ pc ∈ (runA).2.1, y ∈ pc.1.set :=
  View.cover_of_tiledL (runA).2.1 S1024x1.size (by sl_kernel_rfl) y
def sout0_A_1 : Vec F S1024x1 .f32 := VS0_1.read (Elt F) (VS0_1.writes (Elt F) VS0_1.junk (runA).2.1)
/-- The stores into the positive sum's buffer tile it. -/
theorem scover0_A_2 (y : S1024x1.Idx) : ∃ pc ∈ (runA).2.2.1, y ∈ pc.1.set :=
  View.cover_of_tiledL (runA).2.2.1 S1024x1.size (by sl_kernel_rfl) y
def sout0_A_2 : Vec F S1024x1 .f32 := VS0_2.read (Elt F) (VS0_2.writes (Elt F) VS0_2.junk (runA).2.2.1)

/-- Case A resets the three scratch buffers before it reads them: what it leaves does not depend on what they held. -/
theorem sout0_A_0_indep (ys0 ys1 ys2 : Vec F S1024x1 .f32) :
    sout0_A_0 c i arg2 harg2 arg3 harg3 arg4 harg4 arg5 harg5 arg6 harg6 arg7 harg7 arg8 harg8 arg9 harg9 arg10 harg10 hc0 hc1 hc2 hc3 x0 x1 x2 x3 x4 xs0 xs1 xs2
      = sout0_A_0 c i arg2 harg2 arg3 harg3 arg4 harg4 arg5 harg5 arg6 harg6 arg7 harg7 arg8 harg8 arg9 harg9 arg10 harg10 hc0 hc1 hc2 hc3 x0 x1 x2 x3 x4 ys0 ys1 ys2 := rfl
theorem sout0_A_1_indep (ys0 ys1 ys2 : Vec F S1024x1 .f32) :
    sout0_A_1 c i arg2 harg2 arg3 harg3 arg4 harg4 arg5 harg5 arg6 harg6 arg7 harg7 arg8 harg8 arg9 harg9 arg10 harg10 hc0 hc1 hc2 hc3 x0 x1 x2 x3 x4 xs0 xs1 xs2
      = sout0_A_1 c i arg2 harg2 arg3 harg3 arg4 harg4 arg5 harg5 arg6 harg6 arg7 harg7 arg8 harg8 arg9 harg9 arg10 harg10 hc0 hc1 hc2 hc3 x0 x1 x2 x3 x4 ys0 ys1 ys2 := rfl
theorem sout0_A_2_indep (ys0 ys1 ys2 : Vec F S1024x1 .f32) :
    sout0_A_2 c i arg2 harg2 arg3 harg3 arg4 harg4 arg5 harg5 arg6 harg6 arg7 harg7 arg8 harg8 arg9 harg9 arg10 harg10 hc0 hc1 hc2 hc3 x0 x1 x2 x3 x4 xs0 xs1 xs2
      = sout0_A_2 c i arg2 harg2 arg3 harg3 arg4 harg4 arg5 harg5 arg6 harg6 arg7 harg7 arg8 harg8 arg9 harg9 arg10 harg10 hc0 hc1 hc2 hc3 x0 x1 x2 x3 x4 ys0 ys1 ys2 := rfl
end CaseA

section CaseB
variable (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runB" => kernelRun0_B c i arg2 harg2 arg3 harg3 arg4 harg4 arg5 harg5 arg6 harg6 arg7 harg7 arg8 harg8 arg9 harg9 arg10 harg10 hc0 hc1 hc2 hc3 x0 x1 x2 x3 x4 xs0 xs1 xs2

/-- Case B (first column tile, off the diagonal): the stores into the running maximum's buffer tile it. -/
theorem scover0_B_0 (y : S1024x1.Idx) : ∃ pc ∈ (runB).1, y ∈ pc.1.set :=
  View.cover_of_tiledL (runB).1 S1024x1.size (by sl_kernel_rfl) y
def sout0_B_0 : Vec F S1024x1 .f32 := VS0_0.read (Elt F) (VS0_0.writes (Elt F) VS0_0.junk (runB).1)
theorem scover0_B_1 (y : S1024x1.Idx) : ∃ pc ∈ (runB).2.1, y ∈ pc.1.set :=
  View.cover_of_tiledL (runB).2.1 S1024x1.size (by sl_kernel_rfl) y
def sout0_B_1 : Vec F S1024x1 .f32 := VS0_1.read (Elt F) (VS0_1.writes (Elt F) VS0_1.junk (runB).2.1)
theorem scover0_B_2 (y : S1024x1.Idx) : ∃ pc ∈ (runB).2.2.1, y ∈ pc.1.set :=
  View.cover_of_tiledL (runB).2.2.1 S1024x1.size (by sl_kernel_rfl) y
def sout0_B_2 : Vec F S1024x1 .f32 := VS0_2.read (Elt F) (VS0_2.writes (Elt F) VS0_2.junk (runB).2.2.1)
end CaseB

section CaseC
variable (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runC" => kernelRun0_C c i arg2 harg2 arg3 harg3 arg4 harg4 arg5 harg5 arg6 harg6 arg7 harg7 arg8 harg8 arg9 harg9 arg10 harg10 hc0 hc1 hc2 hc3 x0 x1 x2 x3 x4 xs0 xs1 xs2

/-- Case C (a middle column tile, on the diagonal): the store into the running maximum's buffer tiles it. -/
theorem scover0_C_0 (y : S1024x1.Idx) : ∃ pc ∈ (runC).1, y ∈ pc.1.set :=
  View.cover_of_tiledL (runC).1 S1024x1.size (by sl_kernel_rfl) y
def sout0_C_0 : Vec F S1024x1 .f32 := VS0_0.read (Elt F) (VS0_0.writes (Elt F) VS0_0.junk (runC).1)
theorem scover0_C_1 (y : S1024x1.Idx) : ∃ pc ∈ (runC).2.1, y ∈ pc.1.set :=
  View.cover_of_tiledL (runC).2.1 S1024x1.size (by sl_kernel_rfl) y
def sout0_C_1 : Vec F S1024x1 .f32 := VS0_1.read (Elt F) (VS0_1.writes (Elt F) VS0_1.junk (runC).2.1)
theorem scover0_C_2 (y : S1024x1.Idx) : ∃ pc ∈ (runC).2.2.1, y ∈ pc.1.set :=
  View.cover_of_tiledL (runC).2.2.1 S1024x1.size (by sl_kernel_rfl) y
def sout0_C_2 : Vec F S1024x1 .f32 := VS0_2.read (Elt F) (VS0_2.writes (Elt F) VS0_2.junk (runC).2.2.1)
end CaseC

section CaseD
variable (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runD" => kernelRun0_D c i arg2 harg2 arg3 harg3 arg4 harg4 arg5 harg5 arg6 harg6 arg7 harg7 arg8 harg8 arg9 harg9 arg10 harg10 hc0 hc1 hc2 hc3 x0 x1 x2 x3 x4 xs0 xs1 xs2

/-- Case D (a middle column tile, off the diagonal): the store into the running maximum's buffer tiles it. -/
theorem scover0_D_0 (y : S1024x1.Idx) : ∃ pc ∈ (runD).1, y ∈ pc.1.set :=
  View.cover_of_tiledL (runD).1 S1024x1.size (by sl_kernel_rfl) y
def sout0_D_0 : Vec F S1024x1 .f32 := VS0_0.read (Elt F) (VS0_0.writes (Elt F) VS0_0.junk (runD).1)
theorem scover0_D_1 (y : S1024x1.Idx) : ∃ pc ∈ (runD).2.1, y ∈ pc.1.set :=
  View.cover_of_tiledL (runD).2.1 S1024x1.size (by sl_kernel_rfl) y
def sout0_D_1 : Vec F S1024x1 .f32 := VS0_1.read (Elt F) (VS0_1.writes (Elt F) VS0_1.junk (runD).2.1)
theorem scover0_D_2 (y : S1024x1.Idx) : ∃ pc ∈ (runD).2.2.1, y ∈ pc.1.set :=
  View.cover_of_tiledL (runD).2.2.1 S1024x1.size (by sl_kernel_rfl) y
def sout0_D_2 : Vec F S1024x1 .f32 := VS0_2.read (Elt F) (VS0_2.writes (Elt F) VS0_2.junk (runD).2.2.1)
end CaseD

section CaseE
variable (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runE" => kernelRun0_E c i arg2 harg2 arg3 harg3 arg4 harg4 arg5 harg5 arg6 harg6 arg7 harg7 arg8 harg8 arg9 harg9 arg10 harg10 hc0 hc1 hc2 hc3 x0 x1 x2 x3 x4 xs0 xs1 xs2

/-- Case E (last column tile, on the diagonal): the store of the row tile's losses tiles the output's block. -/
theorem cover0_E_5 (y : S1024x1.Idx) : ∃ pc ∈ (runE).1, y ∈ pc.1.set :=
  View.cover_of_tiledL (runE).1 S1024x1.size (by sl_kernel_rfl) y
/-- What case E leaves in the output's buffer: the row tile's losses. -/
def out0_E_5 : Vec F S1024x1 .f32 := VO0_5.read (Elt F) (VO0_5.writes (Elt F) VO0_5.junk (runE).1)
theorem scover0_E_0 (y : S1024x1.Idx) : ∃ pc ∈ (runE).2.1, y ∈ pc.1.set :=
  View.cover_of_tiledL (runE).2.1 S1024x1.size (by sl_kernel_rfl) y
def sout0_E_0 : Vec F S1024x1 .f32 := VS0_0.read (Elt F) (VS0_0.writes (Elt F) VS0_0.junk (runE).2.1)
theorem scover0_E_1 (y : S1024x1.Idx) : ∃ pc ∈ (runE).2.2.1, y ∈ pc.1.set :=
  View.cover_of_tiledL (runE).2.2.1 S1024x1.size (by sl_kernel_rfl) y
def sout0_E_1 : Vec F S1024x1 .f32 := VS0_1.read (Elt F) (VS0_1.writes (Elt F) VS0_1.junk (runE).2.2.1)
theorem scover0_E_2 (y : S1024x1.Idx) : ∃ pc ∈ (runE).2.2.2.1, y ∈ pc.1.set :=
  View.cover_of_tiledL (runE).2.2.2.1 S1024x1.size (by sl_kernel_rfl) y
def sout0_E_2 : Vec F S1024x1 .f32 := VS0_2.read (Elt F) (VS0_2.writes (Elt F) VS0_2.junk (runE).2.2.2.1)
end CaseE

section CaseF
variable (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runF" => kernelRun0_F c i arg2 harg2 arg3 harg3 arg4 harg4 arg5 harg5 arg6 harg6 arg7 harg7 arg8 harg8 arg9 harg9 arg10 harg10 hc0 hc1 hc2 hc3 x0 x1 x2 x3 x4 xs0 xs1 xs2

/-- Case F (last column tile, off the diagonal): the store of the row tile's losses tiles the output's block. -/
theorem cover0_F_5 (y : S1024x1.Idx) : ∃ pc ∈ (runF).1, y ∈ pc.1.set :=
  View.cover_of_tiledL (runF).1 S1024x1.size (by sl_kernel_rfl) y
/-- What case F leaves in the output's buffer: the row tile's losses. -/
def out0_F_5 : Vec F S1024x1 .f32 := VO0_5.read (Elt F) (VO0_5.writes (Elt F) VO0_5.junk (runF).1)
theorem scover0_F_0 (y : S1024x1.Idx) : ∃ pc ∈ (runF).2.1, y ∈ pc.1.set :=
  View.cover_of_tiledL (runF).2.1 S1024x1.size (by sl_kernel_rfl) y
def sout0_F_0 : Vec F S1024x1 .f32 := VS0_0.read (Elt F) (VS0_0.writes (Elt F) VS0_0.junk (runF).2.1)
theorem scover0_F_1 (y : S1024x1.Idx) : ∃ pc ∈ (runF).2.2.1, y ∈ pc.1.set :=
  View.cover_of_tiledL (runF).2.2.1 S1024x1.size (by sl_kernel_rfl) y
def sout0_F_1 : Vec F S1024x1 .f32 := VS0_1.read (Elt F) (VS0_1.writes (Elt F) VS0_1.junk (runF).2.2.1)
theorem scover0_F_2 (y : S1024x1.Idx) : ∃ pc ∈ (runF).2.2.2.1, y ∈ pc.1.set :=
  View.cover_of_tiledL (runF).2.2.2.1 S1024x1.size (by sl_kernel_rfl) y
def sout0_F_2 : Vec F S1024x1 .f32 := VS0_2.read (Elt F) (VS0_2.writes (Elt F) VS0_2.junk (runF).2.2.2.1)
end CaseF

end Cases

/-! ## What the body leaves at a point, case by case -/

section AtPoint

variable (c : Dev nD) (t : Fin cfg0.N) (xs0 xs1 xs2 : Vec F S1024x1 .f32)

/-- A case's contents at point t: the memrefs the pipeline calls the body with there, then (in the text after the
    notation) the case's four decided conditions, the five input blocks and the scratch contents the body starts from. -/
local notation "atPt(" f ")" => f c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
local notation "inBlks(" g ")" => g (iblk m c 0 t) (iblk m c 1 t) (iblk m c 2 t) (iblk m c 3 t) (iblk m c 4 t) xs0 xs1 xs2

/-- Point t in case A (first column tile, diagonal), the body started at scratch contents xs. -/
def at0_A (h0 : t.val % 8 = 0) (h1 : t.val / 8 = t.val % 8) (h3 : ¬t.val % 8 = 7) : Outs F :=
  (unread0,
   inBlks(atPt(sout0_A_0) ((hcond0_0 t).mpr h0) ((hcond0_1 t).mpr h1) (fun h => (hcond0_2 t).mp h h1) (fun h => h3 ((hcond0_3 t).mp h))),
   inBlks(atPt(sout0_A_1) ((hcond0_0 t).mpr h0) ((hcond0_1 t).mpr h1) (fun h => (hcond0_2 t).mp h h1) (fun h => h3 ((hcond0_3 t).mp h))),
   inBlks(atPt(sout0_A_2) ((hcond0_0 t).mpr h0) ((hcond0_1 t).mpr h1) (fun h => (hcond0_2 t).mp h h1) (fun h => h3 ((hcond0_3 t).mp h))))

/-- Point t in case B (first column tile, off the diagonal). -/
def at0_B (h0 : t.val % 8 = 0) (h1 : ¬t.val / 8 = t.val % 8) (h3 : ¬t.val % 8 = 7) : Outs F :=
  (unread0,
   inBlks(atPt(sout0_B_0) ((hcond0_0 t).mpr h0) (fun h => h1 ((hcond0_1 t).mp h)) ((hcond0_2 t).mpr h1) (fun h => h3 ((hcond0_3 t).mp h))),
   inBlks(atPt(sout0_B_1) ((hcond0_0 t).mpr h0) (fun h => h1 ((hcond0_1 t).mp h)) ((hcond0_2 t).mpr h1) (fun h => h3 ((hcond0_3 t).mp h))),
   inBlks(atPt(sout0_B_2) ((hcond0_0 t).mpr h0) (fun h => h1 ((hcond0_1 t).mp h)) ((hcond0_2 t).mpr h1) (fun h => h3 ((hcond0_3 t).mp h))))

/-- Point t in case C (a middle column tile, diagonal). -/
def at0_C (h0 : ¬t.val % 8 = 0) (h1 : t.val / 8 = t.val % 8) (h3 : ¬t.val % 8 = 7) : Outs F :=
  (unread0,
   inBlks(atPt(sout0_C_0) (fun h => h0 ((hcond0_0 t).mp h)) ((hcond0_1 t).mpr h1) (fun h => (hcond0_2 t).mp h h1) (fun h => h3 ((hcond0_3 t).mp h))),
   inBlks(atPt(sout0_C_1) (fun h => h0 ((hcond0_0 t).mp h)) ((hcond0_1 t).mpr h1) (fun h => (hcond0_2 t).mp h h1) (fun h => h3 ((hcond0_3 t).mp h))),
   inBlks(atPt(sout0_C_2) (fun h => h0 ((hcond0_0 t).mp h)) ((hcond0_1 t).mpr h1) (fun h => (hcond0_2 t).mp h h1) (fun h => h3 ((hcond0_3 t).mp h))))

/-- Point t in case D (a middle column tile, off the diagonal). -/
def at0_D (h0 : ¬t.val % 8 = 0) (h1 : ¬t.val / 8 = t.val % 8) (h3 : ¬t.val % 8 = 7) : Outs F :=
  (unread0,
   inBlks(atPt(sout0_D_0) (fun h => h0 ((hcond0_0 t).mp h)) (fun h => h1 ((hcond0_1 t).mp h)) ((hcond0_2 t).mpr h1) (fun h => h3 ((hcond0_3 t).mp h))),
   inBlks(atPt(sout0_D_1) (fun h => h0 ((hcond0_0 t).mp h)) (fun h => h1 ((hcond0_1 t).mp h)) ((hcond0_2 t).mpr h1) (fun h => h3 ((hcond0_3 t).mp h))),
   inBlks(atPt(sout0_D_2) (fun h => h0 ((hcond0_0 t).mp h)) (fun h => h1 ((hcond0_1 t).mp h)) ((hcond0_2 t).mpr h1) (fun h => h3 ((hcond0_3 t).mp h))))

/-- Point t in case E (last column tile, diagonal): the row tile's losses are stored. -/
def at0_E (h0 : ¬t.val % 8 = 0) (h1 : t.val / 8 = t.val % 8) (h3 : t.val % 8 = 7) : Outs F :=
  (inBlks(atPt(out0_E_5) (fun h => h0 ((hcond0_0 t).mp h)) ((hcond0_1 t).mpr h1) (fun h => (hcond0_2 t).mp h h1) ((hcond0_3 t).mpr h3)),
   inBlks(atPt(sout0_E_0) (fun h => h0 ((hcond0_0 t).mp h)) ((hcond0_1 t).mpr h1) (fun h => (hcond0_2 t).mp h h1) ((hcond0_3 t).mpr h3)),
   inBlks(atPt(sout0_E_1) (fun h => h0 ((hcond0_0 t).mp h)) ((hcond0_1 t).mpr h1) (fun h => (hcond0_2 t).mp h h1) ((hcond0_3 t).mpr h3)),
   inBlks(atPt(sout0_E_2) (fun h => h0 ((hcond0_0 t).mp h)) ((hcond0_1 t).mpr h1) (fun h => (hcond0_2 t).mp h h1) ((hcond0_3 t).mpr h3)))

/-- Point t in case F (last column tile, off the diagonal): the row tile's losses are stored. -/
def at0_F (h0 : ¬t.val % 8 = 0) (h1 : ¬t.val / 8 = t.val % 8) (h3 : t.val % 8 = 7) : Outs F :=
  (inBlks(atPt(out0_F_5) (fun h => h0 ((hcond0_0 t).mp h)) (fun h => h1 ((hcond0_1 t).mp h)) ((hcond0_2 t).mpr h1) ((hcond0_3 t).mpr h3)),
   inBlks(atPt(sout0_F_0) (fun h => h0 ((hcond0_0 t).mp h)) (fun h => h1 ((hcond0_1 t).mp h)) ((hcond0_2 t).mpr h1) ((hcond0_3 t).mpr h3)),
   inBlks(atPt(sout0_F_1) (fun h => h0 ((hcond0_0 t).mp h)) (fun h => h1 ((hcond0_1 t).mp h)) ((hcond0_2 t).mpr h1) ((hcond0_3 t).mpr h3)),
   inBlks(atPt(sout0_F_2) (fun h => h0 ((hcond0_0 t).mp h)) (fun h => h1 ((hcond0_1 t).mp h)) ((hcond0_2 t).mpr h1) ((hcond0_3 t).mpr h3)))

end AtPoint

/-! ## What the buffers hold after each point -/

/-- THE ACCUMULATION: what the output's staging buffer and the three scratch buffers hold after the body at position n.
    The closed forms choose the case (column tile first, on the diagonal, column tile last); the body starts from the
    scratch contents the point before left (before the first point: contents nobody reads, the first column tile
    resets the scratch before reading it). -/
def outsAt0 (c : Dev nD) : (n : ℕ) → n < cfg0.N → Outs F
  | 0, hn => at0_A m c ⟨0, hn⟩ unread0 unread0 unread0 (Nat.zero_mod _) (by show (0 : ℕ) / 8 = 0 % 8; decide) (by show ¬(0 : ℕ) % 8 = 7; decide)
  | n + 1, hn =>
    if h0 : (n + 1) % 8 = 0 then
      at0_B m c ⟨n + 1, hn⟩ (outsAt0 c n (Nat.lt_of_succ_lt hn)).2.1 (outsAt0 c n (Nat.lt_of_succ_lt hn)).2.2.1 (outsAt0 c n (Nat.lt_of_succ_lt hn)).2.2.2
        h0 (fun h => by have hN : n + 1 < 64 := lt_of_lt_of_eq hn N_0; (try dsimp only at h); omega) (fun h => by (try dsimp only at h); omega)
    else if h1 : (n + 1) / 8 = (n + 1) % 8 then
      if h3 : (n + 1) % 8 = 7 then
        at0_E m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3
      else
        at0_C m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3
    else
      if h3 : (n + 1) % 8 = 7 then
        at0_F m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3
      else
        at0_D m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3

/-- What the point before t left (t not the first). -/
abbrev prev0 (c : Dev nD) (t : Fin cfg0.N) : Outs F := outsAt0 m c (t.val - 1) (Nat.lt_of_le_of_lt (Nat.sub_le _ _) t.isLt)

/-- outsAt0 at the first point: case A from contents nobody reads. -/
theorem outsAt0_A (c : Dev nD) (t : Fin cfg0.N) (hz : t.val = 0) :
    outsAt0 m c t.val t.isLt = at0_A m c t unread0 unread0 unread0 (by rw [hz]) (by rw [hz]) (by rw [hz]; decide) := by
  obtain ⟨n, hn⟩ := t
  cases n with
  | zero => exact rfl
  | succ n => exact absurd hz (Nat.succ_ne_zero _)

/-- outsAt0 at a point of case B: that case over what the point before left. -/
theorem outsAt0_B (c : Dev nD) (t : Fin cfg0.N) (hz : t.val ≠ 0) (h0 : t.val % 8 = 0) (h1 : ¬t.val / 8 = t.val % 8) (h3 : ¬t.val % 8 = 7) :
    outsAt0 m c t.val t.isLt = at0_B m c t (prev0 m c t).2.1 (prev0 m c t).2.2.1 (prev0 m c t).2.2.2 h0 h1 h3 := by
  obtain ⟨n, hn⟩ := t
  cases n with
  | zero => exact absurd rfl hz
  | succ n => exact (dif_pos h0).trans rfl

/-- outsAt0 at a point of case C. -/
theorem outsAt0_C (c : Dev nD) (t : Fin cfg0.N) (h0 : ¬t.val % 8 = 0) (h1 : t.val / 8 = t.val % 8) (h3 : ¬t.val % 8 = 7) :
    outsAt0 m c t.val t.isLt = at0_C m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_pos h1).trans ((dif_neg h3).trans rfl))

/-- outsAt0 at a point of case D. -/
theorem outsAt0_D (c : Dev nD) (t : Fin cfg0.N) (h0 : ¬t.val % 8 = 0) (h1 : ¬t.val / 8 = t.val % 8) (h3 : ¬t.val % 8 = 7) :
    outsAt0 m c t.val t.isLt = at0_D m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_neg h1).trans ((dif_neg h3).trans rfl))

/-- outsAt0 at a point of case E. -/
theorem outsAt0_E (c : Dev nD) (t : Fin cfg0.N) (h0 : ¬t.val % 8 = 0) (h1 : t.val / 8 = t.val % 8) (h3 : t.val % 8 = 7) :
    outsAt0 m c t.val t.isLt = at0_E m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_pos h1).trans ((dif_pos h3).trans rfl))

/-- outsAt0 at a point of case F. -/
theorem outsAt0_F (c : Dev nD) (t : Fin cfg0.N) (h0 : ¬t.val % 8 = 0) (h1 : ¬t.val / 8 = t.val % 8) (h3 : t.val % 8 = 7) :
    outsAt0 m c t.val t.isLt = at0_F m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_neg h1).trans ((dif_pos h3).trans rfl))

/-! ## The region invariant -/

/-- What the launch hands the body besides the windows: the three scratch buffers, each owned at some contents. -/
theorem scoped0_eq (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

/-- The invariant before position n: before the first point the three scratch buffers at anything (what the launch hands
    over); afterwards each at what the point before left in it. -/
def PhiS (c : Dev nD) : (n : ℕ) → n ≤ cfg0.N → sProp 𝕄
  | 0, _ => Pipeline.scopedRest spec0 c
  | n + 1, hn => iprop(owns (c : Thread nD τ) scM0_0 fullShare (outsAt0 m c n hn).2.1 ∗ owns (c : Thread nD τ) scM0_1 fullShare (outsAt0 m c n hn).2.2.1
      ∗ owns (c : Thread nD τ) scM0_2 fullShare (outsAt0 m c n hn).2.2.2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare (outsAt0 m c n hn).2.1 ∗ owns (c : Thread nD τ) scM0_1 fullShare (outsAt0 m c n hn).2.2.1
      ∗ owns (c : Thread nD τ) scM0_2 fullShare (outsAt0 m c n hn).2.2.2) := rfl

theorem PhiS_pos (c : Dev nD) (n : ℕ) (h : n ≤ cfg0.N) (hz : n ≠ 0) :
    PhiS m c n h = iprop(owns (c : Thread nD τ) scM0_0 fullShare (outsAt0 m c (n - 1) (by omega)).2.1 ∗ owns (c : Thread nD τ) scM0_1 fullShare (outsAt0 m c (n - 1) (by omega)).2.2.1
      ∗ owns (c : Thread nD τ) scM0_2 fullShare (outsAt0 m c (n - 1) (by omega)).2.2.2) := by
  cases n with
  | zero => exact absurd rfl hz
  | succ n => rfl

/-! ## The pipeline's proof data -/

/-- The proof data of the one pipeline on core c: the arrays as the region finds them; after the body at point t each
    input's buffer at its block and the output's at outsAt0's first component; the invariant PhiS; nothing owed; the
    feature array, which windows 0 and 1 both read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

/-- The invariant at a point's start, restated at t.val. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-! ## What the body finds in the inputs' buffers -/

/-- An input window's current staging buffer holds its block at every point, fetched there or not, for any proof data
    whose array is the region-entry contents and whose body leaves the block in place: unfetched, the block index has
    not moved since the fetch (the feature array as keys and the column labels never move; the row tile's three blocks
    move when the row changes, and are fetched then). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Away from the last column tile the output's window is idle (the body stores nothing into it), -/
theorem idleAt0_5 : ∀ t : Fin cfg0.N, ¬cond0_3 (grid0.coords t) → cfg0.idle 5 (grid0.coords t) = true := by decide +kernel
/-- and its block is not written back there. -/
theorem noFlush0_5 : ∀ t : Fin cfg0.N, ¬cond0_3 (grid0.coords t) → (cfg0.win 5).flush t = false := by decide +kernel
/-- At the last column tile it is live. -/
theorem liveAt0_5 : ∀ t : Fin cfg0.N, cond0_3 (grid0.coords t) → cfg0.idle 5 (grid0.coords t) = false := by decide +kernel

/-! ## Into and out of the region -/

/-- What the launch hands the region is the invariant before the first point. -/
theorem hin (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back at some contents: what each holds is forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scoped0_eq]
  iintro ⟨HS0, HS1, HS2⟩
  isplitl [HS0]; · iexists _; iexact HS0
  isplitl [HS1]; · iexists _; iexact HS1
  iexists _; iexact HS2

/-- The same after the last point. -/
theorem hout (c : Dev nD) : (dats m 0 c).Φ (Fin.last cfg0.N) ⊢ Pipeline.scopedRest spec0 c :=
  Phi_out m c _ (by rw [Fin.val_last]; have : cfg0.N = 64 := N_0; omega)

end Cert.Kernel.Hand

end
-- ==== Proof.KFrame.lean ====
/-
  The body obligation of the idealized kernel's one pipeline: at every one of the 64 grid points, from the invariant (the
  three scratch buffers at what the point before left), what the core owes (nothing) and each window's current buffer at
  what it then holds (an input's at its block; the output's at anything), the kernel's body runs to the invariant at the
  next point and every buffer at what the proof data says it leaves. By cases on the point: first column tile or not, on
  the diagonal or not, last column tile or not; in each case the whole-body run of that case applies, and the stores it
  makes cover each buffer it stores into, so the buffer holds those stores read back.
-/
import proofs.«125888_j37538014167620_2_alg».proof.Proof.KFrameA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the closed forms say which of the six cases the point is
    in; the invariant hands the body the three scratch buffers at what the point before left (at anything before the first
    point, where the body resets them), and takes them back at this point's contents, which the case's stores cover. Away
    from the last column tile the output's buffer comes back as it was found; at the last column tile it comes back at the
    row tile's losses. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 64 := lt_of_lt_of_eq t.isLt (show cfg0.N = 64 from N_0)
  by_cases h0 : t.val % 8 = 0
  · have h3 : ¬t.val % 8 = 7 := by omega
    have hc3 : ¬cond0_3 (grid0.coords t) := fun h => h3 ((hcond0_3 t).mp h)
    rw [Dat.leavesExact_idle (dats m 0 c) 5 t (idleAt0_5 t hc3) (noFlush0_5 t hc3)]
    by_cases h1 : t.val / 8 = t.val % 8
    · -- case A: the first point
      have hz : t.val = 0 := by omega
      rw [outsAt0_A m c t hz]
      unfold at0_A; dsimp only
      rw [PhiS_castSucc m c t, PhiS_zero m c _ _ hz, scoped0_eq]
      iintro ⟨⟨⟨%d0, HS0⟩, ⟨%d1, HS1⟩, ⟨%d2, HS2⟩⟩, Ho, ⟨%e0, H0⟩, ⟨%e1, H1⟩, ⟨%e2, H2⟩, ⟨%e3, H3⟩, ⟨%e4, H4⟩, ⟨%e5, H5⟩⟩
      iapply ((kernelRun0_A c (grid0.coords t) _ _ _ _ _ _ _ _ _ _ _ _ _ _ _ _ _ _ ((hcond0_0 t).mpr h0) ((hcond0_1 t).mpr h1) (fun h => (hcond0_2 t).mp h h1) hc3
        (iblk m c 0 t) (iblk m c 1 t) (iblk m c 2 t) (iblk m c 3 t) (iblk m c 4 t) d0 d1 d2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro
          exact (View.read_writes_of_cover _ _ VS0_0 VS0_0.junk _ (scover0_A_0 c _ _ _ _ _ _ _ _ _ _ _ _ _ _ _ _ _ _ _ _ _ _ _ _ _ _ _ _ _ _ _)).trans
            (sout0_A_0_indep c _ _ _ _ _ _ _ _ _ _ _ _ _ _ _ _ _ _ _ _ _ _ _ _ _ _ _ _ _ _ _ _ _ _)
        isplitl [HS1]
        · unfold owns; iexists _; isplitr
          swap; · iexact HS1
          ipureintro
          exact (View.read_writes_of_cover _ _ VS0_1 VS0_1.junk _ (scover0_A_1 c _ _ _ _ _ _ _ _ _ _ _ _ _ _ _ _ _ _ _ _ _ _ _ _ _ _ _ _ _ _ _)).trans
            (sout0_A_1_indep c _ _ _ _ _ _ _ _ _ _ _ _ _ _ _ _ _ _ _ _ _ _ _ _ _ _ _ _ _ _ _ _ _ _)
        unfold owns; iexists _; isplitr
        swap; · iexact HS2
        ipureintro
        exact (View.read_writes_of_cover _ _ VS0_2 VS0_2.junk _ (scover0_A_2 c _ _ _ _ _ _ _ _ _ _ _ _ _ _ _ _ _ _ _ _ _ _ _ _ _ _ _ _ _ _ _)).trans
          (sout0_A_2_indep c _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · -- case B: the first column tile of a later row
      have hz : t.val ≠ 0 := fun h => h1 (by rw [h])
      rw [outsAt0_B m c t hz h0 h1 h3]
      unfold at0_B sout0_B_0 sout0_B_1 sout0_B_2; dsimp only
      rw [PhiS_castSucc m c t, PhiS_pos m c _ _ hz]
      iintro ⟨⟨HS0, HS1, HS2⟩, Ho, ⟨%e0, H0⟩, ⟨%e1, H1⟩, ⟨%e2, H2⟩, ⟨%e3, H3⟩, ⟨%e4, H4⟩, ⟨%e5, H5⟩⟩
      iapply ((kernelRun0_B c (grid0.coords t) _ _ _ _ _ _ _ _ _ _ _ _ _ _ _ _ _ _ ((hcond0_0 t).mpr h0) (fun h => h1 ((hcond0_1 t).mp h)) ((hcond0_2 t).mpr h1) hc3
        (iblk m c 0 t) (iblk m c 1 t) (iblk m c 2 t) (iblk m c 3 t) (iblk m c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val / 8 = t.val % 8
    · by_cases h3 : t.val % 8 = 7
      · -- case E: the last point
        have hc3 : cond0_3 (grid0.coords t) := (hcond0_3 t).mpr h3
        rw [show (dats m 0 c).leavesExact 5 t = owns (c : Thread nD τ) (ms0_5 t) fullShare ((dats m 0 c).after 5 t) from by
          unfold Dat.leavesExact; rw [liveAt0_5 t hc3], after0_5]
        rw [outsAt0_E m c t h0 h1 h3]
        unfold at0_E out0_E_5 sout0_E_0 sout0_E_1 sout0_E_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_E c (grid0.coords t) _ _ _ _ _ _ _ _ _ _ _ _ _ _ _ _ _ _ (fun h => h0 ((hcond0_0 t).mp h)) ((hcond0_1 t).mpr h1) (fun h => (hcond0_2 t).mp h h1) hc3
          (iblk m c 0 t) (iblk m c 1 t) (iblk m c 2 t) (iblk m c 3 t) (iblk m c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, ⟨%es5, H5⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_E_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_E_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_E_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_E_5 c _ _ _ _ _ _ _ _ _ _ _ _ _ _ _ _ _ _ _ _ _ _ _ _ _ _ _ _ _ _ _)
      · -- case C: a diagonal tile in the middle of its row
        have hc3 : ¬cond0_3 (grid0.coords t) := fun h => h3 ((hcond0_3 t).mp h)
        rw [Dat.leavesExact_idle (dats m 0 c) 5 t (idleAt0_5 t hc3) (noFlush0_5 t hc3)]
        rw [outsAt0_C m c t h0 h1 h3]
        unfold at0_C sout0_C_0 sout0_C_1 sout0_C_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_C c (grid0.coords t) _ _ _ _ _ _ _ _ _ _ _ _ _ _ _ _ _ _ (fun h => h0 ((hcond0_0 t).mp h)) ((hcond0_1 t).mpr h1) (fun h => (hcond0_2 t).mp h h1) hc3
          (iblk m c 0 t) (iblk m c 1 t) (iblk m c 2 t) (iblk m c 3 t) (iblk m c 4 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
    · by_cases h3 : t.val % 8 = 7
      · -- case F: the last column tile of a row other than the last
        have hc3 : cond0_3 (grid0.coords t) := (hcond0_3 t).mpr h3
        rw [show (dats m 0 c).leavesExact 5 t = owns (c : Thread nD τ) (ms0_5 t) fullShare ((dats m 0 c).after 5 t) from by
          unfold Dat.leavesExact; rw [liveAt0_5 t hc3], after0_5]
        rw [outsAt0_F m c t h0 h1 h3]
        unfold at0_F out0_F_5 sout0_F_0 sout0_F_1 sout0_F_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_F c (grid0.coords t) _ _ _ _ _ _ _ _ _ _ _ _ _ _ _ _ _ _ (fun h => h0 ((hcond0_0 t).mp h)) (fun h => h1 ((hcond0_1 t).mp h)) ((hcond0_2 t).mpr h1) hc3
          (iblk m c 0 t) (iblk m c 1 t) (iblk m c 2 t) (iblk m c 3 t) (iblk m c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, ⟨%es5, H5⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_F_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_F_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_F_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_F_5 c _ _ _ _ _ _ _ _ _ _ _ _ _ _ _ _ _ _ _ _ _ _ _ _ _ _ _ _ _ _ _)
      · -- case D: an off-diagonal tile in the middle of its row
        have hc3 : ¬cond0_3 (grid0.coords t) := fun h => h3 ((hcond0_3 t).mp h)
        rw [Dat.leavesExact_idle (dats m 0 c) 5 t (idleAt0_5 t hc3) (noFlush0_5 t hc3)]
        rw [outsAt0_D m c t h0 h1 h3]
        unfold at0_D sout0_D_0 sout0_D_1 sout0_D_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_D c (grid0.coords t) _ _ _ _ _ _ _ _ _ _ _ _ _ _ _ _ _ _ (fun h => h0 ((hcond0_0 t).mp h)) (fun h => h1 ((hcond0_1 t).mp h)) ((hcond0_2 t).mpr h1) hc3
          (iblk m c 0 t) (iblk m c 1 t) (iblk m c 2 t) (iblk m c 3 t) (iblk m c 4 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_D_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_D_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_D_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

end Cert.Kernel.Hand

end
-- ==== Proof.KLaunch.lean ====
/-
  The launch of the idealized kernel's one region, for any proof data whose body obligation holds: @main runs the host
  lines that normalise the features, tile the labels and count the positives, then the 8 x 8 grid of tiles, then the four
  host lines that average the per-row losses. Two of the region's windows read the same array (the normalised features,
  once by row tile and once whole), so the array's points-to is split between them in halves and joined again at the
  region's exit. The result buffer then holds the sum of the output array's 8192 entries divided by 8192, and the two
  argument arrays are as launched.
-/
import proofs.«125888_j37538014167620_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four host lines after the region leave in the result buffer, from the output array's final contents:
    the sum of its 8192 entries divided by 8192. -/
def resOf (c : Dev nD) (A5 : Buf (Elt F) ((c.tc : Thread nD τ).loc main_v29)) : Buf (Elt F) ((c.tc : Thread nD τ).loc main_v31) :=
  Host.divf (F := F) (Host.reduceAdd (F := F) A5 (constant (F := F) S_ .f32 0x00000000#32) reducesTo_S8192x1_S_d0_1 h_S_) (constant (F := F) S_ .f32 0x46000000#32)

open Idealize.ShloMosaic.Pipeline (arrRef arrBufs unscopedRest scopedRest)

/-- The five distinct buffers behind the six windows' arrays. -/
theorem arrImage : (Finset.univ.image (arrRef spec0) : Finset (Ref sig .tc)) = [main_v8, main_v12, main_v13, main_v28, main_v29].toFinset := by decide

section Split
variable {c : Dev nD} (dat : Dat τ (Elt F) Unit ℕ (UR sig nD τ) ℕ cfg0 c)

/-- A window's array is a whole buffer: its points-to is the buffer's. -/
theorem arr_term (G : (w : Fin cfg0.W) → Buf (Elt F) ((cfg0.win w).arr.view.loc (c.tc : Thread nD τ))) (w : Fin cfg0.W) :
    ((cfg0.win w).arr.view.loc (c.tc : Thread nD τ) ↦[(cfg0.win w).arr.view.set]{dat.share w} G w : sProp 𝕄)
      = (((c.tc : Thread nD τ).loc (arrRef spec0 w)) ↦{dat.share w} G w) := by
  rw [(arr_whole0 w).set_eq_univ]

/-- The pipeline's arrays, window by window, each a whole buffer at the window's share. -/
theorem arrays_chain (G : (w : Fin cfg0.W) → Buf (Elt F) ((cfg0.win w).arr.view.loc (c.tc : Thread nD τ))) :
    (dat.arrays G : sProp 𝕄) = iprop(
      (((c.tc : Thread nD τ).loc main_v8) ↦{dat.q 0} G 0) ∗ (((c.tc : Thread nD τ).loc main_v8) ↦{dat.q 1} G 1)
      ∗ (((c.tc : Thread nD τ).loc main_v12) ↦{dat.q 2} G 2) ∗ (((c.tc : Thread nD τ).loc main_v13) ↦{dat.q 3} G 3)
      ∗ (((c.tc : Thread nD τ).loc main_v28) ↦{dat.q 4} G 4) ∗ (((c.tc : Thread nD τ).loc main_v29) ↦{fullShare} G 5)) := by
  unfold Dat.arrays
  exact (bigSep_congr fun w _ => arr_term dat G w).trans ((bigSep_W0 _).trans rfl)

/-- The buffers behind the arrays, each whole at the full share, make the pipeline's arrays at entry: the normalised
    features' buffer, which two windows read, is split into its left half for the row-tile window and its right half
    for the resident window. -/
theorem hsplit_of (Vc : (b : Ref sig .tc) → Buf (Elt F) ((c.tc : Thread nD τ).loc b))
    (G : (w : Fin cfg0.W) → Buf (Elt F) ((cfg0.win w).arr.view.loc (c.tc : Thread nD τ)))
    (hG : ∀ w, G w = Vc (arrRef spec0 w)) (hq0 : dat.q 0 = fullShare.left) (hq1 : dat.q 1 = fullShare.right)
    (hq : ∀ w : Fin cfg0.W, w ≠ 0 → w ≠ 1 → dat.q w = fullShare) :
    (arrBufs spec0 c Vc : sProp 𝕄) ⊢ dat.arrays G := by
  rw [arrays_chain, hq0, hq1, hq 2 (by decide) (by decide), hq 3 (by decide) (by decide), hq 4 (by decide) (by decide),
    hG 0, hG 1, hG 2, hG 3, hG 4, hG 5]
  unfold arrBufs
  rw [bigSep_eq_bigSepL_of_eq _ arrImage (by decide)]
  show iprop((((c.tc : Thread nD τ).loc main_v8) ↦{fullShare} Vc main_v8) ∗ (((c.tc : Thread nD τ).loc main_v12) ↦{fullShare} Vc main_v12)
      ∗ (((c.tc : Thread nD τ).loc main_v13) ↦{fullShare} Vc main_v13) ∗ (((c.tc : Thread nD τ).loc main_v28) ↦{fullShare} Vc main_v28)
      ∗ (((c.tc : Thread nD τ).loc main_v29) ↦{fullShare} Vc main_v29)) ⊢ _
  iintro ⟨H8, H12, H13, H28, H29⟩
  ihave H8' := (pointsTo_share (PosShare.mem_left_op_right fullShare)).1 $$ H8
  icases H8' with ⟨H8l, H8r⟩
  isplitl [H8l]; · iexact H8l
  isplitl [H8r]; · iexact H8r
  isplitl [H12]; · iexact H12
  isplitl [H13]; · iexact H13
  isplitl [H28]; · iexact H28
  iexact H29
end Split

/-! ## The contents the region is entered with, at the two argument arrays -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The four host lines after the region -/

/-- The buffers the four lines touch: the output array, which they read, and the two constants, the sum and the result,
    which they write. -/
abbrev tailList : List (Ref sig .tc) := [main_v29, main_cst_4, main_v30, main_cst_5, main_v31]
def tailSet : Finset (DevRef τ sig) := tailList.toFinset.map ⟨Proc.devRef (sig := sig) (.tc : Proc τ), Proc.devRef_injective _⟩

theorem mem_tailSet {r : Ref sig .tc} (h : r ∈ tailList) : Proc.devRef (τ := τ) .tc r ∈ tailSet :=
  Finset.mem_map_of_mem _ (List.mem_toFinset.mpr h)

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  · rw [StableHlo.nullary_bufs]; intro b hb
    rw [Finset.mem_singleton] at hb; subst hb; exact mem_tailSet (by decide)
  · rw [StableHlo.binary_bufs]; intro b hb
    simp only [Finset.mem_insert, Finset.mem_singleton] at hb
    rcases hb with rfl | rfl | rfl <;> exact mem_tailSet (by decide)
  · rw [StableHlo.nullary_bufs]; intro b hb
    rw [Finset.mem_singleton] at hb; subst hb; exact mem_tailSet (by decide)
  · rw [StableHlo.binary_bufs]; intro b hb
    simp only [Finset.mem_insert, Finset.mem_singleton] at hb
    rcases hb with rfl | rfl | rfl <;> exact mem_tailSet (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

section Tail
variable (c : Dev nD)

/-- The five buffers held, one by one. -/
theorem held_tail (W : Valuation τ sig (Elt F)) :
    (StableHlo.held (c.tc : Thread nD τ) tailSet W : sProp 𝕄) = iprop(
      (((c.tc : Thread nD τ).loc main_v29) ↦{fullShare} W (Proc.devRef .tc main_v29))
      ∗ (((c.tc : Thread nD τ).loc main_cst_4) ↦{fullShare} W (Proc.devRef .tc main_cst_4))
      ∗ (((c.tc : Thread nD τ).loc main_v30) ↦{fullShare} W (Proc.devRef .tc main_v30))
      ∗ (((c.tc : Thread nD τ).loc main_cst_5) ↦{fullShare} W (Proc.devRef .tc main_cst_5))
      ∗ (((c.tc : Thread nD τ).loc main_v31) ↦{fullShare} W (Proc.devRef .tc main_v31))) := by
  unfold StableHlo.held tailSet
  rw [bigSep_map, bigSep_eq_bigSepL _ (by decide)]
  rfl

/-- The contents the lines run from: the entry contents with the output array at its final contents. -/
def Wt (Vc0 : Valuation τ sig (Elt F)) (A5 : Buf (Elt F) ((c.tc : Thread nD τ).loc main_v29)) : Valuation τ sig (Elt F) :=
  Function.update Vc0 (Proc.devRef .tc main_v29) A5

theorem Wt_v29 (Vc0 : Valuation τ sig (Elt F)) (A5 : Buf (Elt F) ((c.tc : Thread nD τ).loc main_v29)) :
    Wt c Vc0 A5 (Proc.devRef .tc main_v29) = A5 := Function.update_self ..
theorem Wt_ne (Vc0 : Valuation τ sig (Elt F)) (A5 : Buf (Elt F) ((c.tc : Thread nD τ).loc main_v29)) {r : Ref sig .tc} (h : r ≠ main_v29) :
    Wt c Vc0 A5 (Proc.devRef .tc r) = Vc0 (Proc.devRef .tc r) := Function.update_of_ne (StableHlo.devRef_ne_of_ne h) ..

/-- The lines leave the output array as it was, -/
theorem after_v29 (W : Valuation τ sig (Elt F)) :
    StableHlo.after (List.flatten [hostOps1]) W (Proc.devRef .tc main_v29) = W (Proc.devRef .tc main_v29) :=
  StableHlo.after_of_forall_not_mem (b := Proc.devRef .tc main_v29) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide)))

/-- and the result buffer at the sum of the output array's entries divided by 8192. -/
theorem after_v31 (W : Valuation τ sig (Elt F)) :
    StableHlo.after (List.flatten [hostOps1]) W (Proc.devRef .tc main_v31) = resOf c (W (Proc.devRef .tc main_v29)) := by
  simp only [hostOps1, List.flatten_cons, List.flatten_nil, List.append_nil]
  after_results
  rfl

/-- What the five buffers hold after the lines, of which the proof keeps the output array and the result. -/
theorem held_after (Vc0 : Valuation τ sig (Elt F)) (A5 : Buf (Elt F) ((c.tc : Thread nD τ).loc main_v29)) :
    (StableHlo.held (c.tc : Thread nD τ) tailSet (StableHlo.after (List.flatten [hostOps1]) (Wt c Vc0 A5)) : sProp 𝕄)
      ⊢ iprop((((c.tc : Thread nD τ).loc main_v29) ↦{fullShare} A5) ∗ (((c.tc : Thread nD τ).loc main_v31) ↦{fullShare} resOf c A5)) := by
  rw [held_tail, after_v29, after_v31, Wt_v29]
  iintro ⟨H5, -, -, -, H31⟩
  isplitl [H5]; · iexact H5
  iexact H31
end Tail

section TailRun
variable (c : Dev nD) (dat : Dat τ (Elt F) Unit ℕ (UR sig nD τ) ℕ cfg0 c)

/-- What is kept of the bypassing buffers after the lines: the result, and the two argument arrays. -/
def ZP (Vc0 : Valuation τ sig (Elt F)) (A5 : Buf (Elt F) ((c.tc : Thread nD τ).loc main_v29)) : sProp 𝕄 :=
  iprop((((c.tc : Thread nD τ).loc main_v31) ↦{fullShare} resOf c A5)
    ∗ (((c.tc : Thread nD τ).loc main_arg0) ↦{fullShare} Vc0 (Proc.devRef .tc main_arg0))
    ∗ (((c.tc : Thread nD τ).loc main_arg1) ↦{fullShare} Vc0 (Proc.devRef .tc main_arg1)))

/-- The six bypassing buffers the proof follows, out of the thirty-eight. -/
abbrev keepList : List (Ref sig .tc) := [main_cst_4, main_v30, main_cst_5, main_v31, main_arg0, main_arg1]

theorem keep_sub : keepList.toFinset ⊆ (Finset.univ.filter fun b : Ref sig .tc => ¬ b.isScoped) \ Finset.univ.image (arrRef spec0) := by decide

theorem rest_split (Vc : (b : Ref sig .tc) → Buf (Elt F) ((c.tc : Thread nD τ).loc b)) :
    (unscopedRest spec0 c Vc : sProp 𝕄) = iprop(
      ((((c.tc : Thread nD τ).loc main_cst_4) ↦{fullShare} Vc main_cst_4) ∗ (((c.tc : Thread nD τ).loc main_v30) ↦{fullShare} Vc main_v30)
        ∗ (((c.tc : Thread nD τ).loc main_cst_5) ↦{fullShare} Vc main_cst_5) ∗ (((c.tc : Thread nD τ).loc main_v31) ↦{fullShare} Vc main_v31)
        ∗ (((c.tc : Thread nD τ).loc main_arg0) ↦{fullShare} Vc main_arg0) ∗ (((c.tc : Thread nD τ).loc main_arg1) ↦{fullShare} Vc main_arg1))
      ∗ bigSep (((Finset.univ.filter fun b : Ref sig .tc => ¬ b.isScoped) \ Finset.univ.image (arrRef spec0)) \ keepList.toFinset)
          fun b => ((c.tc : Thread nD τ).loc b) ↦{fullShare} Vc b) := by
  unfold unscopedRest
  rw [bigSep_sdiff_split keep_sub, bigSep_eq_bigSepL _ (by decide)]
  rfl

set_option backward.isDefEq.respectTransparency.types false in
/-- THE LINES AFTER THE REGION: from the region's exit — the boundary, the arrays at `G`, the bypassing buffers at the
    entry contents — the four lines run within the output array, which they read, and the four buffers they write, and
    hand back the arrays as they were, the result at `resOf` of the output array's contents and the two argument arrays. -/
theorem tail_of (Vc0 : Valuation τ sig (Elt F)) (G : (w : Fin cfg0.W) → Buf (Elt F) ((cfg0.win w).arr.view.loc (c.tc : Thread nD τ)))
    (Q' : PUnit → sProp 𝕄) :
    iprop((iprop(dat.arrays G ∗ ZP c Vc0 (G 5)) -∗ Q' ⟨⟩)
        ∗ boundary (c.tc : Thread nD τ) ∗ dat.arrays G ∗ unscopedRest spec0 c (fun b => Vc0 (Proc.devRef .tc b)))
      ⊢ wp frame (wpE (Pipeline.defs (fun q => Cfg.toPCfg (Val := Elt F) (cfgs q)) (defs₀ (F := F))) (Variants.lift Variants.none) (c.tc : Thread nD τ) none) Set.univ
          (Pipeline.chain [StableHlo.seq hostOps1]) Q' := by
  rw [arrays_chain, rest_split]
  unfold ZP
  iintro ⟨Hk, Hb, ⟨H0, H1, H2, H3, H4, H5⟩, ⟨Hc4, H30, Hc5, H31, Ha0, Ha1⟩, -⟩
  iapply (Pipeline.wp_seqs_then (fun q => Cfg.toPCfg (Val := Elt F) (cfgs q)) (defs₀ (F := F)) Variants.none c tailSet [] [hostOps1] tail_sub tail_fresh (Wt c Vc0 (G 5)))
    $$ [Hb H5 Hc4 H30 Hc5 H31]
  · rw [held_tail, Wt_v29, Wt_ne c Vc0 (G 5) (r := main_cst_4) (by decide), Wt_ne c Vc0 (G 5) (r := main_v30) (by decide),
      Wt_ne c Vc0 (G 5) (r := main_cst_5) (by decide), Wt_ne c Vc0 (G 5) (r := main_v31) (by decide)]
    isplitl [Hb]; · iexact Hb
    isplitl [H5]; · iexact H5
    isplitl [Hc4]; · iexact Hc4
    isplitl [H30]; · iexact H30
    isplitl [Hc5]; · iexact Hc5
    iexact H31
  iintro ⟨-, Hh⟩
  rw [Pipeline.chain_nil, wp_pure]
  ihave Hh' := (held_after c Vc0 (G 5)) $$ Hh
  icases Hh' with ⟨H5, H31⟩
  imodintro
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H31]; · iexact H31
  isplitl [Ha0]; · iexact Ha0
  iexact Ha1
end TailRun

/-! ## The run -/

set_option backward.isDefEq.respectTransparency.types false in
/-- At the compiled mesh, from any memory with zero counters: for any proof data of the one pipeline whose arrays are the
    region-entry contents (`hA`), that split the normalised features' buffer in halves between the two windows reading it
    (`hq0`, `hq1`) and hold every other input whole (`hq`), that owe nothing (`howed`), whose body obligation holds (`hbody`) and
    whose invariant is entered from and left to the scoped rest (`hin`, `hout`): every weakly fair execution of @main on the
    TensorCores terminates, the result buffer ends at the mean of the output array's final contents, and the two argument
    arrays end as launched. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin cfg0.W), w ≠ 0 → w ≠ 1 → (dats 0 c).q w = fullShare)
    (howed : ∀ c t, (dats 0 c).owed t = 0)
    (hbody : ∀ c, Pipeline.BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_v31) = resOf c ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun p => (cfgs p).toPCfg) (fun p => (cfgs p).toPCfg_adm) dats () cellOf_inj (0 : Fin 1) winFacts₀0
    (Pipeline.PreFacts.none _) emb₁ defs₀ Variants.none
    m ρ main (fun _ => Pipeline.chain [StableHlo.seq hostOps1]) hbody block_pos0 arr_whole0 stage_whole0 howed
    (u₀ := initOf (Pipeline.cells cfgs cellOf_inj) (Pipeline.launchToks cfgs cellOf_inj)) (hu₀ := .rfl)
    (V := V m) (hmain := hmain m Variants.none)
    (hsplit := fun c => hsplit_of (dats 0 c) (V m c) _ (fun w => hA c w) (hq0 c) (hq1 c) (hq c))
    (hpf := fun _ k => k.elim0)
    (X := fun _ => iprop(emp)) (Y := fun _ => iprop(emp))
    (Z := fun c => unscopedRest (Ix := Unit) (Name := ℕ) (U := UR sig nD τ) (Lvl := ℕ) spec0 c (V m c))
    (Z' := fun c => ZP c (V0 m c) ((dats 0 c).arrAt 5 cfg0.N))
    (hX := fun c => by
      rw [Pipeline.unscopedRestP_none]
      iintro H; isplitr; · iempintro
      iexact H)
    (hin := fun c => (show _ ⊢ (Pipeline.scopedRest spec0 c : sProp 𝕄) from by iintro ⟨-, -, HR⟩; iexact HR).trans (hin c))
    (hout := fun c => (hout c).trans (by
      iintro H; isplitr; · iempintro
      iexact H))
    (htail := fun c Q' => tail_of c (dats 0 c) (V0 m c) (fun w => (dats 0 c).arrAt w cfg0.N) Q')
    (QY := fun c s => s.mem ((c.tc : Thread nD τ).loc main_v31) = resOf c ((dats 0 c).arrAt 5 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold ZP
      iintro ⟨-, ⟨H31, Ha0, Ha1⟩, HSI⟩
      icombine HSI H31 gives %h31
      icombine HSI Ha0 gives %h0
      icombine HSI Ha1 gives %h1
      imodintro
      isplitr
      · ipureintro
        exact ⟨Buf.eq_of_forall_mem_univ h31, (Buf.eq_of_forall_mem_univ h0).trans (V_main_arg0 m c),
          (Buf.eq_of_forall_mem_univ h1).trans (V_main_arg1 m c)⟩
      · iexact HSI)
    (hQ := fun s h c => (h c).2.2)

end Cert.Kernel.Hand

end
-- ==== Proof.KMain.lean ====
/-
  The idealized kernel's whole run: the launch of its one region (for any proof data meeting the body obligation) at the
  proof data of the supervised-contrastive body. Every weakly fair execution of @main terminates without a fault; the
  result buffer ends at the mean of the output array's final contents, and the two argument arrays end unchanged.
-/
import proofs.«125888_j37538014167620_2_alg».proof.Proof.KFrame
import proofs.«125888_j37538014167620_2_alg».proof.Proof.KLaunch

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Windows 0 and 1 read one array and hold a half share of it each; every other window holds its array whole. -/
theorem q_rest (c : Dev nD) (w : Fin cfg0.W) (h0 : w ≠ 0) (h1 : w ≠ 1) : (dats m 0 c).q w = fullShare := by
  match w with
  | ⟨0, _⟩ => exact absurd rfl h0
  | ⟨1, _⟩ => exact absurd rfl h1
  | ⟨2, _⟩ => rfl
  | ⟨3, _⟩ => rfl
  | ⟨4, _⟩ => rfl
  | ⟨5, _⟩ => rfl

theorem run_main : θ_run defs (onTc (τ := τ) (main (F := F))) ⟨m, fun _ => 0, ρ⟩ (fun r => ∀ c : Dev nD,
      r.2.mem ((c.tc : Thread nD τ).loc main_v31) = resOf c ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (A_eq m) (fun _ => rfl) (fun _ => rfl) (q_rest m) (fun _ _ => rfl)
    (fun c => (body_obligation m c).loose) (hin m) (hout m)

end Cert.Kernel.Hand

end
-- ==== Proof.KIBase.lean ====
/-
  What every module about the idealized kernel's launch shares: the contents of the TensorCore's buffers when the one
  region of @main is entered (after the host operations that normalise the features, tile the labels and count the
  positives), @main read as "host lines, the region, host lines", each window's block at a grid point, the four branch
  conditions of the body in closed form over the 8 x 8 grid (point t is row-tile t / 8, column-tile t % 8), and names for
  the staging and scratch buffers the body is called with.
-/
import proofs.«125888_j37538014167620_2_alg».proof.Proof.Gen.KernelIdeal.Launch
import proofs.«125888_j37538014167620_2_alg».proof.Proof.Gen.KernelIdeal.Skeleton
import proofs.«125888_j37538014167620_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the three stretches of host
    operations before the region. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is host lines, the region, host lines: it reduces to the region continued by the four lines that average the
    per-row losses, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions, in closed form over the grid -/

/-- "This is the first column tile" (the scratch is reset). -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "The tile is on the diagonal" (row tile = column tile: the self-pairs are excluded here). -/
abbrev cond0_1 (i : grid0.Coords) : Prop :=
  (Scalar.cmpi .ne (Scalar.extui (Scalar.cmpi .eq (BitVec.ofNat 32 (i 0).val) (BitVec.ofNat 32 (i 1).val))) 0#32) = 1#1
theorem hcond0_1 : ∀ t : Fin cfg0.N, cond0_1 (grid0.coords t) ↔ t.val / 8 = t.val % 8 :=
  (by decide +kernel : ∀ t : Fin grid0.N, cond0_1 (grid0.coords t) ↔ t.val / 8 = t.val % 8)

/-- "The tile is off the diagonal" (the negation of the last, as the body computes it: one exclusive-or). -/
abbrev cond0_2 (i : grid0.Coords) : Prop :=
  (Scalar.cmpi .ne (Scalar.extui (Scalar.xori (Scalar.cmpi .eq (BitVec.ofNat 32 (i 0).val) (BitVec.ofNat 32 (i 1).val)) 1#1)) 0#32) = 1#1
theorem hcond0_2 : ∀ t : Fin cfg0.N, cond0_2 (grid0.coords t) ↔ t.val / 8 ≠ t.val % 8 :=
  (by decide +kernel : ∀ t : Fin grid0.N, cond0_2 (grid0.coords t) ↔ t.val / 8 ≠ t.val % 8)

/-- "This is the last column tile" (the row tile's losses are written). -/
abbrev cond0_3 (i : grid0.Coords) : Prop := k0_cond4 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## The memrefs the body is called with -/

abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

/-- The three scratch buffers carried along a row of tiles: the running maximum, the running sum of exponentials, the
    running sum over positives. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

end Cert.KernelIdeal.Hand

end
-- ==== Proof.KIRunA.lean ====
/-
  The body of the idealized kernel, run as a whole at the grid points of case A: the first tile of the first row of tiles, which is also on the diagonal (the running statistics are reset, self-pairs are excluded, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's closing passes walk it past the default budget)
set_option maxHeartbeats 1000000 in
/-- The pieces the body's stores leave in each buffer it writes at a point of case A, with the proof that the body runs there, from the
    buffers at the stated contents, to any continuation that takes the buffers back with those pieces written. -/
noncomputable def kernelRun0_A (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KIRunB.lean ====
/-
  The body of the idealized kernel, run as a whole at the grid points of case B: the first tile of a row of tiles other than the first row, off the diagonal (the running statistics are reset, no exclusion of self-pairs, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's closing passes walk it past the default budget)
set_option maxHeartbeats 1000000 in
/-- The pieces the body's stores leave in each buffer it writes at a point of case B, with the proof that the body runs there, from the
    buffers at the stated contents, to any continuation that takes the buffers back with those pieces written. -/
noncomputable def kernelRun0_B (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KIRunC.lean ====
/-
  The body of the idealized kernel, run as a whole at the grid points of case C: a tile on the diagonal that is neither the first nor the last of its row of tiles (no reset of the running statistics, self-pairs are excluded, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's closing passes walk it past the default budget)
set_option maxHeartbeats 1000000 in
/-- The pieces the body's stores leave in each buffer it writes at a point of case C, with the proof that the body runs there, from the
    buffers at the stated contents, to any continuation that takes the buffers back with those pieces written. -/
noncomputable def kernelRun0_C (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KIRunD.lean ====
/-
  The body of the idealized kernel, run as a whole at the grid points of case D: a tile off the diagonal that is neither the first nor the last of its row of tiles (no reset of the running statistics, no exclusion of self-pairs, no loss written).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's closing passes walk it past the default budget)
set_option maxHeartbeats 1000000 in
/-- The pieces the body's stores leave in each buffer it writes at a point of case D, with the proof that the body runs there, from the
    buffers at the stated contents, to any continuation that takes the buffers back with those pieces written. -/
noncomputable def kernelRun0_D (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.KIRunE.lean ====
/-
  The body of the idealized kernel, run as a whole at the grid points of case E: the last tile of the last row of tiles, which is on the diagonal (no reset of the running statistics, self-pairs are excluded, and the row tile's losses are written to the output block).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's closing passes walk it past the default budget)
set_option maxHeartbeats 1000000 in
/-- The pieces the body's stores leave in each buffer it writes at a point of case E, with the proof that the body runs there, from the
    buffers at the stated contents, to any continuation that takes the buffers back with those pieces written. -/
noncomputable def kernelRun0_E (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (x5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, ?_, fun x5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KIRunF.lean ====
/-
  The body of the idealized kernel, run as a whole at the grid points of case F: the last tile of a row of tiles other than the last row, off the diagonal (no reset of the running statistics, no exclusion of self-pairs, and the row tile's losses are written to the output block).
  The statement: on whole buffers — the five inputs at their contents, the output block's buffer and the three running
  statistics (row maximum, sum of exponentials, sum over positives) at the contents the body finds — the body runs to
  completion without fault, leaves the inputs as they were, and leaves each buffer it stores into holding the listed
  pieces (last store first). The pieces are found by symbolic execution of the body's memory operations over its named
  pure payloads; each branch of the body is decided by the case's hypotheses on the grid coordinates.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's closing passes walk it past the default budget)
set_option maxHeartbeats 1000000 in
/-- The pieces the body's stores leave in each buffer it writes at a point of case F, with the proof that the body runs there, from the
    buffers at the stated contents, to any continuation that takes the buffers back with those pieces written. -/
noncomputable def kernelRun0_F (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    Σ' (L5 : List (View.Piece (Elt F) S1024x1 .f32)) (LS0 : List (View.Piece (Elt F) S1024x1 .f32)) (LS1 : List (View.Piece (Elt F) S1024x1 .f32)), { LS2 : List (View.Piece (Elt F) S1024x1 .f32) //
      ∀ (x5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E
              (cc0__supcon_kernel i arg2 harg2 arg3 harg3 arg4 harg4 arg5 harg5 arg6 harg6 arg7 harg7 arg8 harg8 arg9 harg9 arg10 harg10) K } := by
  refine ⟨?_, ?_, ?_, ?_, fun x5 E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KIFrameA.lean ====
/-
  The proof data of the idealized kernel's one pipeline. The body runs at the 64 points of an 8 x 8 grid of tiles (point
  t is row tile t / 8, column tile t % 8) and falls into six cases by three tests: is the column tile the first (the three
  running statistics are reset), is the tile on the diagonal (the self-pairs are excluded), is the column tile the last
  (the row tile's losses are stored). Per case, the stores into each of the three scratch buffers (running maximum, running
  sum of exponentials, running sum over positives) tile that buffer, so what the case leaves there is its stores read back;
  likewise for the output's block in the two cases that store it. Point by point this gives what the four buffers hold
  after each point (an accumulation along each row of tiles: every point starts from what the point before left, and the
  first column tile of a row resets the statistics before reading them). The invariant between points is the three scratch
  buffers at those contents; before the first point they are at anything, which is what the launch hands over. The proof
  data: the arrays as the region finds them, each input's buffer left at its block, the output's at the accumulation's
  first component, nothing owed; the feature array is read through two windows (the row tile's block and the whole array
  as keys), each holding half of it. Each input's buffer holds its block at every point, fetched there or not; the
  output's window is idle away from the last column tile.
-/
import proofs.«125888_j37538014167620_2_alg».proof.Proof.KIRunA
import proofs.«125888_j37538014167620_2_alg».proof.Proof.KIRunB
import proofs.«125888_j37538014167620_2_alg».proof.Proof.KIRunC
import proofs.«125888_j37538014167620_2_alg».proof.Proof.KIRunD
import proofs.«125888_j37538014167620_2_alg».proof.Proof.KIRunE
import proofs.«125888_j37538014167620_2_alg».proof.Proof.KIRunF

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The views the contents are stated through -/

/-- The three scratch buffers as views: what each holds is stated through its own. -/
abbrev VS0_0 : View sig .tc .vmem S1024x1 .f32 := scM0_0.view
abbrev VS0_1 : View sig .tc .vmem S1024x1 .f32 := scM0_1.view
abbrev VS0_2 : View sig .tc .vmem S1024x1 .f32 := scM0_2.view
/-- One staging buffer of the output's window, through which the output block's contents are stated (for stores that
    cover the block the choice does not matter). -/
abbrev VO0_5 : View sig .tc .vmem S1024x1 .f32 := (Memref.whole cc0_stg5_0 : Memref sig .tc .vmem S1024x1 .f32).view

/-- Contents that nothing reads: the output block's entry at the points whose column tile is not the last (the body
    stores nothing there and the block is not written back), and what the scratch buffers hold before the first point
    (the first column tile resets them before reading them). -/
def unread0 : Vec F S1024x1 .f32 := VO0_5.read (Elt F) VO0_5.junk

/-- What the body leaves at a point: the output's block, the running maximum, the running sum of exponentials, the
    running sum over positives. -/
abbrev Outs (F : FTy → Type) : Type := Vec F S1024x1 .f32 × Vec F S1024x1 .f32 × Vec F S1024x1 .f32 × Vec F S1024x1 .f32

/-! ## Per case: the stores cover each buffer, and what they leave there -/

section Cases

variable (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)

section CaseA
variable (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runA" => kernelRun0_A c i arg2 harg2 arg3 harg3 arg4 harg4 arg5 harg5 arg6 harg6 arg7 harg7 arg8 harg8 arg9 harg9 arg10 harg10 hc0 hc1 hc2 hc3 x0 x1 x2 x3 x4 xs0 xs1 xs2

/-- Case A (first column tile, on the diagonal): the stores into the running maximum's buffer tile it. -/
theorem scover0_A_0 (y : S1024x1.Idx) : ∃ pc ∈ (runA).1, y ∈ pc.1.set :=
  View.cover_of_tiledL (runA).1 S1024x1.size (by sl_kernel_rfl) y
/-- What case A leaves there: its stores read back. -/
def sout0_A_0 : Vec F S1024x1 .f32 := VS0_0.read (Elt F) (VS0_0.writes (Elt F) VS0_0.junk (runA).1)
/-- The stores into the exponential sum's buffer tile it. -/
theorem scover0_A_1 (y : S1024x1.Idx) : ∃ pc ∈ (runA).2.1, y ∈ pc.1.set :=
  View.cover_of_tiledL (runA).2.1 S1024x1.size (by sl_kernel_rfl) y
def sout0_A_1 : Vec F S1024x1 .f32 := VS0_1.read (Elt F) (VS0_1.writes (Elt F) VS0_1.junk (runA).2.1)
/-- The stores into the positive sum's buffer tile it. -/
theorem scover0_A_2 (y : S1024x1.Idx) : ∃ pc ∈ (runA).2.2.1, y ∈ pc.1.set :=
  View.cover_of_tiledL (runA).2.2.1 S1024x1.size (by sl_kernel_rfl) y
def sout0_A_2 : Vec F S1024x1 .f32 := VS0_2.read (Elt F) (VS0_2.writes (Elt F) VS0_2.junk (runA).2.2.1)

/-- Case A resets the three scratch buffers before it reads them: what it leaves does not depend on what they held. -/
theorem sout0_A_0_indep (ys0 ys1 ys2 : Vec F S1024x1 .f32) :
    sout0_A_0 c i arg2 harg2 arg3 harg3 arg4 harg4 arg5 harg5 arg6 harg6 arg7 harg7 arg8 harg8 arg9 harg9 arg10 harg10 hc0 hc1 hc2 hc3 x0 x1 x2 x3 x4 xs0 xs1 xs2
      = sout0_A_0 c i arg2 harg2 arg3 harg3 arg4 harg4 arg5 harg5 arg6 harg6 arg7 harg7 arg8 harg8 arg9 harg9 arg10 harg10 hc0 hc1 hc2 hc3 x0 x1 x2 x3 x4 ys0 ys1 ys2 := rfl
theorem sout0_A_1_indep (ys0 ys1 ys2 : Vec F S1024x1 .f32) :
    sout0_A_1 c i arg2 harg2 arg3 harg3 arg4 harg4 arg5 harg5 arg6 harg6 arg7 harg7 arg8 harg8 arg9 harg9 arg10 harg10 hc0 hc1 hc2 hc3 x0 x1 x2 x3 x4 xs0 xs1 xs2
      = sout0_A_1 c i arg2 harg2 arg3 harg3 arg4 harg4 arg5 harg5 arg6 harg6 arg7 harg7 arg8 harg8 arg9 harg9 arg10 harg10 hc0 hc1 hc2 hc3 x0 x1 x2 x3 x4 ys0 ys1 ys2 := rfl
theorem sout0_A_2_indep (ys0 ys1 ys2 : Vec F S1024x1 .f32) :
    sout0_A_2 c i arg2 harg2 arg3 harg3 arg4 harg4 arg5 harg5 arg6 harg6 arg7 harg7 arg8 harg8 arg9 harg9 arg10 harg10 hc0 hc1 hc2 hc3 x0 x1 x2 x3 x4 xs0 xs1 xs2
      = sout0_A_2 c i arg2 harg2 arg3 harg3 arg4 harg4 arg5 harg5 arg6 harg6 arg7 harg7 arg8 harg8 arg9 harg9 arg10 harg10 hc0 hc1 hc2 hc3 x0 x1 x2 x3 x4 ys0 ys1 ys2 := rfl
end CaseA

section CaseB
variable (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runB" => kernelRun0_B c i arg2 harg2 arg3 harg3 arg4 harg4 arg5 harg5 arg6 harg6 arg7 harg7 arg8 harg8 arg9 harg9 arg10 harg10 hc0 hc1 hc2 hc3 x0 x1 x2 x3 x4 xs0 xs1 xs2

/-- Case B (first column tile, off the diagonal): the stores into the running maximum's buffer tile it. -/
theorem scover0_B_0 (y : S1024x1.Idx) : ∃ pc ∈ (runB).1, y ∈ pc.1.set :=
  View.cover_of_tiledL (runB).1 S1024x1.size (by sl_kernel_rfl) y
def sout0_B_0 : Vec F S1024x1 .f32 := VS0_0.read (Elt F) (VS0_0.writes (Elt F) VS0_0.junk (runB).1)
theorem scover0_B_1 (y : S1024x1.Idx) : ∃ pc ∈ (runB).2.1, y ∈ pc.1.set :=
  View.cover_of_tiledL (runB).2.1 S1024x1.size (by sl_kernel_rfl) y
def sout0_B_1 : Vec F S1024x1 .f32 := VS0_1.read (Elt F) (VS0_1.writes (Elt F) VS0_1.junk (runB).2.1)
theorem scover0_B_2 (y : S1024x1.Idx) : ∃ pc ∈ (runB).2.2.1, y ∈ pc.1.set :=
  View.cover_of_tiledL (runB).2.2.1 S1024x1.size (by sl_kernel_rfl) y
def sout0_B_2 : Vec F S1024x1 .f32 := VS0_2.read (Elt F) (VS0_2.writes (Elt F) VS0_2.junk (runB).2.2.1)
end CaseB

section CaseC
variable (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runC" => kernelRun0_C c i arg2 harg2 arg3 harg3 arg4 harg4 arg5 harg5 arg6 harg6 arg7 harg7 arg8 harg8 arg9 harg9 arg10 harg10 hc0 hc1 hc2 hc3 x0 x1 x2 x3 x4 xs0 xs1 xs2

/-- Case C (a middle column tile, on the diagonal): the store into the running maximum's buffer tiles it. -/
theorem scover0_C_0 (y : S1024x1.Idx) : ∃ pc ∈ (runC).1, y ∈ pc.1.set :=
  View.cover_of_tiledL (runC).1 S1024x1.size (by sl_kernel_rfl) y
def sout0_C_0 : Vec F S1024x1 .f32 := VS0_0.read (Elt F) (VS0_0.writes (Elt F) VS0_0.junk (runC).1)
theorem scover0_C_1 (y : S1024x1.Idx) : ∃ pc ∈ (runC).2.1, y ∈ pc.1.set :=
  View.cover_of_tiledL (runC).2.1 S1024x1.size (by sl_kernel_rfl) y
def sout0_C_1 : Vec F S1024x1 .f32 := VS0_1.read (Elt F) (VS0_1.writes (Elt F) VS0_1.junk (runC).2.1)
theorem scover0_C_2 (y : S1024x1.Idx) : ∃ pc ∈ (runC).2.2.1, y ∈ pc.1.set :=
  View.cover_of_tiledL (runC).2.2.1 S1024x1.size (by sl_kernel_rfl) y
def sout0_C_2 : Vec F S1024x1 .f32 := VS0_2.read (Elt F) (VS0_2.writes (Elt F) VS0_2.junk (runC).2.2.1)
end CaseC

section CaseD
variable (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runD" => kernelRun0_D c i arg2 harg2 arg3 harg3 arg4 harg4 arg5 harg5 arg6 harg6 arg7 harg7 arg8 harg8 arg9 harg9 arg10 harg10 hc0 hc1 hc2 hc3 x0 x1 x2 x3 x4 xs0 xs1 xs2

/-- Case D (a middle column tile, off the diagonal): the store into the running maximum's buffer tiles it. -/
theorem scover0_D_0 (y : S1024x1.Idx) : ∃ pc ∈ (runD).1, y ∈ pc.1.set :=
  View.cover_of_tiledL (runD).1 S1024x1.size (by sl_kernel_rfl) y
def sout0_D_0 : Vec F S1024x1 .f32 := VS0_0.read (Elt F) (VS0_0.writes (Elt F) VS0_0.junk (runD).1)
theorem scover0_D_1 (y : S1024x1.Idx) : ∃ pc ∈ (runD).2.1, y ∈ pc.1.set :=
  View.cover_of_tiledL (runD).2.1 S1024x1.size (by sl_kernel_rfl) y
def sout0_D_1 : Vec F S1024x1 .f32 := VS0_1.read (Elt F) (VS0_1.writes (Elt F) VS0_1.junk (runD).2.1)
theorem scover0_D_2 (y : S1024x1.Idx) : ∃ pc ∈ (runD).2.2.1, y ∈ pc.1.set :=
  View.cover_of_tiledL (runD).2.2.1 S1024x1.size (by sl_kernel_rfl) y
def sout0_D_2 : Vec F S1024x1 .f32 := VS0_2.read (Elt F) (VS0_2.writes (Elt F) VS0_2.junk (runD).2.2.1)
end CaseD

section CaseE
variable (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runE" => kernelRun0_E c i arg2 harg2 arg3 harg3 arg4 harg4 arg5 harg5 arg6 harg6 arg7 harg7 arg8 harg8 arg9 harg9 arg10 harg10 hc0 hc1 hc2 hc3 x0 x1 x2 x3 x4 xs0 xs1 xs2

/-- Case E (last column tile, on the diagonal): the store of the row tile's losses tiles the output's block. -/
theorem cover0_E_5 (y : S1024x1.Idx) : ∃ pc ∈ (runE).1, y ∈ pc.1.set :=
  View.cover_of_tiledL (runE).1 S1024x1.size (by sl_kernel_rfl) y
/-- What case E leaves in the output's buffer: the row tile's losses. -/
def out0_E_5 : Vec F S1024x1 .f32 := VO0_5.read (Elt F) (VO0_5.writes (Elt F) VO0_5.junk (runE).1)
theorem scover0_E_0 (y : S1024x1.Idx) : ∃ pc ∈ (runE).2.1, y ∈ pc.1.set :=
  View.cover_of_tiledL (runE).2.1 S1024x1.size (by sl_kernel_rfl) y
def sout0_E_0 : Vec F S1024x1 .f32 := VS0_0.read (Elt F) (VS0_0.writes (Elt F) VS0_0.junk (runE).2.1)
theorem scover0_E_1 (y : S1024x1.Idx) : ∃ pc ∈ (runE).2.2.1, y ∈ pc.1.set :=
  View.cover_of_tiledL (runE).2.2.1 S1024x1.size (by sl_kernel_rfl) y
def sout0_E_1 : Vec F S1024x1 .f32 := VS0_1.read (Elt F) (VS0_1.writes (Elt F) VS0_1.junk (runE).2.2.1)
theorem scover0_E_2 (y : S1024x1.Idx) : ∃ pc ∈ (runE).2.2.2.1, y ∈ pc.1.set :=
  View.cover_of_tiledL (runE).2.2.2.1 S1024x1.size (by sl_kernel_rfl) y
def sout0_E_2 : Vec F S1024x1 .f32 := VS0_2.read (Elt F) (VS0_2.writes (Elt F) VS0_2.junk (runE).2.2.2.1)
end CaseE

section CaseF
variable (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32)
local notation "runF" => kernelRun0_F c i arg2 harg2 arg3 harg3 arg4 harg4 arg5 harg5 arg6 harg6 arg7 harg7 arg8 harg8 arg9 harg9 arg10 harg10 hc0 hc1 hc2 hc3 x0 x1 x2 x3 x4 xs0 xs1 xs2

/-- Case F (last column tile, off the diagonal): the store of the row tile's losses tiles the output's block. -/
theorem cover0_F_5 (y : S1024x1.Idx) : ∃ pc ∈ (runF).1, y ∈ pc.1.set :=
  View.cover_of_tiledL (runF).1 S1024x1.size (by sl_kernel_rfl) y
/-- What case F leaves in the output's buffer: the row tile's losses. -/
def out0_F_5 : Vec F S1024x1 .f32 := VO0_5.read (Elt F) (VO0_5.writes (Elt F) VO0_5.junk (runF).1)
theorem scover0_F_0 (y : S1024x1.Idx) : ∃ pc ∈ (runF).2.1, y ∈ pc.1.set :=
  View.cover_of_tiledL (runF).2.1 S1024x1.size (by sl_kernel_rfl) y
def sout0_F_0 : Vec F S1024x1 .f32 := VS0_0.read (Elt F) (VS0_0.writes (Elt F) VS0_0.junk (runF).2.1)
theorem scover0_F_1 (y : S1024x1.Idx) : ∃ pc ∈ (runF).2.2.1, y ∈ pc.1.set :=
  View.cover_of_tiledL (runF).2.2.1 S1024x1.size (by sl_kernel_rfl) y
def sout0_F_1 : Vec F S1024x1 .f32 := VS0_1.read (Elt F) (VS0_1.writes (Elt F) VS0_1.junk (runF).2.2.1)
theorem scover0_F_2 (y : S1024x1.Idx) : ∃ pc ∈ (runF).2.2.2.1, y ∈ pc.1.set :=
  View.cover_of_tiledL (runF).2.2.2.1 S1024x1.size (by sl_kernel_rfl) y
def sout0_F_2 : Vec F S1024x1 .f32 := VS0_2.read (Elt F) (VS0_2.writes (Elt F) VS0_2.junk (runF).2.2.2.1)
end CaseF

end Cases

/-! ## What the body leaves at a point, case by case -/

section AtPoint

variable (c : Dev nD) (t : Fin cfg0.N) (xs0 xs1 xs2 : Vec F S1024x1 .f32)

/-- A case's contents at point t: the memrefs the pipeline calls the body with there, then (in the text after the
    notation) the case's four decided conditions, the five input blocks and the scratch contents the body starts from. -/
local notation "atPt(" f ")" => f c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
local notation "inBlks(" g ")" => g (iblk m c 0 t) (iblk m c 1 t) (iblk m c 2 t) (iblk m c 3 t) (iblk m c 4 t) xs0 xs1 xs2

/-- Point t in case A (first column tile, diagonal), the body started at scratch contents xs. -/
def at0_A (h0 : t.val % 8 = 0) (h1 : t.val / 8 = t.val % 8) (h3 : ¬t.val % 8 = 7) : Outs F :=
  (unread0,
   inBlks(atPt(sout0_A_0) ((hcond0_0 t).mpr h0) ((hcond0_1 t).mpr h1) (fun h => (hcond0_2 t).mp h h1) (fun h => h3 ((hcond0_3 t).mp h))),
   inBlks(atPt(sout0_A_1) ((hcond0_0 t).mpr h0) ((hcond0_1 t).mpr h1) (fun h => (hcond0_2 t).mp h h1) (fun h => h3 ((hcond0_3 t).mp h))),
   inBlks(atPt(sout0_A_2) ((hcond0_0 t).mpr h0) ((hcond0_1 t).mpr h1) (fun h => (hcond0_2 t).mp h h1) (fun h => h3 ((hcond0_3 t).mp h))))

/-- Point t in case B (first column tile, off the diagonal). -/
def at0_B (h0 : t.val % 8 = 0) (h1 : ¬t.val / 8 = t.val % 8) (h3 : ¬t.val % 8 = 7) : Outs F :=
  (unread0,
   inBlks(atPt(sout0_B_0) ((hcond0_0 t).mpr h0) (fun h => h1 ((hcond0_1 t).mp h)) ((hcond0_2 t).mpr h1) (fun h => h3 ((hcond0_3 t).mp h))),
   inBlks(atPt(sout0_B_1) ((hcond0_0 t).mpr h0) (fun h => h1 ((hcond0_1 t).mp h)) ((hcond0_2 t).mpr h1) (fun h => h3 ((hcond0_3 t).mp h))),
   inBlks(atPt(sout0_B_2) ((hcond0_0 t).mpr h0) (fun h => h1 ((hcond0_1 t).mp h)) ((hcond0_2 t).mpr h1) (fun h => h3 ((hcond0_3 t).mp h))))

/-- Point t in case C (a middle column tile, diagonal). -/
def at0_C (h0 : ¬t.val % 8 = 0) (h1 : t.val / 8 = t.val % 8) (h3 : ¬t.val % 8 = 7) : Outs F :=
  (unread0,
   inBlks(atPt(sout0_C_0) (fun h => h0 ((hcond0_0 t).mp h)) ((hcond0_1 t).mpr h1) (fun h => (hcond0_2 t).mp h h1) (fun h => h3 ((hcond0_3 t).mp h))),
   inBlks(atPt(sout0_C_1) (fun h => h0 ((hcond0_0 t).mp h)) ((hcond0_1 t).mpr h1) (fun h => (hcond0_2 t).mp h h1) (fun h => h3 ((hcond0_3 t).mp h))),
   inBlks(atPt(sout0_C_2) (fun h => h0 ((hcond0_0 t).mp h)) ((hcond0_1 t).mpr h1) (fun h => (hcond0_2 t).mp h h1) (fun h => h3 ((hcond0_3 t).mp h))))

/-- Point t in case D (a middle column tile, off the diagonal). -/
def at0_D (h0 : ¬t.val % 8 = 0) (h1 : ¬t.val / 8 = t.val % 8) (h3 : ¬t.val % 8 = 7) : Outs F :=
  (unread0,
   inBlks(atPt(sout0_D_0) (fun h => h0 ((hcond0_0 t).mp h)) (fun h => h1 ((hcond0_1 t).mp h)) ((hcond0_2 t).mpr h1) (fun h => h3 ((hcond0_3 t).mp h))),
   inBlks(atPt(sout0_D_1) (fun h => h0 ((hcond0_0 t).mp h)) (fun h => h1 ((hcond0_1 t).mp h)) ((hcond0_2 t).mpr h1) (fun h => h3 ((hcond0_3 t).mp h))),
   inBlks(atPt(sout0_D_2) (fun h => h0 ((hcond0_0 t).mp h)) (fun h => h1 ((hcond0_1 t).mp h)) ((hcond0_2 t).mpr h1) (fun h => h3 ((hcond0_3 t).mp h))))

/-- Point t in case E (last column tile, diagonal): the row tile's losses are stored. -/
def at0_E (h0 : ¬t.val % 8 = 0) (h1 : t.val / 8 = t.val % 8) (h3 : t.val % 8 = 7) : Outs F :=
  (inBlks(atPt(out0_E_5) (fun h => h0 ((hcond0_0 t).mp h)) ((hcond0_1 t).mpr h1) (fun h => (hcond0_2 t).mp h h1) ((hcond0_3 t).mpr h3)),
   inBlks(atPt(sout0_E_0) (fun h => h0 ((hcond0_0 t).mp h)) ((hcond0_1 t).mpr h1) (fun h => (hcond0_2 t).mp h h1) ((hcond0_3 t).mpr h3)),
   inBlks(atPt(sout0_E_1) (fun h => h0 ((hcond0_0 t).mp h)) ((hcond0_1 t).mpr h1) (fun h => (hcond0_2 t).mp h h1) ((hcond0_3 t).mpr h3)),
   inBlks(atPt(sout0_E_2) (fun h => h0 ((hcond0_0 t).mp h)) ((hcond0_1 t).mpr h1) (fun h => (hcond0_2 t).mp h h1) ((hcond0_3 t).mpr h3)))

/-- Point t in case F (last column tile, off the diagonal): the row tile's losses are stored. -/
def at0_F (h0 : ¬t.val % 8 = 0) (h1 : ¬t.val / 8 = t.val % 8) (h3 : t.val % 8 = 7) : Outs F :=
  (inBlks(atPt(out0_F_5) (fun h => h0 ((hcond0_0 t).mp h)) (fun h => h1 ((hcond0_1 t).mp h)) ((hcond0_2 t).mpr h1) ((hcond0_3 t).mpr h3)),
   inBlks(atPt(sout0_F_0) (fun h => h0 ((hcond0_0 t).mp h)) (fun h => h1 ((hcond0_1 t).mp h)) ((hcond0_2 t).mpr h1) ((hcond0_3 t).mpr h3)),
   inBlks(atPt(sout0_F_1) (fun h => h0 ((hcond0_0 t).mp h)) (fun h => h1 ((hcond0_1 t).mp h)) ((hcond0_2 t).mpr h1) ((hcond0_3 t).mpr h3)),
   inBlks(atPt(sout0_F_2) (fun h => h0 ((hcond0_0 t).mp h)) (fun h => h1 ((hcond0_1 t).mp h)) ((hcond0_2 t).mpr h1) ((hcond0_3 t).mpr h3)))

end AtPoint

/-! ## What the buffers hold after each point -/

/-- THE ACCUMULATION: what the output's staging buffer and the three scratch buffers hold after the body at position n.
    The closed forms choose the case (column tile first, on the diagonal, column tile last); the body starts from the
    scratch contents the point before left (before the first point: contents nobody reads, the first column tile
    resets the scratch before reading it). -/
def outsAt0 (c : Dev nD) : (n : ℕ) → n < cfg0.N → Outs F
  | 0, hn => at0_A m c ⟨0, hn⟩ unread0 unread0 unread0 (Nat.zero_mod _) (by show (0 : ℕ) / 8 = 0 % 8; decide) (by show ¬(0 : ℕ) % 8 = 7; decide)
  | n + 1, hn =>
    if h0 : (n + 1) % 8 = 0 then
      at0_B m c ⟨n + 1, hn⟩ (outsAt0 c n (Nat.lt_of_succ_lt hn)).2.1 (outsAt0 c n (Nat.lt_of_succ_lt hn)).2.2.1 (outsAt0 c n (Nat.lt_of_succ_lt hn)).2.2.2
        h0 (fun h => by have hN : n + 1 < 64 := lt_of_lt_of_eq hn N_0; (try dsimp only at h); omega) (fun h => by (try dsimp only at h); omega)
    else if h1 : (n + 1) / 8 = (n + 1) % 8 then
      if h3 : (n + 1) % 8 = 7 then
        at0_E m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3
      else
        at0_C m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3
    else
      if h3 : (n + 1) % 8 = 7 then
        at0_F m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3
      else
        at0_D m c ⟨n + 1, hn⟩ (outsAt0 c n (Nat.lt_of_succ_lt hn)).2.1 (outsAt0 c n (Nat.lt_of_succ_lt hn)).2.2.1 (outsAt0 c n (Nat.lt_of_succ_lt hn)).2.2.2 h0 h1 h3

/-- What the point before t left (t not the first). -/
abbrev prev0 (c : Dev nD) (t : Fin cfg0.N) : Outs F := outsAt0 m c (t.val - 1) (Nat.lt_of_le_of_lt (Nat.sub_le _ _) t.isLt)

/-- outsAt0 at the first point: case A from contents nobody reads. -/
theorem outsAt0_A (c : Dev nD) (t : Fin cfg0.N) (hz : t.val = 0) :
    outsAt0 m c t.val t.isLt = at0_A m c t unread0 unread0 unread0 (by rw [hz]) (by rw [hz]) (by rw [hz]; decide) := by
  obtain ⟨n, hn⟩ := t
  cases n with
  | zero => exact rfl
  | succ n => exact absurd hz (Nat.succ_ne_zero _)

/-- outsAt0 at a point of case B: that case over what the point before left. -/
theorem outsAt0_B (c : Dev nD) (t : Fin cfg0.N) (hz : t.val ≠ 0) (h0 : t.val % 8 = 0) (h1 : ¬t.val / 8 = t.val % 8) (h3 : ¬t.val % 8 = 7) :
    outsAt0 m c t.val t.isLt = at0_B m c t (prev0 m c t).2.1 (prev0 m c t).2.2.1 (prev0 m c t).2.2.2 h0 h1 h3 := by
  obtain ⟨n, hn⟩ := t
  cases n with
  | zero => exact absurd rfl hz
  | succ n => exact (dif_pos h0).trans rfl

/-- outsAt0 at a point of case C. -/
theorem outsAt0_C (c : Dev nD) (t : Fin cfg0.N) (h0 : ¬t.val % 8 = 0) (h1 : t.val / 8 = t.val % 8) (h3 : ¬t.val % 8 = 7) :
    outsAt0 m c t.val t.isLt = at0_C m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_pos h1).trans ((dif_neg h3).trans rfl))

/-- outsAt0 at a point of case D. -/
theorem outsAt0_D (c : Dev nD) (t : Fin cfg0.N) (h0 : ¬t.val % 8 = 0) (h1 : ¬t.val / 8 = t.val % 8) (h3 : ¬t.val % 8 = 7) :
    outsAt0 m c t.val t.isLt = at0_D m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_neg h1).trans ((dif_neg h3).trans rfl))

/-- outsAt0 at a point of case E. -/
theorem outsAt0_E (c : Dev nD) (t : Fin cfg0.N) (h0 : ¬t.val % 8 = 0) (h1 : t.val / 8 = t.val % 8) (h3 : t.val % 8 = 7) :
    outsAt0 m c t.val t.isLt = at0_E m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_pos h1).trans ((dif_pos h3).trans rfl))

/-- outsAt0 at a point of case F. -/
theorem outsAt0_F (c : Dev nD) (t : Fin cfg0.N) (h0 : ¬t.val % 8 = 0) (h1 : ¬t.val / 8 = t.val % 8) (h3 : t.val % 8 = 7) :
    outsAt0 m c t.val t.isLt = at0_F m c t (prev0 m c t).2.1 (prev0 m c t).2.2.1 (prev0 m c t).2.2.2 h0 h1 h3 := by
  obtain ⟨n, hn⟩ := t
  cases n with
  | zero => exact absurd (Nat.zero_mod _) h0
  | succ n => exact (dif_neg h0).trans ((dif_neg h1).trans ((dif_pos h3).trans rfl))

/-! ## The region invariant -/

/-- What the launch hands the body besides the windows: the three scratch buffers, each owned at some contents. -/
theorem scoped0_eq (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

/-- The invariant before position n: before the first point the three scratch buffers at anything (what the launch hands
    over); afterwards each at what the point before left in it. -/
def PhiS (c : Dev nD) : (n : ℕ) → n ≤ cfg0.N → sProp 𝕄
  | 0, _ => Pipeline.scopedRest spec0 c
  | n + 1, hn => iprop(owns (c : Thread nD τ) scM0_0 fullShare (outsAt0 m c n hn).2.1 ∗ owns (c : Thread nD τ) scM0_1 fullShare (outsAt0 m c n hn).2.2.1
      ∗ owns (c : Thread nD τ) scM0_2 fullShare (outsAt0 m c n hn).2.2.2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare (outsAt0 m c n hn).2.1 ∗ owns (c : Thread nD τ) scM0_1 fullShare (outsAt0 m c n hn).2.2.1
      ∗ owns (c : Thread nD τ) scM0_2 fullShare (outsAt0 m c n hn).2.2.2) := rfl

theorem PhiS_pos (c : Dev nD) (n : ℕ) (h : n ≤ cfg0.N) (hz : n ≠ 0) :
    PhiS m c n h = iprop(owns (c : Thread nD τ) scM0_0 fullShare (outsAt0 m c (n - 1) (by omega)).2.1 ∗ owns (c : Thread nD τ) scM0_1 fullShare (outsAt0 m c (n - 1) (by omega)).2.2.1
      ∗ owns (c : Thread nD τ) scM0_2 fullShare (outsAt0 m c (n - 1) (by omega)).2.2.2) := by
  cases n with
  | zero => exact absurd rfl hz
  | succ n => rfl

/-! ## The pipeline's proof data -/

/-- The proof data of the one pipeline on core c: the arrays as the region finds them; after the body at point t each
    input's buffer at its block and the output's at outsAt0's first component; the invariant PhiS; nothing owed; the
    feature array, which windows 0 and 1 both read, held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

/-- The proof data's arrays are the region-entry contents (the definition projected, never unfolded further). -/
theorem A_eq (c : Dev nD) (w : Fin cfg0.W) : (dats m 0 c).A w = V m c (Pipeline.arrRef spec0 w) := by
  dsimp only [dats]

/-- The invariant at a point's start, restated at t.val. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-! ## What the body finds in the inputs' buffers -/

/-- An input window's current staging buffer holds its block at every point, fetched there or not, for any proof data
    whose array is the region-entry contents and whose body leaves the block in place: unfetched, the block index has
    not moved since the fetch (the feature array as keys and the column labels never move; the row tile's three blocks
    move when the row changes, and are fetched then). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows are idle -/

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Away from the last column tile the output's window is idle (the body stores nothing into it), -/
theorem idleAt0_5 : ∀ t : Fin cfg0.N, ¬cond0_3 (grid0.coords t) → cfg0.idle 5 (grid0.coords t) = true := by decide +kernel
/-- and its block is not written back there. -/
theorem noFlush0_5 : ∀ t : Fin cfg0.N, ¬cond0_3 (grid0.coords t) → (cfg0.win 5).flush t = false := by decide +kernel
/-- At the last column tile it is live. -/
theorem liveAt0_5 : ∀ t : Fin cfg0.N, cond0_3 (grid0.coords t) → cfg0.idle 5 (grid0.coords t) = false := by decide +kernel

/-! ## Into and out of the region -/

/-- What the launch hands the region is the invariant before the first point. -/
theorem hin (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back at some contents: what each holds is forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, scoped0_eq]
  iintro ⟨HS0, HS1, HS2⟩
  isplitl [HS0]; · iexists _; iexact HS0
  isplitl [HS1]; · iexists _; iexact HS1
  iexists _; iexact HS2

/-- The same after the last point. -/
theorem hout (c : Dev nD) : (dats m 0 c).Φ (Fin.last cfg0.N) ⊢ Pipeline.scopedRest spec0 c :=
  Phi_out m c _ (by rw [Fin.val_last]; have : cfg0.N = 64 := N_0; omega)

end Cert.KernelIdeal.Hand

end
-- ==== Proof.KIFrame.lean ====
/-
  The body obligation of the idealized kernel's one pipeline: at every one of the 64 grid points, from the invariant (the
  three scratch buffers at what the point before left), what the core owes (nothing) and each window's current buffer at
  what it then holds (an input's at its block; the output's at anything), the kernel's body runs to the invariant at the
  next point and every buffer at what the proof data says it leaves. By cases on the point: first column tile or not, on
  the diagonal or not, last column tile or not; in each case the whole-body run of that case applies, and the stores it
  makes cover each buffer it stores into, so the buffer holds those stores read back.
-/
import proofs.«125888_j37538014167620_2_alg».proof.Proof.KIFrameA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the closed forms say which of the six cases the point is
    in; the invariant hands the body the three scratch buffers at what the point before left (at anything before the first
    point, where the body resets them), and takes them back at this point's contents, which the case's stores cover. Away
    from the last column tile the output's buffer comes back as it was found; at the last column tile it comes back at the
    row tile's losses. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have hN : t.val < 64 := lt_of_lt_of_eq t.isLt (show cfg0.N = 64 from N_0)
  by_cases h0 : t.val % 8 = 0
  · have h3 : ¬t.val % 8 = 7 := by omega
    have hc3 : ¬cond0_3 (grid0.coords t) := fun h => h3 ((hcond0_3 t).mp h)
    rw [Dat.leavesExact_idle (dats m 0 c) 5 t (idleAt0_5 t hc3) (noFlush0_5 t hc3)]
    by_cases h1 : t.val / 8 = t.val % 8
    · -- case A: the first point
      have hz : t.val = 0 := by omega
      rw [outsAt0_A m c t hz]
      unfold at0_A; dsimp only
      rw [PhiS_castSucc m c t, PhiS_zero m c _ _ hz, scoped0_eq]
      iintro ⟨⟨⟨%d0, HS0⟩, ⟨%d1, HS1⟩, ⟨%d2, HS2⟩⟩, Ho, ⟨%e0, H0⟩, ⟨%e1, H1⟩, ⟨%e2, H2⟩, ⟨%e3, H3⟩, ⟨%e4, H4⟩, ⟨%e5, H5⟩⟩
      iapply ((kernelRun0_A c (grid0.coords t) _ _ _ _ _ _ _ _ _ _ _ _ _ _ _ _ _ _ ((hcond0_0 t).mpr h0) ((hcond0_1 t).mpr h1) (fun h => (hcond0_2 t).mp h h1) hc3
        (iblk m c 0 t) (iblk m c 1 t) (iblk m c 2 t) (iblk m c 3 t) (iblk m c 4 t) d0 d1 d2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro
          exact (View.read_writes_of_cover _ _ VS0_0 VS0_0.junk _ (scover0_A_0 c _ _ _ _ _ _ _ _ _ _ _ _ _ _ _ _ _ _ _ _ _ _ _ _ _ _ _ _ _ _ _)).trans
            (sout0_A_0_indep c _ _ _ _ _ _ _ _ _ _ _ _ _ _ _ _ _ _ _ _ _ _ _ _ _ _ _ _ _ _ _ _ _ _)
        isplitl [HS1]
        · unfold owns; iexists _; isplitr
          swap; · iexact HS1
          ipureintro
          exact (View.read_writes_of_cover _ _ VS0_1 VS0_1.junk _ (scover0_A_1 c _ _ _ _ _ _ _ _ _ _ _ _ _ _ _ _ _ _ _ _ _ _ _ _ _ _ _ _ _ _ _)).trans
            (sout0_A_1_indep c _ _ _ _ _ _ _ _ _ _ _ _ _ _ _ _ _ _ _ _ _ _ _ _ _ _ _ _ _ _ _ _ _ _)
        unfold owns; iexists _; isplitr
        swap; · iexact HS2
        ipureintro
        exact (View.read_writes_of_cover _ _ VS0_2 VS0_2.junk _ (scover0_A_2 c _ _ _ _ _ _ _ _ _ _ _ _ _ _ _ _ _ _ _ _ _ _ _ _ _ _ _ _ _ _ _)).trans
          (sout0_A_2_indep c _ _ _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · -- case B: the first column tile of a later row
      have hz : t.val ≠ 0 := fun h => h1 (by rw [h])
      rw [outsAt0_B m c t hz h0 h1 h3]
      unfold at0_B sout0_B_0 sout0_B_1 sout0_B_2; dsimp only
      rw [PhiS_castSucc m c t, PhiS_pos m c _ _ hz]
      iintro ⟨⟨HS0, HS1, HS2⟩, Ho, ⟨%e0, H0⟩, ⟨%e1, H1⟩, ⟨%e2, H2⟩, ⟨%e3, H3⟩, ⟨%e4, H4⟩, ⟨%e5, H5⟩⟩
      iapply ((kernelRun0_B c (grid0.coords t) _ _ _ _ _ _ _ _ _ _ _ _ _ _ _ _ _ _ ((hcond0_0 t).mpr h0) (fun h => h1 ((hcond0_1 t).mp h)) ((hcond0_2 t).mpr h1) hc3
        (iblk m c 0 t) (iblk m c 1 t) (iblk m c 2 t) (iblk m c 3 t) (iblk m c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val / 8 = t.val % 8
    · by_cases h3 : t.val % 8 = 7
      · -- case E: the last point
        have hc3 : cond0_3 (grid0.coords t) := (hcond0_3 t).mpr h3
        rw [show (dats m 0 c).leavesExact 5 t = owns (c : Thread nD τ) (ms0_5 t) fullShare ((dats m 0 c).after 5 t) from by
          unfold Dat.leavesExact; rw [liveAt0_5 t hc3], after0_5]
        rw [outsAt0_E m c t h0 h1 h3]
        unfold at0_E out0_E_5 sout0_E_0 sout0_E_1 sout0_E_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_E c (grid0.coords t) _ _ _ _ _ _ _ _ _ _ _ _ _ _ _ _ _ _ (fun h => h0 ((hcond0_0 t).mp h)) ((hcond0_1 t).mpr h1) (fun h => (hcond0_2 t).mp h h1) hc3
          (iblk m c 0 t) (iblk m c 1 t) (iblk m c 2 t) (iblk m c 3 t) (iblk m c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, ⟨%es5, H5⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_E_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_E_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_E_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_E_5 c _ _ _ _ _ _ _ _ _ _ _ _ _ _ _ _ _ _ _ _ _ _ _ _ _ _ _ _ _ _ _)
      · -- case C: a diagonal tile in the middle of its row
        have hc3 : ¬cond0_3 (grid0.coords t) := fun h => h3 ((hcond0_3 t).mp h)
        rw [Dat.leavesExact_idle (dats m 0 c) 5 t (idleAt0_5 t hc3) (noFlush0_5 t hc3)]
        rw [outsAt0_C m c t h0 h1 h3]
        unfold at0_C sout0_C_0 sout0_C_1 sout0_C_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_C c (grid0.coords t) _ _ _ _ _ _ _ _ _ _ _ _ _ _ _ _ _ _ (fun h => h0 ((hcond0_0 t).mp h)) ((hcond0_1 t).mpr h1) (fun h => (hcond0_2 t).mp h h1) hc3
          (iblk m c 0 t) (iblk m c 1 t) (iblk m c 2 t) (iblk m c 3 t) (iblk m c 4 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
    · by_cases h3 : t.val % 8 = 7
      · -- case F: the last column tile of a row other than the last
        have hc3 : cond0_3 (grid0.coords t) := (hcond0_3 t).mpr h3
        rw [show (dats m 0 c).leavesExact 5 t = owns (c : Thread nD τ) (ms0_5 t) fullShare ((dats m 0 c).after 5 t) from by
          unfold Dat.leavesExact; rw [liveAt0_5 t hc3], after0_5]
        rw [outsAt0_F m c t h0 h1 h3]
        unfold at0_F out0_F_5 sout0_F_0 sout0_F_1 sout0_F_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_F c (grid0.coords t) _ _ _ _ _ _ _ _ _ _ _ _ _ _ _ _ _ _ (fun h => h0 ((hcond0_0 t).mp h)) (fun h => h1 ((hcond0_1 t).mp h)) ((hcond0_2 t).mpr h1) hc3
          (iblk m c 0 t) (iblk m c 1 t) (iblk m c 2 t) (iblk m c 3 t) (iblk m c 4 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, ⟨%es5, H5⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_F_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_F_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_F_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_F_5 c _ _ _ _ _ _ _ _ _ _ _ _ _ _ _ _ _ _ _ _ _ _ _ _ _ _ _ _ _ _ _)
      · -- case D: an off-diagonal tile in the middle of its row
        have hc3 : ¬cond0_3 (grid0.coords t) := fun h => h3 ((hcond0_3 t).mp h)
        rw [Dat.leavesExact_idle (dats m 0 c) 5 t (idleAt0_5 t hc3) (noFlush0_5 t hc3)]
        rw [outsAt0_D m c t h0 h1 h3]
        unfold at0_D sout0_D_0 sout0_D_1 sout0_D_2; dsimp only
        rw [PhiS_castSucc m c t, PhiS_pos m c _ _ hz]
        iintro ⟨⟨HS0, HS1, HS2⟩, Ho, ⟨%e0, H0⟩, ⟨%e1, H1⟩, ⟨%e2, H2⟩, ⟨%e3, H3⟩, ⟨%e4, H4⟩, ⟨%e5, H5⟩⟩
        iapply ((kernelRun0_D c (grid0.coords t) _ _ _ _ _ _ _ _ _ _ _ _ _ _ _ _ _ _ (fun h => h0 ((hcond0_0 t).mp h)) (fun h => h1 ((hcond0_1 t).mp h)) ((hcond0_2 t).mpr h1) hc3
          (iblk m c 0 t) (iblk m c 1 t) (iblk m c 2 t) (iblk m c 3 t) (iblk m c 4 t) _ _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scover0_D_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_D_1 c _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_D_2 c _ _ _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5

set_option maxHeartbeats 4000000 in
/-- The library's body obligation, at every point. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

end Cert.KernelIdeal.Hand

end
-- ==== Proof.KILaunch.lean ====
/-
  The launch of the idealized kernel's one region, for any proof data whose body obligation holds: @main runs the host
  lines that normalise the features, tile the labels and count the positives, then the 8 x 8 grid of tiles, then the four
  host lines that average the per-row losses. Two of the region's windows read the same array (the normalised features,
  once by row tile and once whole), so the array's points-to is split between them in halves and joined again at the
  region's exit. The result buffer then holds the sum of the output array's 8192 entries divided by 8192, and the two
  argument arrays are as launched.
-/
import proofs.«125888_j37538014167620_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the four host lines after the region leave in the result buffer, from the output array's final contents:
    the sum of its 8192 entries divided by 8192. -/
def resOf (c : Dev nD) (A5 : Buf (Elt F) ((c.tc : Thread nD τ).loc main_v29)) : Buf (Elt F) ((c.tc : Thread nD τ).loc main_v31) :=
  Host.divf (F := F) (Host.reduceAdd (F := F) A5 (constant (F := F) S_ .f32 0x00000000#32) reducesTo_S8192x1_S_d0_1 h_S_) (constant (F := F) S_ .f32 0x46000000#32)

open Idealize.ShloMosaic.Pipeline (arrRef arrBufs unscopedRest scopedRest)

/-- The five distinct buffers behind the six windows' arrays. -/
theorem arrImage : (Finset.univ.image (arrRef spec0) : Finset (Ref sig .tc)) = [main_v8, main_v12, main_v13, main_v28, main_v29].toFinset := by decide

section Split
variable {c : Dev nD} (dat : Dat τ (Elt F) Unit ℕ (UR sig nD τ) ℕ cfg0 c)

/-- A window's array is a whole buffer: its points-to is the buffer's. -/
theorem arr_term (G : (w : Fin cfg0.W) → Buf (Elt F) ((cfg0.win w).arr.view.loc (c.tc : Thread nD τ))) (w : Fin cfg0.W) :
    ((cfg0.win w).arr.view.loc (c.tc : Thread nD τ) ↦[(cfg0.win w).arr.view.set]{dat.share w} G w : sProp 𝕄)
      = (((c.tc : Thread nD τ).loc (arrRef spec0 w)) ↦{dat.share w} G w) := by
  rw [(arr_whole0 w).set_eq_univ]

/-- The pipeline's arrays, window by window, each a whole buffer at the window's share. -/
theorem arrays_chain (G : (w : Fin cfg0.W) → Buf (Elt F) ((cfg0.win w).arr.view.loc (c.tc : Thread nD τ))) :
    (dat.arrays G : sProp 𝕄) = iprop(
      (((c.tc : Thread nD τ).loc main_v8) ↦{dat.q 0} G 0) ∗ (((c.tc : Thread nD τ).loc main_v8) ↦{dat.q 1} G 1)
      ∗ (((c.tc : Thread nD τ).loc main_v12) ↦{dat.q 2} G 2) ∗ (((c.tc : Thread nD τ).loc main_v13) ↦{dat.q 3} G 3)
      ∗ (((c.tc : Thread nD τ).loc main_v28) ↦{dat.q 4} G 4) ∗ (((c.tc : Thread nD τ).loc main_v29) ↦{fullShare} G 5)) := by
  unfold Dat.arrays
  exact (bigSep_congr fun w _ => arr_term dat G w).trans ((bigSep_W0 _).trans rfl)

/-- The buffers behind the arrays, each whole at the full share, make the pipeline's arrays at entry: the normalised
    features' buffer, which two windows read, is split into its left half for the row-tile window and its right half
    for the resident window. -/
theorem hsplit_of (Vc : (b : Ref sig .tc) → Buf (Elt F) ((c.tc : Thread nD τ).loc b))
    (G : (w : Fin cfg0.W) → Buf (Elt F) ((cfg0.win w).arr.view.loc (c.tc : Thread nD τ)))
    (hG : ∀ w, G w = Vc (arrRef spec0 w)) (hq0 : dat.q 0 = fullShare.left) (hq1 : dat.q 1 = fullShare.right)
    (hq : ∀ w : Fin cfg0.W, w ≠ 0 → w ≠ 1 → dat.q w = fullShare) :
    (arrBufs spec0 c Vc : sProp 𝕄) ⊢ dat.arrays G := by
  rw [arrays_chain, hq0, hq1, hq 2 (by decide) (by decide), hq 3 (by decide) (by decide), hq 4 (by decide) (by decide),
    hG 0, hG 1, hG 2, hG 3, hG 4, hG 5]
  unfold arrBufs
  rw [bigSep_eq_bigSepL_of_eq _ arrImage (by decide)]
  show iprop((((c.tc : Thread nD τ).loc main_v8) ↦{fullShare} Vc main_v8) ∗ (((c.tc : Thread nD τ).loc main_v12) ↦{fullShare} Vc main_v12)
      ∗ (((c.tc : Thread nD τ).loc main_v13) ↦{fullShare} Vc main_v13) ∗ (((c.tc : Thread nD τ).loc main_v28) ↦{fullShare} Vc main_v28)
      ∗ (((c.tc : Thread nD τ).loc main_v29) ↦{fullShare} Vc main_v29)) ⊢ _
  iintro ⟨H8, H12, H13, H28, H29⟩
  ihave H8' := (pointsTo_share (PosShare.mem_left_op_right fullShare)).1 $$ H8
  icases H8' with ⟨H8l, H8r⟩
  isplitl [H8l]; · iexact H8l
  isplitl [H8r]; · iexact H8r
  isplitl [H12]; · iexact H12
  isplitl [H13]; · iexact H13
  isplitl [H28]; · iexact H28
  iexact H29
end Split

/-! ## The contents the region is entered with, at the two argument arrays -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The four host lines after the region -/

/-- The buffers the four lines touch: the output array, which they read, and the two constants, the sum and the result,
    which they write. -/
abbrev tailList : List (Ref sig .tc) := [main_v29, main_cst_4, main_v30, main_cst_5, main_v31]
def tailSet : Finset (DevRef τ sig) := tailList.toFinset.map ⟨Proc.devRef (sig := sig) (.tc : Proc τ), Proc.devRef_injective _⟩

theorem mem_tailSet {r : Ref sig .tc} (h : r ∈ tailList) : Proc.devRef (τ := τ) .tc r ∈ tailSet :=
  Finset.mem_map_of_mem _ (List.mem_toFinset.mpr h)

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  · rw [StableHlo.nullary_bufs]; intro b hb
    rw [Finset.mem_singleton] at hb; subst hb; exact mem_tailSet (by decide)
  · rw [StableHlo.binary_bufs]; intro b hb
    simp only [Finset.mem_insert, Finset.mem_singleton] at hb
    rcases hb with rfl | rfl | rfl <;> exact mem_tailSet (by decide)
  · rw [StableHlo.nullary_bufs]; intro b hb
    rw [Finset.mem_singleton] at hb; subst hb; exact mem_tailSet (by decide)
  · rw [StableHlo.binary_bufs]; intro b hb
    simp only [Finset.mem_insert, Finset.mem_singleton] at hb
    rcases hb with rfl | rfl | rfl <;> exact mem_tailSet (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

section Tail
variable (c : Dev nD)

/-- The five buffers held, one by one. -/
theorem held_tail (W : Valuation τ sig (Elt F)) :
    (StableHlo.held (c.tc : Thread nD τ) tailSet W : sProp 𝕄) = iprop(
      (((c.tc : Thread nD τ).loc main_v29) ↦{fullShare} W (Proc.devRef .tc main_v29))
      ∗ (((c.tc : Thread nD τ).loc main_cst_4) ↦{fullShare} W (Proc.devRef .tc main_cst_4))
      ∗ (((c.tc : Thread nD τ).loc main_v30) ↦{fullShare} W (Proc.devRef .tc main_v30))
      ∗ (((c.tc : Thread nD τ).loc main_cst_5) ↦{fullShare} W (Proc.devRef .tc main_cst_5))
      ∗ (((c.tc : Thread nD τ).loc main_v31) ↦{fullShare} W (Proc.devRef .tc main_v31))) := by
  unfold StableHlo.held tailSet
  rw [bigSep_map, bigSep_eq_bigSepL _ (by decide)]
  rfl

/-- The contents the lines run from: the entry contents with the output array at its final contents. -/
def Wt (Vc0 : Valuation τ sig (Elt F)) (A5 : Buf (Elt F) ((c.tc : Thread nD τ).loc main_v29)) : Valuation τ sig (Elt F) :=
  Function.update Vc0 (Proc.devRef .tc main_v29) A5

theorem Wt_v29 (Vc0 : Valuation τ sig (Elt F)) (A5 : Buf (Elt F) ((c.tc : Thread nD τ).loc main_v29)) :
    Wt c Vc0 A5 (Proc.devRef .tc main_v29) = A5 := Function.update_self ..
theorem Wt_ne (Vc0 : Valuation τ sig (Elt F)) (A5 : Buf (Elt F) ((c.tc : Thread nD τ).loc main_v29)) {r : Ref sig .tc} (h : r ≠ main_v29) :
    Wt c Vc0 A5 (Proc.devRef .tc r) = Vc0 (Proc.devRef .tc r) := Function.update_of_ne (StableHlo.devRef_ne_of_ne h) ..

/-- The lines leave the output array as it was, -/
theorem after_v29 (W : Valuation τ sig (Elt F)) :
    StableHlo.after (List.flatten [hostOps1]) W (Proc.devRef .tc main_v29) = W (Proc.devRef .tc main_v29) :=
  StableHlo.after_of_forall_not_mem (b := Proc.devRef .tc main_v29) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide)))

/-- and the result buffer at the sum of the output array's entries divided by 8192. -/
theorem after_v31 (W : Valuation τ sig (Elt F)) :
    StableHlo.after (List.flatten [hostOps1]) W (Proc.devRef .tc main_v31) = resOf c (W (Proc.devRef .tc main_v29)) := by
  simp only [hostOps1, List.flatten_cons, List.flatten_nil, List.append_nil]
  after_results
  rfl

/-- What the five buffers hold after the lines, of which the proof keeps the output array and the result. -/
theorem held_after (Vc0 : Valuation τ sig (Elt F)) (A5 : Buf (Elt F) ((c.tc : Thread nD τ).loc main_v29)) :
    (StableHlo.held (c.tc : Thread nD τ) tailSet (StableHlo.after (List.flatten [hostOps1]) (Wt c Vc0 A5)) : sProp 𝕄)
      ⊢ iprop((((c.tc : Thread nD τ).loc main_v29) ↦{fullShare} A5) ∗ (((c.tc : Thread nD τ).loc main_v31) ↦{fullShare} resOf c A5)) := by
  rw [held_tail, after_v29, after_v31, Wt_v29]
  iintro ⟨H5, -, -, -, H31⟩
  isplitl [H5]; · iexact H5
  iexact H31
end Tail

section TailRun
variable (c : Dev nD) (dat : Dat τ (Elt F) Unit ℕ (UR sig nD τ) ℕ cfg0 c)

/-- What is kept of the bypassing buffers after the lines: the result, and the two argument arrays. -/
def ZP (Vc0 : Valuation τ sig (Elt F)) (A5 : Buf (Elt F) ((c.tc : Thread nD τ).loc main_v29)) : sProp 𝕄 :=
  iprop((((c.tc : Thread nD τ).loc main_v31) ↦{fullShare} resOf c A5)
    ∗ (((c.tc : Thread nD τ).loc main_arg0) ↦{fullShare} Vc0 (Proc.devRef .tc main_arg0))
    ∗ (((c.tc : Thread nD τ).loc main_arg1) ↦{fullShare} Vc0 (Proc.devRef .tc main_arg1)))

/-- The six bypassing buffers the proof follows, out of the thirty-eight. -/
abbrev keepList : List (Ref sig .tc) := [main_cst_4, main_v30, main_cst_5, main_v31, main_arg0, main_arg1]

theorem keep_sub : keepList.toFinset ⊆ (Finset.univ.filter fun b : Ref sig .tc => ¬ b.isScoped) \ Finset.univ.image (arrRef spec0) := by decide

theorem rest_split (Vc : (b : Ref sig .tc) → Buf (Elt F) ((c.tc : Thread nD τ).loc b)) :
    (unscopedRest spec0 c Vc : sProp 𝕄) = iprop(
      ((((c.tc : Thread nD τ).loc main_cst_4) ↦{fullShare} Vc main_cst_4) ∗ (((c.tc : Thread nD τ).loc main_v30) ↦{fullShare} Vc main_v30)
        ∗ (((c.tc : Thread nD τ).loc main_cst_5) ↦{fullShare} Vc main_cst_5) ∗ (((c.tc : Thread nD τ).loc main_v31) ↦{fullShare} Vc main_v31)
        ∗ (((c.tc : Thread nD τ).loc main_arg0) ↦{fullShare} Vc main_arg0) ∗ (((c.tc : Thread nD τ).loc main_arg1) ↦{fullShare} Vc main_arg1))
      ∗ bigSep (((Finset.univ.filter fun b : Ref sig .tc => ¬ b.isScoped) \ Finset.univ.image (arrRef spec0)) \ keepList.toFinset)
          fun b => ((c.tc : Thread nD τ).loc b) ↦{fullShare} Vc b) := by
  unfold unscopedRest
  rw [bigSep_sdiff_split keep_sub, bigSep_eq_bigSepL _ (by decide)]
  rfl

set_option backward.isDefEq.respectTransparency.types false in
/-- THE LINES AFTER THE REGION: from the region's exit — the boundary, the arrays at `G`, the bypassing buffers at the
    entry contents — the four lines run within the output array, which they read, and the four buffers they write, and
    hand back the arrays as they were, the result at `resOf` of the output array's contents and the two argument arrays. -/
theorem tail_of (Vc0 : Valuation τ sig (Elt F)) (G : (w : Fin cfg0.W) → Buf (Elt F) ((cfg0.win w).arr.view.loc (c.tc : Thread nD τ)))
    (Q' : PUnit → sProp 𝕄) :
    iprop((iprop(dat.arrays G ∗ ZP c Vc0 (G 5)) -∗ Q' ⟨⟩)
        ∗ boundary (c.tc : Thread nD τ) ∗ dat.arrays G ∗ unscopedRest spec0 c (fun b => Vc0 (Proc.devRef .tc b)))
      ⊢ wp frame (wpE (Pipeline.defs (fun q => Cfg.toPCfg (Val := Elt F) (cfgs q)) (defs₀ (F := F))) (Variants.lift Variants.none) (c.tc : Thread nD τ) none) Set.univ
          (Pipeline.chain [StableHlo.seq hostOps1]) Q' := by
  rw [arrays_chain, rest_split]
  unfold ZP
  iintro ⟨Hk, Hb, ⟨H0, H1, H2, H3, H4, H5⟩, ⟨Hc4, H30, Hc5, H31, Ha0, Ha1⟩, -⟩
  iapply (Pipeline.wp_seqs_then (fun q => Cfg.toPCfg (Val := Elt F) (cfgs q)) (defs₀ (F := F)) Variants.none c tailSet [] [hostOps1] tail_sub tail_fresh (Wt c Vc0 (G 5)))
    $$ [Hb H5 Hc4 H30 Hc5 H31]
  · rw [held_tail, Wt_v29, Wt_ne c Vc0 (G 5) (r := main_cst_4) (by decide), Wt_ne c Vc0 (G 5) (r := main_v30) (by decide),
      Wt_ne c Vc0 (G 5) (r := main_cst_5) (by decide), Wt_ne c Vc0 (G 5) (r := main_v31) (by decide)]
    isplitl [Hb]; · iexact Hb
    isplitl [H5]; · iexact H5
    isplitl [Hc4]; · iexact Hc4
    isplitl [H30]; · iexact H30
    isplitl [Hc5]; · iexact Hc5
    iexact H31
  iintro ⟨-, Hh⟩
  rw [Pipeline.chain_nil, wp_pure]
  ihave Hh' := (held_after c Vc0 (G 5)) $$ Hh
  icases Hh' with ⟨H5, H31⟩
  imodintro
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H31]; · iexact H31
  isplitl [Ha0]; · iexact Ha0
  iexact Ha1
end TailRun

/-! ## The run -/

set_option backward.isDefEq.respectTransparency.types false in
/-- At the compiled mesh, from any memory with zero counters: for any proof data of the one pipeline whose arrays are the
    region-entry contents (`hA`), that split the normalised features' buffer in halves between the two windows reading it
    (`hq0`, `hq1`) and hold every other input whole (`hq`), that owe nothing (`howed`), whose body obligation holds (`hbody`) and
    whose invariant is entered from and left to the scoped rest (`hin`, `hout`): every weakly fair execution of @main on the
    TensorCores terminates, the result buffer ends at the mean of the output array's final contents, and the two argument
    arrays end as launched. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq1 : ∀ c, (dats 0 c).q 1 = fullShare.right)
    (hq : ∀ c (w : Fin cfg0.W), w ≠ 0 → w ≠ 1 → (dats 0 c).q w = fullShare)
    (howed : ∀ c t, (dats 0 c).owed t = 0)
    (hbody : ∀ c, Pipeline.BodyObligationLoose (dats 0 c) (defs₀ (F := F)) Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) ⟨m, fun _ => 0, ρ⟩ (fun r => ∀ c : Dev nD,
      r.2.mem ((c.tc : Thread nD τ).loc main_v31) = resOf c ((dats 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun p => (cfgs p).toPCfg) (fun p => (cfgs p).toPCfg_adm) dats () cellOf_inj (0 : Fin 1) winFacts₀0
    (Pipeline.PreFacts.none _) emb₁ defs₀ Variants.none
    m ρ main (fun _ => Pipeline.chain [StableHlo.seq hostOps1]) hbody block_pos0 arr_whole0 stage_whole0 howed
    (u₀ := initOf (Pipeline.cells cfgs cellOf_inj) (Pipeline.launchToks cfgs cellOf_inj)) (hu₀ := .rfl)
    (V := V m) (hmain := hmain m Variants.none)
    (hsplit := fun c => hsplit_of (dats 0 c) (V m c) _ (fun w => hA c w) (hq0 c) (hq1 c) (hq c))
    (hpf := fun _ k => k.elim0)
    (X := fun _ => iprop(emp)) (Y := fun _ => iprop(emp))
    (Z := fun c => unscopedRest (Ix := Unit) (Name := ℕ) (U := UR sig nD τ) (Lvl := ℕ) spec0 c (V m c))
    (Z' := fun c => ZP c (V0 m c) ((dats 0 c).arrAt 5 cfg0.N))
    (hX := fun c => by
      rw [Pipeline.unscopedRestP_none]
      iintro H; isplitr; · iempintro
      iexact H)
    (hin := fun c => (show _ ⊢ (Pipeline.scopedRest spec0 c : sProp 𝕄) from by iintro ⟨-, -, HR⟩; iexact HR).trans (hin c))
    (hout := fun c => (hout c).trans (by
      iintro H; isplitr; · iempintro
      iexact H))
    (htail := fun c Q' => tail_of c (dats 0 c) (V0 m c) (fun w => (dats 0 c).arrAt w cfg0.N) Q')
    (QY := fun c s => s.mem ((c.tc : Thread nD τ).loc main_v31) = resOf c ((dats 0 c).arrAt 5 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold ZP
      iintro ⟨-, ⟨H31, Ha0, Ha1⟩, HSI⟩
      icombine HSI H31 gives %h31
      icombine HSI Ha0 gives %h0
      icombine HSI Ha1 gives %h1
      imodintro
      isplitr
      · ipureintro
        exact ⟨Buf.eq_of_forall_mem_univ h31, (Buf.eq_of_forall_mem_univ h0).trans (V_main_arg0 m c),
          (Buf.eq_of_forall_mem_univ h1).trans (V_main_arg1 m c)⟩
      · iexact HSI)
    (hQ := fun s h c => (h c).2.2)

end Cert.KernelIdeal.Hand

end
-- ==== Proof.KIMain.lean ====
/-
  The idealized kernel's whole run: the launch of its one region (for any proof data meeting the body obligation) at the
  proof data of the supervised-contrastive body. Every weakly fair execution of @main terminates without a fault; the
  result buffer ends at the mean of the output array's final contents, and the two argument arrays end unchanged.
-/
import proofs.«125888_j37538014167620_2_alg».proof.Proof.KIFrame
import proofs.«125888_j37538014167620_2_alg».proof.Proof.KILaunch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- Windows 0 and 1 read one array and hold a half share of it each; every other window holds its array whole. -/
theorem q_rest (c : Dev nD) (w : Fin cfg0.W) (h0 : w ≠ 0) (h1 : w ≠ 1) : (dats m 0 c).q w = fullShare := by
  match w with
  | ⟨0, _⟩ => exact absurd rfl h0
  | ⟨1, _⟩ => exact absurd rfl h1
  | ⟨2, _⟩ => rfl
  | ⟨3, _⟩ => rfl
  | ⟨4, _⟩ => rfl
  | ⟨5, _⟩ => rfl

theorem run_main : θ_run defs (onTc (τ := τ) (main (F := F))) ⟨m, fun _ => 0, ρ⟩ (fun r => ∀ c : Dev nD,
      r.2.mem ((c.tc : Thread nD τ).loc main_v31) = resOf c ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (A_eq m) (fun _ => rfl) (fun _ => rfl) (q_rest m) (fun _ _ => rfl)
    (fun c => (body_obligation m c).loose) (hin m) (hout m)

end Cert.KernelIdeal.Hand

end
-- ==== Proof.KIBlocks.lean ====
/-
  What an input window's block at a grid point holds, in the array's own coordinates. Point t is row tile t / 8 and
  column tile t % 8. The row tile's block of the normalised features, of the row labels and of the positive counts is
  rows 1024 * (t / 8) ... of the array; the two resident windows (all normalised features, all column labels) are the
  whole array at every point. (An element of a block sits, on each axis, at block index x block size + its coordinate.)
-/
import proofs.«125888_j37538014167620_2_alg».proof.Proof.KIBase
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F] [Named F]
variable (m : (ℓ : Loc nD τ sig) → Buf (Elt F) ℓ)

theorem idx0_0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = t.val / 8 ∧ win0_4.index t 1 = 0 :=
  (by decide +kernel : ∀ t : Fin grid0.N, win0_4.index t 0 = t.val / 8 ∧ win0_4.index t 1 = 0)

/-- The row tile's block of the normalised features. -/
theorem iblk0_apply (c : Dev nD) (t : Fin cfg0.N) (a : Fin 1024) (d : Fin 128) (h : 1024 * (t.val / 8) + a.val < 8192) :
    (iblk m c 0 t : Vec F S1024x128 .bf16) (ix2 a d) = V m c main_v8 (ix2 ⟨1024 * (t.val / 8) + a.val, h⟩ d) := by
  unfold iblk
  rw [View.read_apply]
  show V m c main_v8 _ = V m c main_v8 _
  refine congrArg (V m c main_v8) ?_
  funext ax
  apply Fin.ext
  match ax with
  | ⟨0, _⟩ => show win0_0.index t 0 * 1024 + 1 * a.val = 1024 * (t.val / 8) + a.val; rw [(idx0_0 t).1]; omega
  | ⟨1, _⟩ => show win0_0.index t 1 * 128 + 1 * d.val = d.val; rw [(idx0_0 t).2]; omega

/-- The resident window: all the normalised features, at every point. -/
theorem iblk1_apply (c : Dev nD) (t : Fin cfg0.N) (b : Fin 8192) (d : Fin 128) :
    (iblk m c 1 t : Vec F S8192x128 .bf16) (ix2 b d) = V m c main_v8 (ix2 b d) := by
  unfold iblk
  rw [View.read_apply]
  show V m c main_v8 _ = V m c main_v8 _
  refine congrArg (V m c main_v8) ?_
  funext ax
  apply Fin.ext
  match ax with
  | ⟨0, _⟩ => show win0_1.index t 0 * 8192 + 1 * b.val = b.val; rw [(idx0_1 t).1]; omega
  | ⟨1, _⟩ => show win0_1.index t 1 * 128 + 1 * d.val = d.val; rw [(idx0_1 t).2]; omega

/-- The row tile's block of the row labels. -/
theorem iblk2_apply (c : Dev nD) (t : Fin cfg0.N) (a : Fin 1024) (u : Fin 1) (h : 1024 * (t.val / 8) + a.val < 8192) :
    (iblk m c 2 t : Vec F S1024x1 .i32) (ix2 a u) = V m c main_v12 (ix2 ⟨1024 * (t.val / 8) + a.val, h⟩ u) := by
  unfold iblk
  rw [View.read_apply]
  show V m c main_v12 _ = V m c main_v12 _
  refine congrArg (V m c main_v12) ?_
  funext ax
  apply Fin.ext
  match ax with
  | ⟨0, _⟩ => show win0_2.index t 0 * 1024 + 1 * a.val = 1024 * (t.val / 8) + a.val; rw [(idx0_2 t).1]; omega
  | ⟨1, _⟩ => show win0_2.index t 1 * 1 + 1 * u.val = u.val; rw [(idx0_2 t).2]; omega

/-- The resident window: all the column labels, at every point. -/
theorem iblk3_apply (c : Dev nD) (t : Fin cfg0.N) (u : Fin 1) (b : Fin 8192) :
    (iblk m c 3 t : Vec F S1x8192 .i32) (ix2 u b) = V m c main_v13 (ix2 u b) := by
  unfold iblk
  rw [View.read_apply]
  show V m c main_v13 _ = V m c main_v13 _
  refine congrArg (V m c main_v13) ?_
  funext ax
  apply Fin.ext
  match ax with
  | ⟨0, _⟩ => show win0_3.index t 0 * 1 + 1 * u.val = u.val; rw [(idx0_3 t).1]; omega
  | ⟨1, _⟩ => show win0_3.index t 1 * 8192 + 1 * b.val = b.val; rw [(idx0_3 t).2]; omega

/-- The row tile's block of the positive counts. -/
theorem iblk4_apply (c : Dev nD) (t : Fin cfg0.N) (a : Fin 1024) (u : Fin 1) (h : 1024 * (t.val / 8) + a.val < 8192) :
    (iblk m c 4 t : Vec F S1024x1 .f32) (ix2 a u) = V m c main_v28 (ix2 ⟨1024 * (t.val / 8) + a.val, h⟩ u) := by
  unfold iblk
  rw [View.read_apply]
  show V m c main_v28 _ = V m c main_v28 _
  refine congrArg (V m c main_v28) ?_
  funext ax
  apply Fin.ext
  match ax with
  | ⟨0, _⟩ => show win0_4.index t 0 * 1024 + 1 * a.val = 1024 * (t.val / 8) + a.val; rw [(idx0_4 t).1]; omega
  | ⟨1, _⟩ => show win0_4.index t 1 * 1 + 1 * u.val = u.val; rw [(idx0_4 t).2]; omega

end Cert.KernelIdeal.Hand

end
-- ==== Proof.KIPieceDefs.lean ====
/-
  The values one grid point of the idealized kernel computes, named once for every module that reads a case run's found
  pieces back: the column tile's rows and labels as the body loads them from the two resident arrays, one point's update
  of the three running statistics of a row tile (running maximum, running sum of exponentials, running sum over
  positives), and the block of losses written at the last column tile. All are written over the named payloads of the
  body's skeleton, generic in the float interpretation.
-/
import proofs.«125888_j37538014167620_2_alg».proof.Proof.KIBase
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole-shape rectangle's zero offsets, however the zeros are spelt. -/
theorem hzero2 : (![0, 0] : Fin 2 → Nat) = fun _ => 0 := funext fun a => by fin_cases a <;> rfl

/-- The three running statistics of a row tile: the running maximum, the running sum of exponentials, the running sum
    over positives. -/
abbrev Trip (F : FTy → Type) : Type := Vec F S1024x1 .f32 × Vec F S1024x1 .f32 × Vec F S1024x1 .f32

/-- The column tile's 1024 rows of the resident feature array: what the body loads at the offset it computes from the
    column coordinate. -/
def ktile (i : grid0.Coords) (x1 : Vec F S8192x128 .bf16) : Vec F S1024x128 .bf16 :=
  View.ld x1 (Rect.unit (s := S8192x128) (k0_off1 i) S1024x128.size (k0_off1_inb i))

/-- The column tile's 1024 labels, loaded likewise from the resident row of labels. -/
def klabs (i : grid0.Coords) (x3 : Vec F S1x8192 .i32) : Vec F S1x1024 .i32 :=
  View.ld x3 (Rect.unit (s := S1x8192) (k0_off2 i) S1x1024.size (k0_off2_inb i))

/-- One grid point's update of the running statistics, from the blocks the point reads: on the first column tile the
    statistics are first reset (the maximum to minus infinity, both sums to zero); the maximum is raised by the tile's
    row maxima; the sums are rescaled and extended by the tile's terms, on the diagonal tile without the self-pairs. -/
def stepP (i : grid0.Coords) (x0 : Vec F S1024x128 .bf16) (x1 : Vec F S8192x128 .bf16) (x2 : Vec F S1024x1 .i32)
    (x3 : Vec F S1x8192 .i32) (x4 : Vec F S1024x1 .f32) (s : Trip F) : Trip F :=
  let s0 : Trip F := if cond0_0 i then (k0_pay4, k0_pay5, k0_pay6) else s
  (k0_pay10 x0 (ktile i x1) s0.1,
   if cond0_1 i then k0_pay13 i x0 (ktile i x1) s0.1 s0.2.1
   else k0_pay1 (k0_pay7 x0 (ktile i x1)) (k0_pay8 x0 (ktile i x1) s0.1) (k0_pay9 x0 (ktile i x1) s0.1) s0.2.1,
   if cond0_1 i then k0_pay14 i x0 (ktile i x1) (klabs i x3) x2 s0.2.2
   else k0_pay2 (k0_pay7 x0 (ktile i x1)) (k0_pay11 (klabs i x3) x2) s0.2.2)

/-- The block of per-row losses the body writes at the last column tile, from the statistics that point has just
    updated: minus (p - (m + log (l + 1e-12)) * cnt) / max (cnt, 1). -/
def outP (i : grid0.Coords) (x0 : Vec F S1024x128 .bf16) (x1 : Vec F S8192x128 .bf16) (x2 : Vec F S1024x1 .i32)
    (x3 : Vec F S1x8192 .i32) (x4 : Vec F S1024x1 .f32) (s : Trip F) : Vec F S1024x1 .f32 :=
  k0_pay3 (stepP i x0 x1 x2 x3 x4 s).2.1 x4 (stepP i x0 x1 x2 x3 x4 s).2.2 (stepP i x0 x1 x2 x3 x4 s).1

/-- On the first column tile the update does not read the statistics it starts from. -/
theorem stepP_reset (i : grid0.Coords) (h0 : cond0_0 i) (x0 : Vec F S1024x128 .bf16) (x1 : Vec F S8192x128 .bf16)
    (x2 : Vec F S1024x1 .i32) (x3 : Vec F S1x8192 .i32) (x4 : Vec F S1024x1 .f32) (s s' : Trip F) :
    stepP i x0 x1 x2 x3 x4 s = stepP i x0 x1 x2 x3 x4 s' := by
  unfold stepP; simp only [if_pos h0]

/-! ## The two loads at an index -/

/-- The offsets of the column tile's rows in the resident feature array: 1024 times the column coordinate, and zero. -/
theorem k0_off1_eq : ∀ i : grid0.Coords, k0_off1 i 0 = 1024 * (i 1).val ∧ k0_off1 i 1 = 0 := by decide +kernel
/-- The offsets of the column tile's labels in the resident row of labels: zero, and 1024 times the column coordinate. -/
theorem k0_off2_eq : ∀ i : grid0.Coords, k0_off2 i 0 = 0 ∧ k0_off2 i 1 = 1024 * (i 1).val := by decide +kernel

/-- Row `b` of the column tile is row `1024 * column + b` of the resident array. -/
theorem ktile_apply (i : grid0.Coords) (x1 : Vec F S8192x128 .bf16) (b : Fin 1024) (d : Fin 128)
    (h : 1024 * (i 1).val + b.val < 8192) :
    ktile i x1 (ValueIdx.ix2 b d) = x1 (ValueIdx.ix2 ⟨1024 * (i 1).val + b.val, h⟩ d) := by
  unfold ktile
  refine congrArg x1 ?_
  funext a
  apply Fin.ext
  match a with
  | ⟨0, _⟩ => show k0_off1 i 0 + 1 * b.val = 1024 * (i 1).val + b.val; rw [(k0_off1_eq i).1]; omega
  | ⟨1, _⟩ => show k0_off1 i 1 + 1 * d.val = d.val; rw [(k0_off1_eq i).2]; omega

/-- Label `b` of the column tile is label `1024 * column + b` of the resident row. -/
theorem klabs_apply (i : grid0.Coords) (x3 : Vec F S1x8192 .i32) (b : Fin 1024)
    (h : 1024 * (i 1).val + b.val < 8192) :
    klabs i x3 (ValueIdx.ix2 0 b) = x3 (ValueIdx.ix2 0 ⟨1024 * (i 1).val + b.val, h⟩) := by
  unfold klabs
  refine congrArg x3 ?_
  funext a
  apply Fin.ext
  match a with
  | ⟨0, _⟩ => show k0_off2 i 0 + 1 * 0 = 0; rw [(k0_off2_eq i).1]
  | ⟨1, _⟩ => show k0_off2 i 1 + 1 * b.val = 1024 * (i 1).val + b.val; rw [(k0_off2_eq i).2]; omega

end Cert.KernelIdeal.Hand

end
-- ==== Proof.Spec.lean ====
/-
  The two sides of the claim as plain functions of the argument arrays on the extended reals, over literal index types.
  Rows: the 4096 x 2 x 128 features are read as 8192 rows of 128 (row r is view r % 2 of sample r / 2); each row is
  divided by max(eps, its Euclidean norm); `dot r j` is the inner product of two normalised rows. Row r carries the
  label of sample r % 4096 (the labels tiled twice). `same r j` is 1 when the two rows carry one label, `off r j` is 0
  on the diagonal and 1 elsewhere.
  The reference divides the inner products by the temperature, subtracts the row maximum, and averages over the rows
      - ( sum_j same*off * ( (s - M) - log( sum_j exp(s - M)*off + eps ) ) ) / max(1, sum_j same*off).
  The kernel multiplies the inner products by the reciprocal of the temperature and walks the 8192 columns in 8 tiles
  of 1024, carrying the running maximum m, the running sum l of exponentials (rescaled by exp(m - m') whenever the
  maximum moves) and the running sum p of the positives' similarities; at the end of the row
      - ( (p - (m + log(l + eps)) * cnt) / max(cnt, 1) ),   cnt = 2 * #{samples with the row's label} - 1.
-/
import Idealize.ShloMosaic.PureOps.Ideal
import Idealize.ShloMosaic.Lib.ValueIdx

noncomputable section

namespace Cert.Spec

open Idealize.ShloMosaic

/-- The sample, the view and the label-carrying sample of a row; column j of tile k. -/
def sampleOf (r : Fin 8192) : Fin 4096 := ⟨r.val / 2, by omega⟩
def viewOf (r : Fin 8192) : Fin 2 := ⟨r.val % 2, by omega⟩
def labOf (r : Fin 8192) : Fin 4096 := ⟨r.val % 4096, by omega⟩
def col (k : Fin 8) (j : Fin 1024) : Fin 8192 := ⟨1024 * k.val + j.val, by omega⟩

/-- The two literals both programs carry as words: the guard 1e-12 (as an f32) and, in the reference only, the
    temperature 0.07 (as an f32, the rational 9395241 / 2^27); the kernel's scale is the temperature's exact reciprocal. -/
def eps : EReal := Ideal.ofBits .f32 0x2B8CBCCC#32
def temp : EReal := Ideal.ofBits .f32 0x3D8F5C29#32
def invTemp : EReal := ((134217728 / 9395241 : ℝ) : EReal)

variable (x : Fin 4096 → Fin 2 → Fin 128 → EReal) (lb : Fin 4096 → BitVec 32)

def row (r : Fin 8192) (d : Fin 128) : EReal := x (sampleOf r) (viewOf r) d
def nrm (r : Fin 8192) : EReal := max eps (Ideal.sqrt (∑ d : Fin 128, row x r d * row x r d))
def feat (r : Fin 8192) (d : Fin 128) : EReal := Ideal.div (row x r d) (nrm x r)
def dot (r j : Fin 8192) : EReal := ∑ d : Fin 128, feat x r d * feat x j d
def same (r j : Fin 8192) : EReal := if lb (labOf r) = lb (labOf j) then 1 else 0
def off (r j : Fin 8192) : EReal := 1 - (if r = j then 1 else 0)

/-! ## The reference -/

def sR (r j : Fin 8192) : EReal := Ideal.div (dot x r j) temp
def mR (r : Fin 8192) : EReal := Finset.univ.sup (sR x r)
def zR (r : Fin 8192) : EReal := ∑ j : Fin 8192, Ideal.exp (sR x r j - mR x r) * off r j
def lpR (r j : Fin 8192) : EReal := (sR x r j - mR x r) - Ideal.log (zR x r + eps)
def mskR (r j : Fin 8192) : EReal := same lb r j * off r j
def lossR (r : Fin 8192) : EReal :=
  (-1) * Ideal.div (∑ j : Fin 8192, mskR lb r j * lpR x r j) (max 1 (∑ j : Fin 8192, mskR lb r j))
def refLoss : EReal := Ideal.div (∑ r : Fin 8192, lossR x lb r) 8192

/-! ## The kernel -/

def sK (r j : Fin 8192) : EReal := dot x r j * invTemp

/-- One column tile's effect on the carried triple (running maximum, running sum of exponentials, running positive sum). -/
def stepK (r : Fin 8192) (k : Fin 8) (s : EReal × EReal × EReal) : EReal × EReal × EReal :=
  let m' := max s.1 (Finset.univ.sup fun j : Fin 1024 => sK x r (col k j))
  (m',
   s.2.1 * Ideal.exp (s.1 - m') + ∑ j : Fin 1024, Ideal.exp (sK x r (col k j) - m') * off r (col k j),
   s.2.2 + ∑ j : Fin 1024, (same lb r (col k j) * off r (col k j)) * sK x r (col k j))

/-- The carried triple after the first n tiles, from (-inf, 0, 0). -/
def stateK (r : Fin 8192) : ℕ → EReal × EReal × EReal
  | 0 => (⊥, 0, 0)
  | n + 1 => if h : n < 8 then stepK x lb r ⟨n, h⟩ (stateK r n) else stateK r n

def cntK (r : Fin 8192) : EReal := 2 * (∑ b : Fin 4096, if lb (labOf r) = lb b then (1 : EReal) else 0) - 1
def lossK (r : Fin 8192) : EReal :=
  (-1) * Ideal.div ((stateK x lb r 8).2.2 - ((stateK x lb r 8).1 + Ideal.log ((stateK x lb r 8).2.1 + eps)) * cntK lb r)
    (max (cntK lb r) 1)
def kerLoss : EReal := Ideal.div (∑ r : Fin 8192, lossK x lb r) 8192

/-- Every feature is a real number. -/
def Finite : Prop := ∀ b v d, x b v d ≠ ⊤ ∧ x b v d ≠ ⊥

end Cert.Spec

end
-- ==== Proof.KIValue.lean ====
/-
  The idealized kernel's pure arithmetic read at an index, at the ideal instance (floats are extended reals, every
  operation exact), against the specification.
  The body of the kernel computes, from the row tile's block q (1024 x 128), the column tile's 1024 rows kt of the
  resident features, the two label vectors and the carried columns m, l, p (1024 x 1):
    the similarity tile            S(a, b) = (sum_d q(a, d) * kt(b, d)) * c,   c the reciprocal of the temperature;
    the new running maximum        m'(a)   = max (m(a)) (sup_b S(a, b));
    the rescaling factor           exp (m(a) - m'(a));
    the label mask                 [label of row a = label of column b];
    the self-pair mask             1 - [global row = global column]   (used on the diagonal tile only);
    the new sum of exponentials    l(a) * exp (m(a) - m'(a)) + sum_b exp (S(a, b) - m'(a)) [* self-pair mask];
    the new positive sum           p(a) + sum_b (label mask [* self-pair mask]) * S(a, b);
    at the last column tile        - ((p - (m + log (l + eps)) * cnt) / max (cnt, 1)).
  Each is read here at literal coordinates (a, b : Fin 1024), one layout operation at a time: a lane reduction as a sum
  or a supremum over the row, a column cast [n] -> [n, 1], a column or row broadcast to the tile, the contraction of the
  matrix product as a sum over its 128 coordinates. Then one tile step of these values is the specification's
  `Cert.Spec.stepK` on the diagonal and off it (where the self-pair mask, which the kernel leaves out, is 1 on the
  whole tile), and the value written at the last column tile is `Cert.Spec.lossK`. Every statement carries its
  hypotheses about the loaded blocks explicitly, so nothing here depends on which block sits at which grid point.
-/
import proofs.«125888_j37538014167620_2_alg».proof.Proof.Gen.KernelIdeal.Skeleton
import proofs.«125888_j37538014167620_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen
open Idealize.ShloMosaic Idealize.ShloMosaic.ValueIdx

variable {α : Type}

/-! ## Layout operations of a keep-dimensions column, read at coordinates -/

/-- A vector of `n` entries cast to a column `[n, 1]` reads, at `(a, u)`, the entry `a`. -/
theorem shapeCast_a_a1_apply {n : ℕ} (x : (⟨1, ![n]⟩ : Shape).Idx → α) (h : (⟨1, ![n]⟩ : Shape).ShapeCasts ⟨2, ![n, 1]⟩)
    (a : Fin n) (u : Fin 1) : shapeCast ⟨2, ![n, 1]⟩ x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Lane reductions of a 1024 x 1024 tile, read at a row -/

/-- The lane sum of a tile at row `a` is the sum over the row's 1024 entries. -/
theorem laneSum_apply (src : FVec Ideal S1024x1024 .f32) (h : S1024x1024.Reduces [1] S1024) (hφ : FKind.Formats .f32)
    (hacc : (0x00000000#32 : BitVec 32) = 0x00000000#32) (a : Fin 1024) :
    multiReduction .add [1] S1024 src 0x00000000#32 h hφ hacc (ix1 a) = ∑ b : Fin 1024, src (ix2 a b) := by
  refine (Ideal.multiReduction_add_single src 0x00000000#32 h hφ hacc (ix1 a)).trans ?_
  refine Finset.sum_congr rfl fun b _ => congrArg src ?_
  funext c; match c with | ⟨0, _⟩ => rfl | ⟨1, _⟩ => rfl

/-- The word of minus infinity denotes the bottom extended real. -/
theorem ofBits_neg_inf : Ideal.ofBits .f32 0xFF800000#32 = ⊥ := by simp [Ideal.ofBits, Ideal.ieee]

/-- The lane maximum of a tile at row `a` is the supremum of the row's 1024 entries. -/
theorem laneMax_apply (src : FVec Ideal S1024x1024 .f32) (h : S1024x1024.Reduces [1] S1024) (hφ : FKind.Formats .f32)
    (hacc : (0xFF800000#32 : BitVec 32) = 0xFF800000#32) (a : Fin 1024) :
    multiReduction .maximumf [1] S1024 src 0xFF800000#32 h hφ hacc (ix1 a) = Finset.univ.sup fun b : Fin 1024 => src (ix2 a b) := by
  refine (Ideal.multiReduction_maximumf_single src 0xFF800000#32 h hφ hacc (ix1 a)).trans ?_
  rw [Ideal.ofBits_def, ofBits_neg_inf]
  have e : (src ∘ h.lift (ix1 a)) = fun b : Fin 1024 => src (ix2 a b) :=
    funext fun b => congrArg src (funext fun c => by match c with | ⟨0, _⟩ => rfl | ⟨1, _⟩ => rfl)
  rw [e]
  rfl

/-! ## The scaled similarity tile -/

/-- The kernel's scale is the reciprocal of the temperature, as a real. -/
theorem invTemp_named :
    Named.named (F := Ideal) κ "fold_c_134217728_9395241" (φ := .f32) 0x41649249#32 = Cert.Spec.invTemp :=
  IdealRules.named_const.ideal_named_scalar _ _ _ _ rfl

/-- The left operand's row coordinate under an output index is the output's row. -/
theorem lhsIdx0 (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The right operand's column coordinate under an output index is the output's column. -/
theorem rhsIdx1 (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- Entry `(a, b)` of the similarity tile: the inner product of row `a` of the row tile with row `b` of the column
    tile, times the scale. -/
theorem pay7_apply (q kt : FVec Ideal S1024x128 .bf16) (a b : Fin 1024) :
    k0_pay7 (F := Ideal) q kt (ix2 a b) = (∑ d : Fin 128, q (ix2 a d) * kt (ix2 b d)) * Cert.Spec.invTemp := by
  unfold k0_pay7
  simp only [shapeCast_self]
  rw [mulf_apply, broadcast_apply, invTemp_named]
  refine congrArg (· * Cert.Spec.invTemp) ?_
  simp only [matmul]
  rw [Ideal.matmul_constant_zero_apply, ← Equiv.sum_comp (contrEquiv1 dot_S1024x128_S128x1024_S1024x1024_1_0_0_1_n_n 128 rfl rfl).symm]
  refine Finset.sum_congr rfl fun d _ => ?_
  have hk := contrEquiv1_symm_val dot_S1024x128_S128x1024_S1024x1024_1_0_0_1_n_n 128 rfl rfl d
  have el : dot_S1024x128_S128x1024_S1024x1024_1_0_0_1_n_n.lhsIdx (ix2 a b) ((contrEquiv1 dot_S1024x128_S128x1024_S1024x1024_1_0_0_1_n_n 128 rfl rfl).symm d) = ix2 a d := funext fun c => Fin.ext (by
    match c with
    | ⟨0, _⟩ => exact lhsIdx0 _ _
    | ⟨1, _⟩ => exact (dot_S1024x128_S128x1024_S1024x1024_1_0_0_1_n_n.lhsIdx_val_of_single rfl _ _).trans hk)
  have er : dot_S1024x128_S128x1024_S1024x1024_1_0_0_1_n_n.rhsIdx (ix2 a b) ((contrEquiv1 dot_S1024x128_S128x1024_S1024x1024_1_0_0_1_n_n 128 rfl rfl).symm d) = ix2 d b := funext fun c => Fin.ext (by
    match c with
    | ⟨0, _⟩ => exact (dot_S1024x128_S128x1024_S1024x1024_1_0_0_1_n_n.rhsIdx_val_of_single rfl _ _).trans hk
    | ⟨1, _⟩ => exact rhsIdx1 _ _)
  rw [el, er, transpose_ix2_apply]

/-! ## The running maximum and the rescaling factor -/

/-- The new running maximum at row `a`: the old one against the row's largest similarity in this tile. -/
theorem pay8_apply (q kt : FVec Ideal S1024x128 .bf16) (mS : FVec Ideal S1024x1 .f32) (a : Fin 1024) (u : Fin 1) :
    k0_pay8 (F := Ideal) q kt mS (ix2 a u)
      = max (mS (ix2 a u)) (Finset.univ.sup fun b : Fin 1024 => k0_pay7 (F := Ideal) q kt (ix2 a b)) := by
  unfold k0_pay8
  generalize k0_pay7 (F := Ideal) q kt = S
  rw [maximumf_apply, shapeCast_a_a1_apply, laneMax_apply]

/-- The factor that rescales the old sum of exponentials: `exp (m - m')`. -/
theorem pay9_apply (q kt : FVec Ideal S1024x128 .bf16) (mS : FVec Ideal S1024x1 .f32) (a : Fin 1024) (u : Fin 1) :
    k0_pay9 (F := Ideal) q kt mS (ix2 a u) = Ideal.exp (mS (ix2 a u) - k0_pay8 (F := Ideal) q kt mS (ix2 a u)) := rfl

/-- What is stored as the new running maximum is that maximum. -/
theorem pay10_eq (q kt : FVec Ideal S1024x128 .bf16) (mS : FVec Ideal S1024x1 .f32) :
    k0_pay10 (F := Ideal) q kt mS = k0_pay8 (F := Ideal) q kt mS := by
  unfold k0_pay10
  exact shapeCast_self _ _

/-- The resets at the first column tile: minus infinity, zero, zero. -/
theorem pay4_apply (j : S1024x1.Idx) : k0_pay4 (F := Ideal) j = ⊥ := by
  unfold k0_pay4
  simp only [shapeCast_self]
  exact ofBits_neg_inf
theorem pay5_apply (j : S1024x1.Idx) : k0_pay5 (F := Ideal) j = 0 := by
  unfold k0_pay5
  simp only [shapeCast_self]
  exact Ideal.ofBits_zero_f32
theorem pay6_apply (j : S1024x1.Idx) : k0_pay6 (F := Ideal) j = 0 := by
  unfold k0_pay6
  simp only [shapeCast_self]
  exact Ideal.ofBits_zero_f32

/-! ## The two masks -/

/-- A one-bit comparison, widened and converted, is the indicator of the equality. -/
theorem sitofp_extui_cmpi_eq (x y : BitVec 32) :
    (FloatOps.sitofp (F := Ideal) .f32 ((IntOp.cmpi .eq x y).setWidth 32) : EReal) = if x = y then 1 else 0 := by
  show (((((BitVec.ofBool (x == y)).setWidth 32).toInt : ℝ)) : EReal) = _
  by_cases h : x = y
  · rw [if_pos h, beq_iff_eq.mpr h]
    have e : ((BitVec.ofBool true).setWidth 32).toInt = 1 := by decide
    rw [e]; simp
  · rw [if_neg h, beq_eq_false_iff_ne.mpr h]
    have e : ((BitVec.ofBool false).setWidth 32).toInt = 0 := by decide
    rw [e]; simp

/-- The label mask at `(a, b)`: 1 when row `a`'s label is column `b`'s. -/
theorem pay11_apply (klab : IVec S1x1024 32) (qlab : IVec S1024x1 32) (a b : Fin 1024) :
    k0_pay11 (F := Ideal) klab qlab (ix2 a b) = if qlab (ix2 a (0 : Fin 1)) = klab (ix2 (0 : Fin 1) b) then 1 else 0 := by
  unfold k0_pay11
  simp only [shapeCast_self]
  rw [sitofp_apply, extui_apply]
  show FloatOps.sitofp (F := Ideal) .f32 ((IntOp.cmpi .eq _ _).setWidth 32) = _
  rw [sitofp_extui_cmpi_eq, broadcastTo_a1_ab_apply, broadcastTo_1b_ab_apply]

/-- The words of 1.0 and of -1.0 denote 1 and -1. -/
theorem ofBits_one : Ideal.ofBits .f32 0x3F800000#32 = 1 := IdealRules.sign_bit.ideal_onePat .f32
theorem ofBits_neg_one : Ideal.ofBits .f32 0xBF800000#32 = -1 := IdealRules.sign_bit.ideal_negOnePat .f32

/-- A global row number `1024 n0 + a` and a global column number `1024 n1 + b`, computed in 32-bit words, agree as
    words exactly when they agree as numbers: nothing wraps below 8192. -/
theorem tile_word_eq (n0 n1 a b : ℕ) (h0 : n0 < 8) (h1 : n1 < 8) (ha : a < 1024) (hb : b < 1024) :
    (IntOp.addi (Scalar.muli (BitVec.ofNat 32 n0) 1024#32) (BitVec.ofNat 32 a)
        = IntOp.addi (Scalar.muli (BitVec.ofNat 32 n1) 1024#32) (BitVec.ofNat 32 b))
      ↔ 1024 * n0 + a = 1024 * n1 + b := by
  simp only [IntOp.addi, Scalar.muli, IntOp.muli]
  rw [← BitVec.toNat_inj]
  simp only [BitVec.toNat_add, BitVec.toNat_mul, BitVec.toNat_ofNat]
  omega

/-- The self-pair mask at `(a, b)` of the tile at grid point `i`: 0 where the global row is the global column, 1
    elsewhere. -/
theorem pay12_apply (i : grid0.Coords) (a b : Fin 1024) :
    k0_pay12 (F := Ideal) i (ix2 a b)
      = 1 - (if 1024 * (i 0).val + a.val = 1024 * (i 1).val + b.val then 1 else 0) := by
  have h0 : (i 0).val < 8 := (i 0).isLt
  have h1 : (i 1).val < 8 := (i 1).isLt
  unfold k0_pay12
  rw [subf_apply, broadcast_apply, sitofp_apply, extui_apply]
  show Ideal.ofBits .f32 0x3F800000#32 - FloatOps.sitofp (F := Ideal) .f32 ((IntOp.cmpi .eq _ _).setWidth 32) = _
  rw [ofBits_one, sitofp_extui_cmpi_eq, broadcastTo_a1_ab_apply, broadcastTo_1b_ab_apply]
  refine congrArg (fun t : EReal => 1 - t) ?_
  refine if_congr ?_ rfl rfl
  show IntOp.addi (Scalar.muli _ 1024#32) (iota .tc S1024x1 32 [0] iota_S1024x1_d0_w32 (ix2 a (0 : Fin 1)))
      = IntOp.addi (Scalar.muli _ 1024#32) (iota .tc S1x1024 32 [1] iota_S1x1024_d1_w32 (ix2 (0 : Fin 1) b)) ↔ _
  rw [iota_single_apply, iota_single_apply]
  exact tile_word_eq _ _ _ _ h0 h1 a.isLt b.isLt

/-! ## The new sum of exponentials and the new positive sum -/

/-- Off the diagonal: the old sum rescaled, plus the row's exponentials. -/
theorem pay1_apply (v16 : FVec Ideal S1024x1024 .f32) (v20 v22 lS : FVec Ideal S1024x1 .f32) (a : Fin 1024) :
    k0_pay1 (F := Ideal) v16 v20 v22 lS (ix2 a (0 : Fin 1))
      = lS (ix2 a (0 : Fin 1)) * v22 (ix2 a (0 : Fin 1))
        + ∑ b : Fin 1024, Ideal.exp (v16 (ix2 a b) - v20 (ix2 a (0 : Fin 1))) := by
  unfold k0_pay1
  simp only [shapeCast_self]
  rw [addf_apply, mulf_apply, shapeCast_a_a1_apply, laneSum_apply]
  refine congrArg (lS (ix2 a (0 : Fin 1)) * v22 (ix2 a (0 : Fin 1)) + ·) (Finset.sum_congr rfl fun b _ => ?_)
  show Ideal.exp (v16 (ix2 a b) - broadcastTo S1024x1024 v20 broadcasts_S1024x1_S1024x1024 (ix2 a b)) = _
  rw [broadcastTo_a1_ab_apply]

/-- On the diagonal: the same with the self-pair masked out. -/
theorem pay13_apply (i : grid0.Coords) (q kt : FVec Ideal S1024x128 .bf16) (mS lS : FVec Ideal S1024x1 .f32) (a : Fin 1024) :
    k0_pay13 (F := Ideal) i q kt mS lS (ix2 a (0 : Fin 1))
      = lS (ix2 a (0 : Fin 1)) * k0_pay9 (F := Ideal) q kt mS (ix2 a (0 : Fin 1))
        + ∑ b : Fin 1024, Ideal.exp (k0_pay7 (F := Ideal) q kt (ix2 a b) - k0_pay8 (F := Ideal) q kt mS (ix2 a (0 : Fin 1)))
            * k0_pay12 (F := Ideal) i (ix2 a b) := by
  unfold k0_pay13
  generalize k0_pay7 (F := Ideal) q kt = S
  generalize k0_pay8 (F := Ideal) q kt mS = M
  generalize k0_pay9 (F := Ideal) q kt mS = A
  generalize k0_pay12 (F := Ideal) i = E
  simp only [shapeCast_self]
  rw [addf_apply, mulf_apply, shapeCast_a_a1_apply, laneSum_apply]
  refine congrArg (lS (ix2 a (0 : Fin 1)) * A (ix2 a (0 : Fin 1)) + ·) (Finset.sum_congr rfl fun b _ => ?_)
  show Ideal.exp (S (ix2 a b) - broadcastTo S1024x1024 M broadcasts_S1024x1_S1024x1024 (ix2 a b)) * E (ix2 a b) = _
  rw [broadcastTo_a1_ab_apply]

/-- Off the diagonal: the old positive sum plus the row's label-masked similarities. -/
theorem pay2_apply (v16 v32 : FVec Ideal S1024x1024 .f32) (pS : FVec Ideal S1024x1 .f32) (a : Fin 1024) :
    k0_pay2 (F := Ideal) v16 v32 pS (ix2 a (0 : Fin 1))
      = pS (ix2 a (0 : Fin 1)) + ∑ b : Fin 1024, v32 (ix2 a b) * v16 (ix2 a b) := by
  unfold k0_pay2
  simp only [shapeCast_self]
  rw [addf_apply, shapeCast_a_a1_apply, laneSum_apply]
  rfl

/-- On the diagonal: the same with the self-pair masked out. -/
theorem pay14_apply (i : grid0.Coords) (q kt : FVec Ideal S1024x128 .bf16) (klab : IVec S1x1024 32) (qlab : IVec S1024x1 32)
    (pS : FVec Ideal S1024x1 .f32) (a : Fin 1024) :
    k0_pay14 (F := Ideal) i q kt klab qlab pS (ix2 a (0 : Fin 1))
      = pS (ix2 a (0 : Fin 1))
        + ∑ b : Fin 1024, (k0_pay11 (F := Ideal) klab qlab (ix2 a b) * k0_pay12 (F := Ideal) i (ix2 a b))
            * k0_pay7 (F := Ideal) q kt (ix2 a b) := by
  unfold k0_pay14
  generalize k0_pay7 (F := Ideal) q kt = S
  generalize k0_pay11 (F := Ideal) klab qlab = L
  generalize k0_pay12 (F := Ideal) i = E
  simp only [shapeCast_self]
  rw [addf_apply, shapeCast_a_a1_apply, laneSum_apply]
  rfl

/-! ## The row's loss, written at the last column tile -/

theorem pay3_apply (l cnt p mx : FVec Ideal S1024x1 .f32) (a : Fin 1024) :
    k0_pay3 (F := Ideal) l cnt p mx (ix2 a (0 : Fin 1))
      = (-1) * Ideal.div (p (ix2 a (0 : Fin 1))
            - (mx (ix2 a (0 : Fin 1)) + Ideal.log (l (ix2 a (0 : Fin 1)) + Cert.Spec.eps)) * cnt (ix2 a (0 : Fin 1)))
          (max (cnt (ix2 a (0 : Fin 1))) 1) := by
  unfold k0_pay3
  simp only [shapeCast_self]
  show Ideal.ofBits .f32 0xBF800000#32 * Ideal.div (p (ix2 a (0 : Fin 1))
        - (mx (ix2 a (0 : Fin 1)) + Ideal.log (l (ix2 a (0 : Fin 1)) + Ideal.ofBits .f32 0x2B8CBCCC#32)) * cnt (ix2 a (0 : Fin 1)))
      (max (cnt (ix2 a (0 : Fin 1))) (Ideal.ofBits .f32 0x3F800000#32)) = _
  rw [ofBits_neg_one, ofBits_one]
  rfl

/-! ## One tile step of the payloads is the specification's step -/

section Step

variable (x : Fin 4096 → Fin 2 → Fin 128 → EReal) (lb : Fin 4096 → BitVec 32)

/-- The specification's new running maximum. -/
def newMax (r : Fin 8192) (k : Fin 8) (s : EReal × EReal × EReal) : EReal :=
  max s.1 (Finset.univ.sup fun j : Fin 1024 => Cert.Spec.sK x r (Cert.Spec.col k j))

/-- The specification's step with its three components written out. -/
theorem stepK_eq (r : Fin 8192) (k : Fin 8) (s : EReal × EReal × EReal) :
    Cert.Spec.stepK x lb r k s
      = (newMax x r k s,
         s.2.1 * Ideal.exp (s.1 - newMax x r k s)
           + ∑ j : Fin 1024, Ideal.exp (Cert.Spec.sK x r (Cert.Spec.col k j) - newMax x r k s) * Cert.Spec.off r (Cert.Spec.col k j),
         s.2.2 + ∑ j : Fin 1024, (Cert.Spec.same lb r (Cert.Spec.col k j) * Cert.Spec.off r (Cert.Spec.col k j))
           * Cert.Spec.sK x r (Cert.Spec.col k j)) := rfl

/-- With row `a` of the row tile the normalised row `r` and the column tile's rows those of tile `k`, row `a` of the
    similarity tile holds the specification's scaled similarities of `r` against tile `k`. -/
theorem pay7_sK (q kt : FVec Ideal S1024x128 .bf16) (a b : Fin 1024) (r : Fin 8192) (k : Fin 8)
    (hq : ∀ d : Fin 128, q (ix2 a d) = Cert.Spec.feat x r d)
    (hkt : ∀ (b : Fin 1024) (d : Fin 128), kt (ix2 b d) = Cert.Spec.feat x (Cert.Spec.col k b) d) :
    k0_pay7 (F := Ideal) q kt (ix2 a b) = Cert.Spec.sK x r (Cert.Spec.col k b) := by
  rw [pay7_apply]
  unfold Cert.Spec.sK Cert.Spec.dot
  refine congrArg (· * Cert.Spec.invTemp) (Finset.sum_congr rfl fun d _ => ?_)
  rw [hq d, hkt b d]

/-- The self-pair mask is the specification's `off`. -/
theorem pay12_off (i : grid0.Coords) (a b : Fin 1024) (r : Fin 8192) (k : Fin 8)
    (hr : r.val = 1024 * (i 0).val + a.val) (hk : k.val = (i 1).val) :
    k0_pay12 (F := Ideal) i (ix2 a b) = Cert.Spec.off r (Cert.Spec.col k b) := by
  rw [pay12_apply]
  unfold Cert.Spec.off
  refine congrArg (fun t : EReal => 1 - t) (if_congr ?_ rfl rfl)
  rw [← hr, ← hk]
  constructor
  · intro h; exact Fin.ext h
  · intro h; rw [h]; rfl

/-- The label mask is the specification's `same`. -/
theorem pay11_same (klab : IVec S1x1024 32) (qlab : IVec S1024x1 32) (a b : Fin 1024) (r : Fin 8192) (k : Fin 8)
    (hql : qlab (ix2 a (0 : Fin 1)) = lb (Cert.Spec.labOf r))
    (hkl : ∀ b : Fin 1024, klab (ix2 (0 : Fin 1) b) = lb (Cert.Spec.labOf (Cert.Spec.col k b))) :
    k0_pay11 (F := Ideal) klab qlab (ix2 a b) = Cert.Spec.same lb r (Cert.Spec.col k b) := by
  rw [pay11_apply, hql, hkl b]
  rfl

/-- Off the diagonal no column of the tile is the row itself. -/
theorem off_of_ne (i : grid0.Coords) (a b : Fin 1024) (r : Fin 8192) (k : Fin 8)
    (hr : r.val = 1024 * (i 0).val + a.val) (hk : k.val = (i 1).val) (hd : (i 0).val ≠ (i 1).val) :
    Cert.Spec.off r (Cert.Spec.col k b) = 1 := by
  unfold Cert.Spec.off
  rw [if_neg, sub_zero]
  intro h
  have h' : r.val = 1024 * k.val + b.val := congrArg Fin.val h
  have ha := a.isLt
  have hb := b.isLt
  omega

/-- The new running maximum is the specification's. -/
theorem pay8_newMax (q kt : FVec Ideal S1024x128 .bf16) (mS : FVec Ideal S1024x1 .f32) (a : Fin 1024) (r : Fin 8192) (k : Fin 8)
    (s : EReal × EReal × EReal)
    (hq : ∀ d : Fin 128, q (ix2 a d) = Cert.Spec.feat x r d)
    (hkt : ∀ (b : Fin 1024) (d : Fin 128), kt (ix2 b d) = Cert.Spec.feat x (Cert.Spec.col k b) d)
    (hm : mS (ix2 a (0 : Fin 1)) = s.1) :
    k0_pay8 (F := Ideal) q kt mS (ix2 a (0 : Fin 1)) = newMax x r k s := by
  rw [pay8_apply, hm]
  unfold newMax
  refine congrArg (max s.1) (congrArg (Finset.sup Finset.univ) (funext fun b => ?_))
  exact pay7_sK x q kt a b r k hq hkt

/-- A tile on the diagonal: the three stored values at row `a` are the specification's step of the carried triple. -/
theorem step_diag (i : grid0.Coords) (q kt : FVec Ideal S1024x128 .bf16) (klab : IVec S1x1024 32) (qlab : IVec S1024x1 32)
    (mS lS pS : FVec Ideal S1024x1 .f32) (a : Fin 1024) (r : Fin 8192) (k : Fin 8) (s : EReal × EReal × EReal)
    (hr : r.val = 1024 * (i 0).val + a.val) (hk : k.val = (i 1).val)
    (hq : ∀ d : Fin 128, q (ix2 a d) = Cert.Spec.feat x r d)
    (hkt : ∀ (b : Fin 1024) (d : Fin 128), kt (ix2 b d) = Cert.Spec.feat x (Cert.Spec.col k b) d)
    (hql : qlab (ix2 a (0 : Fin 1)) = lb (Cert.Spec.labOf r))
    (hkl : ∀ b : Fin 1024, klab (ix2 (0 : Fin 1) b) = lb (Cert.Spec.labOf (Cert.Spec.col k b)))
    (hm : mS (ix2 a (0 : Fin 1)) = s.1) (hl : lS (ix2 a (0 : Fin 1)) = s.2.1) (hp : pS (ix2 a (0 : Fin 1)) = s.2.2)
    (hd : (i 0).val = (i 1).val) :
    (k0_pay10 (F := Ideal) q kt mS (ix2 a (0 : Fin 1)), k0_pay13 (F := Ideal) i q kt mS lS (ix2 a (0 : Fin 1)),
        k0_pay14 (F := Ideal) i q kt klab qlab pS (ix2 a (0 : Fin 1)))
      = Cert.Spec.stepK x lb r k s := by
  have hM := pay8_newMax x q kt mS a r k s hq hkt hm
  rw [stepK_eq]
  refine Prod.ext ?_ (Prod.ext ?_ ?_)
  · show k0_pay10 (F := Ideal) q kt mS (ix2 a (0 : Fin 1)) = newMax x r k s
    rw [pay10_eq, hM]
  · show k0_pay13 (F := Ideal) i q kt mS lS (ix2 a (0 : Fin 1)) = _
    rw [pay13_apply, pay9_apply, hM, hl, hm]
    refine congrArg (s.2.1 * Ideal.exp (s.1 - newMax x r k s) + ·) (Finset.sum_congr rfl fun b _ => ?_)
    rw [pay7_sK x q kt a b r k hq hkt, pay12_off i a b r k hr hk]
  · show k0_pay14 (F := Ideal) i q kt klab qlab pS (ix2 a (0 : Fin 1)) = _
    rw [pay14_apply, hp]
    refine congrArg (s.2.2 + ·) (Finset.sum_congr rfl fun b _ => ?_)
    rw [pay7_sK x q kt a b r k hq hkt, pay12_off i a b r k hr hk, pay11_same lb klab qlab a b r k hql hkl]

/-- A tile off the diagonal: the same, the kernel leaving out the self-pair mask, which is 1 on the whole tile. -/
theorem step_offdiag (i : grid0.Coords) (q kt : FVec Ideal S1024x128 .bf16) (klab : IVec S1x1024 32) (qlab : IVec S1024x1 32)
    (mS lS pS : FVec Ideal S1024x1 .f32) (a : Fin 1024) (r : Fin 8192) (k : Fin 8) (s : EReal × EReal × EReal)
    (hr : r.val = 1024 * (i 0).val + a.val) (hk : k.val = (i 1).val)
    (hq : ∀ d : Fin 128, q (ix2 a d) = Cert.Spec.feat x r d)
    (hkt : ∀ (b : Fin 1024) (d : Fin 128), kt (ix2 b d) = Cert.Spec.feat x (Cert.Spec.col k b) d)
    (hql : qlab (ix2 a (0 : Fin 1)) = lb (Cert.Spec.labOf r))
    (hkl : ∀ b : Fin 1024, klab (ix2 (0 : Fin 1) b) = lb (Cert.Spec.labOf (Cert.Spec.col k b)))
    (hm : mS (ix2 a (0 : Fin 1)) = s.1) (hl : lS (ix2 a (0 : Fin 1)) = s.2.1) (hp : pS (ix2 a (0 : Fin 1)) = s.2.2)
    (hd : (i 0).val ≠ (i 1).val) :
    (k0_pay10 (F := Ideal) q kt mS (ix2 a (0 : Fin 1)),
        k0_pay1 (F := Ideal) (k0_pay7 (F := Ideal) q kt) (k0_pay8 (F := Ideal) q kt mS) (k0_pay9 (F := Ideal) q kt mS) lS (ix2 a (0 : Fin 1)),
        k0_pay2 (F := Ideal) (k0_pay7 (F := Ideal) q kt) (k0_pay11 (F := Ideal) klab qlab) pS (ix2 a (0 : Fin 1)))
      = Cert.Spec.stepK x lb r k s := by
  have hM := pay8_newMax x q kt mS a r k s hq hkt hm
  rw [stepK_eq]
  refine Prod.ext ?_ (Prod.ext ?_ ?_)
  · show k0_pay10 (F := Ideal) q kt mS (ix2 a (0 : Fin 1)) = newMax x r k s
    rw [pay10_eq, hM]
  · show k0_pay1 (F := Ideal) _ _ _ lS (ix2 a (0 : Fin 1)) = _
    rw [pay1_apply, pay9_apply, hM, hl, hm]
    refine congrArg (s.2.1 * Ideal.exp (s.1 - newMax x r k s) + ·) (Finset.sum_congr rfl fun b _ => ?_)
    rw [pay7_sK x q kt a b r k hq hkt, off_of_ne i a b r k hr hk hd, mul_one]
  · show k0_pay2 (F := Ideal) _ _ pS (ix2 a (0 : Fin 1)) = _
    rw [pay2_apply, hp]
    refine congrArg (s.2.2 + ·) (Finset.sum_congr rfl fun b _ => ?_)
    rw [pay7_sK x q kt a b r k hq hkt, pay11_same lb klab qlab a b r k hql hkl, off_of_ne i a b r k hr hk hd, mul_one]

/-- At the last column tile, with the scratch holding the triple after all eight tiles and the count block the row's
    count, the value written at row `a` is the specification's loss of row `r`. -/
theorem out_lossK (l cnt p mx : FVec Ideal S1024x1 .f32) (a : Fin 1024) (r : Fin 8192)
    (hl : l (ix2 a (0 : Fin 1)) = (Cert.Spec.stateK x lb r 8).2.1)
    (hp : p (ix2 a (0 : Fin 1)) = (Cert.Spec.stateK x lb r 8).2.2)
    (hm : mx (ix2 a (0 : Fin 1)) = (Cert.Spec.stateK x lb r 8).1)
    (hc : cnt (ix2 a (0 : Fin 1)) = Cert.Spec.cntK lb r) :
    k0_pay3 (F := Ideal) l cnt p mx (ix2 a (0 : Fin 1)) = Cert.Spec.lossK x lb r := by
  rw [pay3_apply, hl, hp, hm, hc]
  rfl

end Step

end Cert.KernelIdeal.KValue

end
-- ==== Proof.KIFinal.lean ====
/-
  The tile fold is the specification's carried triple, and the block written at the last column tile is the
  specification's loss. Point t of the 8 x 8 grid is row tile t / 8, column tile t % 8. At a point the body updates the
  three running statistics of its row tile from the blocks it reads: the row tile's 1024 normalised rows, labels and
  counts, and from the two resident arrays the column tile's 1024 rows and labels. Given what the arrays hold when the
  region is entered (the normalised features, the tiled labels, the counts: hypotheses here), the update at row a of a
  point is one step `Cert.Spec.stepK` of global row r = 1024 (t / 8) + a against column tile t % 8, started afresh from
  (-inf, 0, 0) at column tile 0. Along a row of tiles the statistics are therefore `Cert.Spec.stateK`, by induction on
  the point, and at column tile 7 the written value is `Cert.Spec.lossK`.
-/
import proofs.«125888_j37538014167620_2_alg».proof.Proof.KIBase
import proofs.«125888_j37538014167620_2_alg».proof.Proof.KIBlocks
import proofs.«125888_j37538014167620_2_alg».proof.Proof.KIPieceDefs
import proofs.«125888_j37538014167620_2_alg».proof.Proof.KIValue
import proofs.«125888_j37538014167620_2_alg».proof.Proof.Spec

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem

/-- Point `t` is row tile `t / 8`, column tile `t % 8`. -/
theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-! ## One grid point -/

variable (m : (ℓ : Loc nD τ sig) → Buf (Elt Ideal) ℓ) (c : Dev nD)

/-- The update of the running statistics at point `t`, from the blocks the point's windows hold. -/
def stepAt (t : Fin cfg0.N) (s : Trip Ideal) : Trip Ideal :=
  stepP (grid0.coords t) (iblk m c 0 t : Vec Ideal S1024x128 .bf16) (iblk m c 1 t : Vec Ideal S8192x128 .bf16)
    (iblk m c 2 t : Vec Ideal S1024x1 .i32) (iblk m c 3 t : Vec Ideal S1x8192 .i32) (iblk m c 4 t : Vec Ideal S1024x1 .f32) s

/-- The block of losses point `t` writes (at the last column tile), likewise. -/
def outAt (t : Fin cfg0.N) (s : Trip Ideal) : Vec Ideal S1024x1 .f32 :=
  outP (grid0.coords t) (iblk m c 0 t : Vec Ideal S1024x128 .bf16) (iblk m c 1 t : Vec Ideal S8192x128 .bf16)
    (iblk m c 2 t : Vec Ideal S1024x1 .i32) (iblk m c 3 t : Vec Ideal S1x8192 .i32) (iblk m c 4 t : Vec Ideal S1024x1 .f32) s

/-- The three statistics at row `a`. -/
def tripAt (s : Trip Ideal) (a : Fin 1024) : EReal × EReal × EReal :=
  (s.1 (ix2 a (0 : Fin 1)), s.2.1 (ix2 a (0 : Fin 1)), s.2.2 (ix2 a (0 : Fin 1)))

variable (x : Fin 4096 → Fin 2 → Fin 128 → EReal) (lb : Fin 4096 → BitVec 32)

section Point

variable (HV8 : ∀ (r : Fin 8192) (d : Fin 128), V m c main_v8 (ix2 r d) = Cert.Spec.feat x r d)
  (HV12 : ∀ r : Fin 8192, V m c main_v12 (ix2 r (0 : Fin 1)) = lb (Cert.Spec.labOf r))
  (HV13 : ∀ r : Fin 8192, V m c main_v13 (ix2 (0 : Fin 1) r) = lb (Cert.Spec.labOf r))

include HV8 HV12 HV13 in
/-- At point `t`, from statistics that read `σ` at row `a`, the updated statistics at row `a` are one step of the
    specification for global row `r = 1024 (t / 8) + a` against column tile `k = t % 8`. -/
theorem point_step (t : Fin cfg0.N) (mS lS pS : FVec Ideal S1024x1 .f32) (a : Fin 1024) (r : Fin 8192) (k : Fin 8)
    (σ : EReal × EReal × EReal) (hr : r.val = 1024 * (t.val / 8) + a.val) (hk : k.val = t.val % 8)
    (hm : mS (ix2 a (0 : Fin 1)) = σ.1) (hl : lS (ix2 a (0 : Fin 1)) = σ.2.1) (hp : pS (ix2 a (0 : Fin 1)) = σ.2.2) :
    tripAt (k0_pay10 (F := Ideal) (iblk m c 0 t : Vec Ideal S1024x128 .bf16) (ktile (grid0.coords t) (iblk m c 1 t : Vec Ideal S8192x128 .bf16)) mS,
        if cond0_1 (grid0.coords t) then
          k0_pay13 (F := Ideal) (grid0.coords t) (iblk m c 0 t : Vec Ideal S1024x128 .bf16) (ktile (grid0.coords t) (iblk m c 1 t : Vec Ideal S8192x128 .bf16)) mS lS
        else k0_pay1 (F := Ideal) (k0_pay7 (iblk m c 0 t : Vec Ideal S1024x128 .bf16) (ktile (grid0.coords t) (iblk m c 1 t : Vec Ideal S8192x128 .bf16)))
          (k0_pay8 (iblk m c 0 t : Vec Ideal S1024x128 .bf16) (ktile (grid0.coords t) (iblk m c 1 t : Vec Ideal S8192x128 .bf16)) mS)
          (k0_pay9 (iblk m c 0 t : Vec Ideal S1024x128 .bf16) (ktile (grid0.coords t) (iblk m c 1 t : Vec Ideal S8192x128 .bf16)) mS) lS,
        if cond0_1 (grid0.coords t) then
          k0_pay14 (F := Ideal) (grid0.coords t) (iblk m c 0 t : Vec Ideal S1024x128 .bf16) (ktile (grid0.coords t) (iblk m c 1 t : Vec Ideal S8192x128 .bf16))
            (klabs (grid0.coords t) (iblk m c 3 t : Vec Ideal S1x8192 .i32)) (iblk m c 2 t : Vec Ideal S1024x1 .i32) pS
        else k0_pay2 (F := Ideal) (k0_pay7 (iblk m c 0 t : Vec Ideal S1024x128 .bf16) (ktile (grid0.coords t) (iblk m c 1 t : Vec Ideal S8192x128 .bf16)))
          (k0_pay11 (klabs (grid0.coords t) (iblk m c 3 t : Vec Ideal S1x8192 .i32)) (iblk m c 2 t : Vec Ideal S1024x1 .i32)) pS) a
      = Cert.Spec.stepK x lb r k σ := by
  have hc0 := (coords_val t).1
  have hc1 := (coords_val t).2
  have hr' : r.val = 1024 * (grid0.coords t 0).val + a.val := by rw [hc0]; exact hr
  have hk' : k.val = (grid0.coords t 1).val := by rw [hc1]; exact hk
  have hrow : 1024 * (t.val / 8) + a.val < 8192 := by rw [← hr]; exact r.isLt
  have hq : ∀ d : Fin 128, (iblk m c 0 t : Vec Ideal S1024x128 .bf16) (ix2 a d) = Cert.Spec.feat x r d := fun d => by
    rw [iblk0_apply m c t a d hrow, HV8]
    exact congrArg (fun j => Cert.Spec.feat x j d) (Fin.ext hr.symm)
  have hkt : ∀ (b : Fin 1024) (d : Fin 128),
      ktile (grid0.coords t) (iblk m c 1 t : Vec Ideal S8192x128 .bf16) (ix2 b d) = Cert.Spec.feat x (Cert.Spec.col k b) d := fun b d => by
    have hb : 1024 * (grid0.coords t 1).val + b.val < 8192 := by rw [← hk']; exact (Cert.Spec.col k b).isLt
    rw [ktile_apply (grid0.coords t) _ b d hb, iblk1_apply m c t _ d, HV8]
    exact congrArg (fun j => Cert.Spec.feat x j d) (Fin.ext (by show 1024 * (grid0.coords t 1).val + b.val = 1024 * k.val + b.val; rw [hk']))
  have hql : (iblk m c 2 t : Vec Ideal S1024x1 .i32) (ix2 a (0 : Fin 1)) = lb (Cert.Spec.labOf r) := by
    rw [iblk2_apply m c t a 0 hrow, HV12]
    exact congrArg (fun j => lb (Cert.Spec.labOf j)) (Fin.ext hr.symm)
  have hkl : ∀ b : Fin 1024, klabs (grid0.coords t) (iblk m c 3 t : Vec Ideal S1x8192 .i32) (ix2 (0 : Fin 1) b)
      = lb (Cert.Spec.labOf (Cert.Spec.col k b)) := fun b => by
    have hb : 1024 * (grid0.coords t 1).val + b.val < 8192 := by rw [← hk']; exact (Cert.Spec.col k b).isLt
    rw [klabs_apply (grid0.coords t) _ b hb, iblk3_apply m c t 0 _, HV13]
    exact congrArg (fun j => lb (Cert.Spec.labOf j)) (Fin.ext (by show 1024 * (grid0.coords t 1).val + b.val = 1024 * k.val + b.val; rw [hk']))
  unfold tripAt
  by_cases hc : cond0_1 (grid0.coords t)
  · have hd : (grid0.coords t 0).val = (grid0.coords t 1).val := by rw [hc0, hc1]; exact (hcond0_1 t).mp hc
    simp only [if_pos hc]
    exact step_diag x lb (grid0.coords t) _ _ _ _ mS lS pS a r k σ hr' hk' hq hkt hql hkl hm hl hp hd
  · have hd : (grid0.coords t 0).val ≠ (grid0.coords t 1).val := by
      rw [hc0, hc1]; exact fun h => hc ((hcond0_1 t).mpr h)
    simp only [if_neg hc]
    exact step_offdiag x lb (grid0.coords t) _ _ _ _ mS lS pS a r k σ hr' hk' hq hkt hql hkl hm hl hp hd

end Point

section Fold

variable (HV8 : ∀ (r : Fin 8192) (d : Fin 128), V m c main_v8 (ix2 r d) = Cert.Spec.feat x r d)
  (HV12 : ∀ r : Fin 8192, V m c main_v12 (ix2 r (0 : Fin 1)) = lb (Cert.Spec.labOf r))
  (HV13 : ∀ r : Fin 8192, V m c main_v13 (ix2 (0 : Fin 1) r) = lb (Cert.Spec.labOf r))

/-- The specification's triple after one more tile. -/
theorem stateK_succ (r : Fin 8192) (n : ℕ) (h : n < 8) :
    Cert.Spec.stateK x lb r (n + 1) = Cert.Spec.stepK x lb r ⟨n, h⟩ (Cert.Spec.stateK x lb r n) := by
  rw [Cert.Spec.stateK, dif_pos h]

include HV8 HV12 HV13 in
/-- At a first column tile the statistics are reset before the update: one step from (-inf, 0, 0). -/
theorem stepAt_first (t : Fin cfg0.N) (s : Trip Ideal) (a : Fin 1024) (r : Fin 8192) (k : Fin 8)
    (hr : r.val = 1024 * (t.val / 8) + a.val) (hk : k.val = t.val % 8) (h0 : t.val % 8 = 0) :
    tripAt (stepAt m c t s) a = Cert.Spec.stepK x lb r k (⊥, 0, 0) := by
  have hc : cond0_0 (grid0.coords t) := (hcond0_0 t).mpr h0
  unfold stepAt stepP
  simp only [if_pos hc]
  exact point_step m c x lb HV8 HV12 HV13 t k0_pay4 k0_pay5 k0_pay6 a r k (⊥, 0, 0) hr hk (pay4_apply _) (pay5_apply _) (pay6_apply _)

include HV8 HV12 HV13 in
/-- At a later column tile: one step from the carried statistics. -/
theorem stepAt_next (t : Fin cfg0.N) (s : Trip Ideal) (a : Fin 1024) (r : Fin 8192) (k : Fin 8)
    (hr : r.val = 1024 * (t.val / 8) + a.val) (hk : k.val = t.val % 8) (h0 : ¬t.val % 8 = 0) :
    tripAt (stepAt m c t s) a = Cert.Spec.stepK x lb r k (tripAt s a) := by
  have hc : ¬cond0_0 (grid0.coords t) := fun h => h0 ((hcond0_0 t).mp h)
  unfold stepAt stepP
  simp only [if_neg hc]
  exact point_step m c x lb HV8 HV12 HV13 t s.1 s.2.1 s.2.2 a r k (tripAt s a) hr hk rfl rfl rfl

include HV8 HV12 HV13 in
/-- Along a row of tiles the statistics at row `a` are the specification's carried triple of the global row. -/
theorem trip_state (T : (n : ℕ) → n < cfg0.N → Trip Ideal)
    (h0 : ∀ (n : ℕ) (h : n < cfg0.N), n % 8 = 0 → ∃ s, T n h = stepAt m c ⟨n, h⟩ s)
    (hs : ∀ (n : ℕ) (h : n + 1 < cfg0.N), ¬(n + 1) % 8 = 0 → T (n + 1) h = stepAt m c ⟨n + 1, h⟩ (T n (Nat.lt_of_succ_lt h))) :
    ∀ (n : ℕ) (h : n < cfg0.N) (a : Fin 1024) (r : Fin 8192), r.val = 1024 * (n / 8) + a.val →
      tripAt (T n h) a = Cert.Spec.stateK x lb r (n % 8 + 1) := by
  have first : ∀ (n : ℕ) (h : n < cfg0.N), n % 8 = 0 → ∀ (a : Fin 1024) (r : Fin 8192), r.val = 1024 * (n / 8) + a.val →
      tripAt (T n h) a = Cert.Spec.stateK x lb r (n % 8 + 1) := by
    intro n h hn a r hr
    obtain ⟨s, hs'⟩ := h0 n h hn
    rw [hs', hn, stateK_succ x lb r 0 (by decide)]
    exact stepAt_first m c x lb HV8 HV12 HV13 ⟨n, h⟩ s a r ⟨0, by decide⟩ hr hn.symm hn
  intro n
  induction n with
  | zero => intro h a r hr; exact first 0 h rfl a r hr
  | succ n ih =>
    intro h a r hr
    by_cases hn : (n + 1) % 8 = 0
    · exact first (n + 1) h hn a r hr
    · have hlt : n < cfg0.N := Nat.lt_of_succ_lt h
      have hdiv : (n + 1) / 8 = n / 8 := by omega
      have hmod : (n + 1) % 8 = n % 8 + 1 := by omega
      have hk : (n + 1) % 8 < 8 := Nat.mod_lt _ (by decide)
      have ih' := ih hlt a r (by rw [hr, hdiv])
      have e : Cert.Spec.stateK x lb r ((n + 1) % 8) = tripAt (T n hlt) a := by rw [ih', hmod]
      rw [hs n h hn, stateK_succ x lb r ((n + 1) % 8) hk, e]
      exact stepAt_next m c x lb HV8 HV12 HV13 ⟨n + 1, h⟩ (T n hlt) a r ⟨(n + 1) % 8, hk⟩ hr rfl hn

include HV8 HV12 HV13 in
/-- THE FOLD: any point-indexed statistics that start afresh at each first column tile and are updated point by point
    along a row of tiles read, at row `a` of point `n`, the specification's triple of global row `1024 (n / 8) + a`
    after `n % 8 + 1` tiles. -/
theorem trip_eq_stateK (T : (n : ℕ) → n < cfg0.N → Trip Ideal)
    (h0 : ∀ (n : ℕ) (h : n < cfg0.N), n % 8 = 0 → ∃ s, T n h = stepAt m c ⟨n, h⟩ s)
    (hs : ∀ (n : ℕ) (h : n + 1 < cfg0.N), ¬(n + 1) % 8 = 0 → T (n + 1) h = stepAt m c ⟨n + 1, h⟩ (T n (Nat.lt_of_succ_lt h))) :
    ∀ (n : ℕ) (h : n < cfg0.N) (a : Fin 1024) (hr : 1024 * (n / 8) + a.val < 8192),
      ((T n h).1 (ix2 a (0 : Fin 1)), (T n h).2.1 (ix2 a (0 : Fin 1)), (T n h).2.2 (ix2 a (0 : Fin 1)))
        = Cert.Spec.stateK x lb ⟨1024 * (n / 8) + a.val, hr⟩ (n % 8 + 1) :=
  fun n h a hr => trip_state m c x lb HV8 HV12 HV13 T h0 hs n h a ⟨_, hr⟩ rfl

include HV8 HV12 HV13 in
/-- THE LOSS BLOCK: at a last column tile the value written at row `a` is the specification's loss of the global row. -/
theorem out_eq_lossK (HV28 : ∀ r : Fin 8192, V m c main_v28 (ix2 r (0 : Fin 1)) = Cert.Spec.cntK lb r)
    (T : (n : ℕ) → n < cfg0.N → Trip Ideal)
    (h0 : ∀ (n : ℕ) (h : n < cfg0.N), n % 8 = 0 → ∃ s, T n h = stepAt m c ⟨n, h⟩ s)
    (hs : ∀ (n : ℕ) (h : n + 1 < cfg0.N), ¬(n + 1) % 8 = 0 → T (n + 1) h = stepAt m c ⟨n + 1, h⟩ (T n (Nat.lt_of_succ_lt h)))
    (n : ℕ) (h : n < cfg0.N) (h7 : n % 8 = 7) (a : Fin 1024) (hr : 1024 * (n / 8) + a.val < 8192) :
    outAt m c ⟨n, h⟩ (T (n - 1) (by omega)) (ix2 a (0 : Fin 1)) = Cert.Spec.lossK x lb ⟨1024 * (n / 8) + a.val, hr⟩ := by
  have hlt : n - 1 < cfg0.N := by omega
  have hprev : tripAt (T (n - 1) hlt) a = Cert.Spec.stateK x lb ⟨1024 * (n / 8) + a.val, hr⟩ 7 := by
    have h6 : (n - 1) % 8 + 1 = 7 := by omega
    have := trip_state m c x lb HV8 HV12 HV13 T h0 hs (n - 1) hlt a ⟨1024 * (n / 8) + a.val, hr⟩
      (by show 1024 * (n / 8) + a.val = 1024 * ((n - 1) / 8) + a.val; omega)
    rw [this, h6]
  have hS : tripAt (stepAt m c ⟨n, h⟩ (T (n - 1) hlt)) a = Cert.Spec.stateK x lb ⟨1024 * (n / 8) + a.val, hr⟩ 8 := by
    rw [stepAt_next m c x lb HV8 HV12 HV13 ⟨n, h⟩ (T (n - 1) hlt) a ⟨1024 * (n / 8) + a.val, hr⟩ ⟨7, by decide⟩ rfl h7.symm
      (by show ¬n % 8 = 0; omega), hprev]
    exact (stateK_succ x lb ⟨1024 * (n / 8) + a.val, hr⟩ 7 (by decide)).symm
  unfold outAt outP
  refine out_lossK x lb _ _ _ _ a ⟨1024 * (n / 8) + a.val, hr⟩ ?_ ?_ ?_ ?_
  · exact congrArg (fun p : EReal × EReal × EReal => p.2.1) hS
  · exact congrArg (fun p : EReal × EReal × EReal => p.2.2) hS
  · exact congrArg (fun p : EReal × EReal × EReal => p.1) hS
  · rw [iblk4_apply m c ⟨n, h⟩ a 0 hr, HV28]

end Fold

end Cert.KernelIdeal.KValue

end
-- ==== Proof.RefValueA.lean ====
/-
  The reference program read one operation at a time at literal indices, each stage matched with the specification's
  definition of it: the rows of the feature array, their clamped Euclidean norms, the normalised rows, the inner products,
  their quotient by the temperature, the row maximum, the label mask tiled over the two views, the off-diagonal mask, the
  masked exponential sums, the log-probabilities and the per-row loss.
-/
import proofs.«125888_j37538014167620_2_alg».proof.Proof.Gen.ReferenceIdeal.Read
import proofs.«125888_j37538014167620_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The features and the labels read at literal indices. -/
def xOf (a0 : (⟨S4096x2x128, .f32⟩ : BufTy).Contents (Elt Ideal)) : Fin 4096 → Fin 2 → Fin 128 → EReal :=
  fun b v d => a0 (ix3 b v d)
def lbOf (a1 : (⟨S4096, .i32⟩ : BufTy).Contents (Elt Ideal)) : Fin 4096 → BitVec 32 := fun b => a1 (ix1 b)

/-! ## The literals the program carries as words -/

theorem word_one : Ideal.ofBits .f32 0x3F800000#32 = 1 := by
  simp [Ideal.ofBits, Ideal.ieee]
  rw [← EReal.coe_mul, ← EReal.coe_one]
  exact congrArg _ (by norm_num)
theorem word_neg_one : Ideal.ofBits .f32 0xBF800000#32 = -1 := by
  simp [Ideal.ofBits, Ideal.ieee]
  rw [← EReal.coe_mul, ← EReal.coe_one]
  exact congrArg _ (by norm_num)
theorem word_8192 : Ideal.ofBits .f32 0x46000000#32 = 8192 := by
  simp [Ideal.ofBits, Ideal.ieee]
  rw [← EReal.coe_mul]
  rw [show (8192 : EReal) = ((8192 : ℝ) : EReal) from rfl]
  exact congrArg _ (by norm_num)
theorem word_neg_inf : Ideal.ofBits .f32 0xFF800000#32 = ⊥ := by
  simp [Ideal.ofBits, Ideal.ieee]

/-- A one-bit equality test converted to a float is the indicator of the equality. -/
theorem uitofp_cmpi_eq (p q : BitVec 32) :
    (FloatOps.uitofp (F := Ideal) .f32 (IntOp.cmpi .eq p q) : EReal) = if p = q then 1 else 0 := by
  by_cases h : p = q
  · subst h; simp [IntOp.cmpi, FloatOps.uitofp]
  · simp [IntOp.cmpi, FloatOps.uitofp, h]

/-- Two row numbers as 32-bit words are equal exactly when the rows are. -/
theorem ofNat_inj_row (r j : Fin 8192) : BitVec.ofNat 32 r.val = BitVec.ofNat 32 j.val ↔ r = j := by
  constructor
  · intro h
    have h2 := congrArg BitVec.toNat h
    simp only [BitVec.toNat_ofNat] at h2
    have hr := r.isLt
    have hj := j.isLt
    exact Fin.ext (by omega)
  · rintro rfl; rfl

/-! ## The feature side -/

section Features
variable (x0 : (⟨S4096x2x128, .f32⟩ : BufTy).Contents (Elt Ideal))

/-- The reshape to 8192 rows: row r is view r % 2 of sample r / 2. -/
theorem v6_at (r : Fin 8192) (d : Fin 128) :
    val_main_v6 (F := Ideal) x0 (ix2 r d) = Spec.row (xOf x0) r d := by
  rw [val_main_v6_apply]
  show x0 _ = x0 (ix3 (Spec.sampleOf r) (Spec.viewOf r) d)
  refine congrArg x0 (funext fun a => Fin.ext ?_)
  match a with
  | ⟨0, _⟩ => show (r.val * 128 + d.val) / 256 = r.val / 2; omega
  | ⟨1, _⟩ => show (r.val * 128 + d.val) / 128 % 2 = r.val % 2; omega
  | ⟨2, _⟩ => show (r.val * 128 + d.val) % 128 = d.val; omega

/-- The sum of squares of a row. -/
theorem sq_at (r : Fin 8192) :
    val_main_call0_v1 (F := Ideal) x0 (ix1 r) = ∑ d : Fin 128, Spec.row (xOf x0) r d * Spec.row (xOf x0) r d := by
  rw [val_main_call0_v1_apply, val_main_call0_cst_apply, Ideal.ofBits_def, Ideal.ofBits_zero_f32, zero_add]
  refine Finset.sum_congr rfl fun d _ => ?_
  have e : idx_main_call0_v1 (ix1 r) d = ix2 r d :=
    funext fun a => Fin.ext (by match a with | ⟨0, _⟩ => rfl | ⟨1, _⟩ => rfl)
  rw [e, val_main_call0_v0_apply, Ideal.mulf_def, v6_at]

/-- The clamped norm of a row. -/
theorem v8_at (r : Fin 8192) (z : Fin 1) :
    val_main_v8 (F := Ideal) x0 (ix2 r z) = Spec.nrm (xOf x0) r := by
  rw [val_main_v8_apply, val_main_call1_v1_apply, val_main_call1_v0_apply, val_main_cst_apply, val_main_v7_apply,
    val_main_call0_v2_apply]
  have e : idx_main_call0_v2 (ix2 r z) = ix1 r := funext fun a => Fin.ext (by match a with | ⟨0, _⟩ => rfl)
  rw [e, sq_at]
  rfl

/-- The normalised rows. -/
theorem v10_at (r : Fin 8192) (d : Fin 128) :
    val_main_v10 (F := Ideal) x0 (ix2 r d) = Spec.feat (xOf x0) r d := by
  rw [val_main_v10_apply, val_main_v9_apply, v6_at]
  have e : idx_main_v9 (ix2 r d) = ix2 r (0 : Fin 1) :=
    funext fun a => Fin.ext (by match a with | ⟨0, _⟩ => rfl | ⟨1, _⟩ => rfl)
  rw [e, v8_at]
  rfl

/-- The inner products of the normalised rows. -/
theorem v12_at (r j : Fin 8192) :
    val_main_v12 (F := Ideal) x0 (ix2 r j) = Spec.dot (xOf x0) r j := by
  rw [val_main_v12_apply]
  unfold Spec.dot
  refine Finset.sum_congr rfl fun k _ => ?_
  have el : lidx_main_v12 (ix2 r j) k = ix2 r k :=
    funext fun a => Fin.ext (by match a with | ⟨0, _⟩ => rfl | ⟨1, _⟩ => rfl)
  have er : ridx_main_v12 (ix2 r j) k = ix2 k j :=
    funext fun a => Fin.ext (by match a with | ⟨0, _⟩ => rfl | ⟨1, _⟩ => rfl)
  have e11 : idx_main_v11 (ix2 k j) = ix2 j k :=
    funext fun a => Fin.ext (by match a with | ⟨0, _⟩ => rfl | ⟨1, _⟩ => rfl)
  rw [el, er, val_main_v11_apply, e11, v10_at, v10_at]

/-- The similarities: the inner products over the temperature. -/
theorem v14_at (r j : Fin 8192) :
    val_main_v14 (F := Ideal) x0 (ix2 r j) = Spec.sR (xOf x0) r j := by
  rw [val_main_v14_apply, v12_at, val_main_v13_apply, val_main_cst_0_apply]
  rfl

/-- A row index with column k put back on the reduced axis is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The row maximum of the similarities. -/
theorem v15_at (r : Fin 8192) :
    val_main_v15 (F := Ideal) x0 (ix1 r) = Spec.mR (xOf x0) r := by
  have hR : S8192x8192.Reduces [1] S8192 := by decide
  unfold val_main_v15
  rw [Host.reduce_eq_fold_single FloatOps.maximumf _ _ reducesTo_S8192x8192_S8192_d1 hR h_S_]
  have hf : (val_main_v14 (F := Ideal) x0 ∘ hR.lift (ix1 r)) = fun k : Fin 8192 => Spec.sR (xOf x0) r k :=
    funext fun k => (congrArg (val_main_v14 (F := Ideal) x0) (lift_row hR r k)).trans (v14_at x0 r _)
  rw [val_main_cst_1_apply, Ideal.ofBits_def, word_neg_inf]
  exact congrArg (fun f => Finset.fold max (⊥ : EReal) f (Finset.univ : Finset (Fin 8192))) hf

/-- The similarities less their row maximum. -/
theorem v18_at (r j : Fin 8192) :
    val_main_v18 (F := Ideal) x0 (ix2 r j) = Spec.sR (xOf x0) r j - Spec.mR (xOf x0) r := by
  rw [val_main_v18_apply, v14_at, val_main_v17_apply]
  have e17 : idx_main_v17 (ix2 r j) = ix2 r (0 : Fin 1) :=
    funext fun a => Fin.ext (by match a with | ⟨0, _⟩ => rfl | ⟨1, _⟩ => rfl)
  have e16 : idx_main_v16 (ix2 r (0 : Fin 1)) = ix1 r := funext fun a => Fin.ext (by match a with | ⟨0, _⟩ => rfl)
  rw [e17, val_main_v16_apply, e16, v15_at]
  rfl

end Features

/-! ## The label side and the diagonal -/

section Labels
variable (x1 : (⟨S4096, .i32⟩ : BufTy).Contents (Elt Ideal))

/-- The 4096 x 4096 label-equality mask. -/
theorem v5_at (a b : Fin 4096) :
    val_main_v5 (F := Ideal) x1 (ix2 a b) = if lbOf x1 a = lbOf x1 b then 1 else 0 := by
  have e2 : idx_main_v2 (ix2 a b) = ix2 a (0 : Fin 1) :=
    funext fun c => Fin.ext (by match c with | ⟨0, _⟩ => rfl | ⟨1, _⟩ => rfl)
  have e3 : idx_main_v3 (ix2 a b) = ix2 (0 : Fin 1) b :=
    funext fun c => Fin.ext (by match c with | ⟨0, _⟩ => rfl | ⟨1, _⟩ => rfl)
  have e1 : idx_main_v1 (ix2 (0 : Fin 1) b) = ix2 b (0 : Fin 1) :=
    funext fun c => Fin.ext (by match c with | ⟨0, _⟩ => rfl | ⟨1, _⟩ => rfl)
  have e0 : ∀ a : Fin 4096, idx_main_v0 (ix2 a (0 : Fin 1)) = ix1 a := fun a =>
    funext fun c => Fin.ext (by match c with | ⟨0, _⟩ => show a.val * 1 + 0 = a.val; omega)
  rw [val_main_v5_apply, val_main_v4_apply, val_main_v2_apply, val_main_v3_apply, e2, e3, val_main_v1_apply, e1,
    val_main_v0_apply, val_main_v0_apply, e0, e0]
  exact uitofp_cmpi_eq _ _

/-- The mask tiled over the two views: row r carries the label of sample r % 4096. -/
theorem v21_at (r j : Fin 8192) :
    val_main_v21 (F := Ideal) x1 (ix2 r j) = Spec.same (lbOf x1) r j := by
  have e : idx_main_v19 (idx_main_v20 (idx_main_v21 (ix2 r j))) = ix2 (Spec.labOf r) (Spec.labOf j) :=
    funext fun a => Fin.ext (by
      have hr := r.isLt
      have hj := j.isLt
      match a with
      | ⟨0, _⟩ =>
        show (((0 * 4096 + (r.val * 8192 + j.val) / 8192 % 4096) * 1 + 0) * 4096 + (r.val * 8192 + j.val) % 4096) / 4096
          = r.val % 4096
        omega
      | ⟨1, _⟩ =>
        show (((0 * 4096 + (r.val * 8192 + j.val) / 8192 % 4096) * 1 + 0) * 4096 + (r.val * 8192 + j.val) % 4096) % 4096
          = j.val % 4096
        omega)
  rw [val_main_v21_apply, val_main_v20_apply, val_main_v19_apply, e, v5_at]
  rfl

/-- One minus the identity matrix. -/
theorem v29_at (r j : Fin 8192) : val_main_v29 (F := Ideal) (ix2 r j) = Spec.off r j := by
  rw [val_main_v29_apply, val_main_v28_apply, val_main_cst_2_apply, val_main_v27_apply, val_main_v26_apply,
    val_main_v25_apply, val_main_v22_apply, val_main_v23_apply, val_main_v24_apply, val_main_c_apply, uitofp_cmpi_eq,
    Ideal.ofBits_def, word_one, Ideal.subf_def]
  unfold Spec.off
  refine congrArg (fun t : EReal => 1 - t) (if_congr ?_ rfl rfl)
  show IntOp.addi (BitVec.ofNat 32 r.val) 0#32 = BitVec.ofNat 32 j.val ↔ r = j
  rw [show IntOp.addi (BitVec.ofNat 32 r.val) 0#32 = BitVec.ofNat 32 r.val from BitVec.add_zero _]
  exact ofNat_inj_row r j

/-- The positives' mask: same label, off the diagonal. -/
theorem v30_at (r j : Fin 8192) :
    val_main_v30 (F := Ideal) x1 (ix2 r j) = Spec.mskR (lbOf x1) r j := by
  rw [val_main_v30_apply, v21_at, v29_at]
  rfl

/-- The number of positives of a row. -/
theorem v40_at (r : Fin 8192) :
    val_main_v40 (F := Ideal) x1 (ix1 r) = ∑ j : Fin 8192, Spec.mskR (lbOf x1) r j := by
  rw [val_main_v40_apply, val_main_cst_5_apply, Ideal.ofBits_def, Ideal.ofBits_zero_f32, zero_add]
  refine Finset.sum_congr rfl fun k _ => ?_
  have e : idx_main_v40 (ix1 r) k = ix2 r k :=
    funext fun a => Fin.ext (by match a with | ⟨0, _⟩ => rfl | ⟨1, _⟩ => rfl)
  rw [e, v30_at]

/-- The number of positives clamped below at one. -/
theorem v41_at (r : Fin 8192) :
    val_main_v41 (F := Ideal) x1 (ix1 r) = max 1 (∑ j : Fin 8192, Spec.mskR (lbOf x1) r j) := by
  rw [val_main_v41_apply, val_main_call2_v1_apply, val_main_call2_v0_apply, val_main_cst_6_apply, v40_at,
    Ideal.ofBits_def, word_one]
  rfl

end Labels

/-! ## The loss -/

section Loss
variable (x0 : (⟨S4096x2x128, .f32⟩ : BufTy).Contents (Elt Ideal)) (x1 : (⟨S4096, .i32⟩ : BufTy).Contents (Elt Ideal))

/-- The masked sum of exponentials of a row. -/
theorem v33_at (r : Fin 8192) :
    val_main_v33 (F := Ideal) x0 (ix1 r) = Spec.zR (xOf x0) r := by
  rw [val_main_v33_apply, val_main_cst_3_apply, Ideal.ofBits_def, Ideal.ofBits_zero_f32, zero_add]
  unfold Spec.zR
  refine Finset.sum_congr rfl fun k _ => ?_
  have e : idx_main_v33 (ix1 r) k = ix2 r k :=
    funext fun a => Fin.ext (by match a with | ⟨0, _⟩ => rfl | ⟨1, _⟩ => rfl)
  rw [e, val_main_v32_apply, val_main_v31_apply, v18_at, v29_at]
  rfl

/-- The log-probabilities. -/
theorem v39_at (r j : Fin 8192) :
    val_main_v39 (F := Ideal) x0 (ix2 r j) = Spec.lpR (xOf x0) r j := by
  have e38 : idx_main_v38 (ix2 r j) = ix2 r (0 : Fin 1) :=
    funext fun a => Fin.ext (by match a with | ⟨0, _⟩ => rfl | ⟨1, _⟩ => rfl)
  have e34 : idx_main_v34 (ix2 r (0 : Fin 1)) = ix1 r := funext fun a => Fin.ext (by match a with | ⟨0, _⟩ => rfl)
  rw [val_main_v39_apply, v18_at, val_main_v38_apply, e38, val_main_v37_apply, val_main_v36_apply, val_main_v34_apply,
    e34, v33_at, val_main_v35_apply, val_main_cst_4_apply]
  rfl

/-- The positives' log-probabilities summed along a row. -/
theorem v43_at (r : Fin 8192) :
    val_main_v43 (F := Ideal) x0 x1 (ix1 r) = ∑ j : Fin 8192, Spec.mskR (lbOf x1) r j * Spec.lpR (xOf x0) r j := by
  rw [val_main_v43_apply, val_main_cst_7_apply, Ideal.ofBits_def, Ideal.ofBits_zero_f32, zero_add]
  refine Finset.sum_congr rfl fun k _ => ?_
  have e : idx_main_v43 (ix1 r) k = ix2 r k :=
    funext fun a => Fin.ext (by match a with | ⟨0, _⟩ => rfl | ⟨1, _⟩ => rfl)
  rw [e, val_main_v42_apply, v30_at, v39_at]
  rfl

/-- The loss of a row. -/
theorem v46_at (r : Fin 8192) :
    val_main_v46 (F := Ideal) x0 x1 (ix1 r) = Spec.lossR (xOf x0) (lbOf x1) r := by
  rw [val_main_v46_apply, val_main_v45_apply, val_main_cst_8_apply, val_main_v44_apply, v43_at, v41_at,
    Ideal.ofBits_def, word_neg_one]
  rfl

end Loss

end Cert.ReferenceIdeal.RefValue

end
-- ==== Proof.KIValueHost.lean ====
/-
  The kernel program's host operations before the region, read index by index on the extended reals: the normalised
  features handed to the kernel (window 0 and window 1), the row labels in their column and row arrangements, and the
  per-row count 2 * #{samples with the row's label} - 1.
-/
import proofs.«125888_j37538014167620_2_alg».proof.Proof.KIBase
import proofs.«125888_j37538014167620_2_alg».proof.Proof.Spec
import proofs.«125888_j37538014167620_2_alg».proof.Proof.RefValueA
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

/-- The features and the labels of the kernel program's launch memory read at literal indices. -/
def xOfK (a0 : (⟨S4096x2x128, .f32⟩ : BufTy).Contents (Elt Ideal)) : Fin 4096 → Fin 2 → Fin 128 → EReal :=
  fun b v d => a0 (ix3 b v d)
def lbOfK (a1 : (⟨S4096, .i32⟩ : BufTy).Contents (Elt Ideal)) : Fin 4096 → BitVec 32 := fun b => a1 (ix1 b)

/-! ## Layout operations of this program read at literal indices -/

section Layout
variable {α : Type}

/-- 4096 entries as one row: entry b at (0, b). -/
theorem cast_row1 (y : S4096.Idx → α) (h : S4096.ShapeCasts S1x4096) (z : Fin 1) (b : Fin 4096) :
    shapeCast S1x4096 y h (ix2 z b) = y (ix1 b) :=
  shapeCast_apply y h (ix2 z b) (ix1 b) (by
    rewrite [Shape.rowMajor_val_one, Shape.rowMajor_val_two]
    have hz := z.isLt
    show b.val = z.val * 4096 + b.val; omega)

/-- One row repeated twice. -/
theorem bcast_rows2 (y : S1x4096.Idx → α) (h : S1x4096.BroadcastsInDim S2x4096 (![0, 1] : Fin 2 → Fin S2x4096.rank))
    (v : Fin 2) (b : Fin 4096) :
    broadcastInDim S2x4096 ![0, 1] h y (ix2 v b) = y (ix2 (0 : Fin 1) b) :=
  broadcastInDim_apply _ h y (ix2 v b) (ix2 (0 : Fin 1) b) (fun a => match a with
    | ⟨0, _⟩ => by show 0 = if (1 : Nat) = 1 then 0 else v.val; rw [if_pos rfl]
    | ⟨1, _⟩ => by show b.val = if (4096 : Nat) = 1 then 0 else b.val; rw [if_neg (by decide)])

/-- Two rows of 4096 laid end to end: entry r comes from (r / 4096, r % 4096). -/
theorem cast_flat (y : S2x4096.Idx → α) (h : S2x4096.ShapeCasts S8192) (r : Fin 8192) :
    shapeCast S8192 y h (ix1 r)
      = y (ix2 (⟨r.val / 4096, by have := r.isLt; omega⟩ : Fin 2) (⟨r.val % 4096, by omega⟩ : Fin 4096)) :=
  shapeCast_apply y h (ix1 r) _ (by
    rewrite [Shape.rowMajor_val_two, Shape.rowMajor_val_one]
    show r.val / 4096 * 4096 + r.val % 4096 = r.val; omega)

/-- 8192 entries as a column. -/
theorem cast_col (y : S8192.Idx → α) (h : S8192.ShapeCasts S8192x1) (r : Fin 8192) (z : Fin 1) :
    shapeCast S8192x1 y h (ix2 r z) = y (ix1 r) :=
  shapeCast_apply y h (ix2 r z) (ix1 r) (by
    rewrite [Shape.rowMajor_val_one, Shape.rowMajor_val_two]
    have hz := z.isLt
    show r.val = r.val * 1 + z.val; omega)

/-- 8192 entries as a row. -/
theorem cast_row (y : S8192.Idx → α) (h : S8192.ShapeCasts S1x8192) (z : Fin 1) (r : Fin 8192) :
    shapeCast S1x8192 y h (ix2 z r) = y (ix1 r) :=
  shapeCast_apply y h (ix2 z r) (ix1 r) (by
    rewrite [Shape.rowMajor_val_one, Shape.rowMajor_val_two]
    have hz := z.isLt
    show r.val = z.val * 8192 + r.val; omega)

/-- 4096 entries as a column … -/
theorem bcast_col1 (y : S4096.Idx → α) (h : S4096.BroadcastsInDim S4096x1 (![0] : Fin 1 → Fin S4096x1.rank))
    (a : Fin 4096) (z : Fin 1) :
    broadcastInDim S4096x1 ![0] h y (ix2 a z) = y (ix1 a) :=
  broadcastInDim_apply _ h y (ix2 a z) (ix1 a) (fun e => match e with
    | ⟨0, _⟩ => by show a.val = if (4096 : Nat) = 1 then 0 else a.val; rw [if_neg (by decide)])

/-- … and as a row. -/
theorem bcast_row1 (y : S4096.Idx → α) (h : S4096.BroadcastsInDim S1x4096 (![1] : Fin 1 → Fin S1x4096.rank))
    (z : Fin 1) (b : Fin 4096) :
    broadcastInDim S1x4096 ![1] h y (ix2 z b) = y (ix1 b) :=
  broadcastInDim_apply _ h y (ix2 z b) (ix1 b) (fun e => match e with
    | ⟨0, _⟩ => by show b.val = if (4096 : Nat) = 1 then 0 else b.val; rw [if_neg (by decide)])

/-- A column repeated along the rows … -/
theorem bcast_colN (y : S4096x1.Idx → α) (h : S4096x1.BroadcastsInDim S4096x4096 (![0, 1] : Fin 2 → Fin S4096x4096.rank))
    (a b : Fin 4096) :
    broadcastInDim S4096x4096 ![0, 1] h y (ix2 a b) = y (ix2 a (0 : Fin 1)) :=
  broadcastInDim_apply _ h y (ix2 a b) (ix2 a (0 : Fin 1)) (fun e => match e with
    | ⟨0, _⟩ => by show a.val = if (4096 : Nat) = 1 then 0 else a.val; rw [if_neg (by decide)]
    | ⟨1, _⟩ => by show 0 = if (1 : Nat) = 1 then 0 else b.val; rw [if_pos rfl])

/-- … and a row repeated down the columns. -/
theorem bcast_rowN (y : S1x4096.Idx → α) (h : S1x4096.BroadcastsInDim S4096x4096 (![0, 1] : Fin 2 → Fin S4096x4096.rank))
    (a b : Fin 4096) :
    broadcastInDim S4096x4096 ![0, 1] h y (ix2 a b) = y (ix2 (0 : Fin 1) b) :=
  broadcastInDim_apply _ h y (ix2 a b) (ix2 (0 : Fin 1) b) (fun e => match e with
    | ⟨0, _⟩ => by show 0 = if (1 : Nat) = 1 then 0 else a.val; rw [if_pos rfl]
    | ⟨1, _⟩ => by show b.val = if (4096 : Nat) = 1 then 0 else b.val; rw [if_neg (by decide)])

/-- A scalar repeated 8192 times. -/
theorem bcast_scalar (y : S_.Idx → α) (h : S_.BroadcastsInDim S8192 (![] : Fin 0 → Fin S8192.rank)) (r : Fin 8192) :
    broadcastInDim S8192 ![] h y (ix1 r) = y ix0 :=
  broadcastInDim_apply _ h y (ix1 r) ix0 (fun a => a.elim0)

/-- The tiling of 4096 entries over the two views: entry r of the 8192 is entry r % 4096. -/
def tile2 (y : S4096.Idx → α) : S8192.Idx → α :=
  shapeCast S8192 (broadcastInDim S2x4096 ![0, 1] bcast_S1x4096_S2x4096_0_1 (shapeCast S1x4096 y shapeCasts_S4096_S1x4096))
    shapeCasts_S2x4096_S8192
theorem tile2_apply (y : S4096.Idx → α) (r : Fin 8192) : tile2 y (ix1 r) = y (ix1 (Cert.Spec.labOf r)) := by
  unfold tile2
  rw [cast_flat, bcast_rows2, cast_row1]
  rfl

end Layout

/-- The host's sum along the rows of a 4096 x 4096 table, on the extended reals. -/
theorem reduce_rows (y : FVec Ideal S4096x4096 .f32) (init : S_.Idx → EReal) (h' : S4096x4096.ReducesTo [1] S4096)
    (hS : 0 < S_.numel) (a : Fin 4096) :
    Host.reduceAdd (F := Ideal) y init h' hS (ix1 a) = init (Shape.Idx.first hS) + ∑ b : Fin 4096, y (ix2 a b) := by
  simp only [Host.reduceAdd, Ideal.hostReduceAdd_def]
  rw [Ideal.hostReduceAdd_single h' (by decide)]
  refine congrArg (_ + ·) (Finset.sum_congr rfl fun k _ => ?_)
  exact congrArg y (funext fun e => Fin.ext (by match e with | ⟨0, _⟩ => rfl | ⟨1, _⟩ => rfl))

theorem word_two : Ideal.ofBits .f32 0x40000000#32 = 2 := by
  simp [Ideal.ofBits, Ideal.ieee]
  rw [← EReal.coe_mul]
  rw [show (2 : EReal) = ((2 : ℝ) : EReal) from rfl]
  exact congrArg _ (by norm_num)

/-! ## The label-equality table and the per-row count -/

section Count
variable (a1 : (⟨S4096, .i32⟩ : BufTy).Contents (Elt Ideal))

/-- The labels down the rows and across the columns of a 4096 x 4096 table. -/
def labCol : S4096x4096.Idx → BitVec 32 :=
  broadcastInDim S4096x4096 ![0, 1] bcast_S4096x1_S4096x4096_0_1 (broadcastInDim S4096x1 ![0] bcast_S4096_S4096x1_0 a1)
def labRow : S4096x4096.Idx → BitVec 32 :=
  broadcastInDim S4096x4096 ![0, 1] bcast_S1x4096_S4096x4096_0_1 (broadcastInDim S1x4096 ![1] bcast_S4096_S1x4096_1 a1)
theorem labCol_apply (a b : Fin 4096) : labCol a1 (ix2 a b) = lbOfK a1 a := by
  unfold labCol; rw [bcast_colN, bcast_col1]; rfl
theorem labRow_apply (a b : Fin 4096) : labRow a1 (ix2 a b) = lbOfK a1 b := by
  unfold labRow; rw [bcast_rowN, bcast_row1]; rfl

/-- The label-equality table as floats. -/
def eqTab : FVec Ideal S4096x4096 .f32 := uitofp .f32 (cmpi .eq (labCol a1) (labRow a1))
theorem eqTab_apply (a b : Fin 4096) : eqTab a1 (ix2 a b) = if lbOfK a1 a = lbOfK a1 b then 1 else 0 := by
  show FloatOps.uitofp (F := Ideal) .f32 (IntOp.cmpi .eq (labCol a1 (ix2 a b)) (labRow a1 (ix2 a b))) = _
  rw [labCol_apply, labRow_apply]
  exact Cert.ReferenceIdeal.RefValue.uitofp_cmpi_eq _ _

/-- The number of samples carrying sample a's label. -/
def cnt20 : S4096.Idx → EReal :=
  Host.reduceAdd (F := Ideal) (eqTab a1) (constant (F := Ideal) S_ .f32 0x00000000#32) reducesTo_S4096x4096_S4096_d1 h_S_
theorem cnt20_apply (a : Fin 4096) :
    cnt20 a1 (ix1 a) = ∑ b : Fin 4096, if lbOfK a1 a = lbOfK a1 b then (1 : EReal) else 0 := by
  unfold cnt20
  rw [reduce_rows, constant_apply, Ideal.ofBits_zero_f32, zero_add]
  exact Finset.sum_congr rfl fun b _ => eqTab_apply a1 a b

/-- Twice the count tiled over the 8192 rows, less one. -/
def cnt27 : S8192.Idx → EReal :=
  subf (mulf (broadcastInDim S8192 ![] bcast_S_S8192 (constant (F := Ideal) S_ .f32 0x40000000#32)) (tile2 (cnt20 a1) : FVec Ideal S8192 .f32))
    (broadcastInDim S8192 ![] bcast_S_S8192 (constant (F := Ideal) S_ .f32 0x3F800000#32))
theorem cnt27_apply (r : Fin 8192) : cnt27 a1 (ix1 r) = Cert.Spec.cntK (lbOfK a1) r := by
  show broadcastInDim S8192 ![] bcast_S_S8192 (constant (F := Ideal) S_ .f32 0x40000000#32) (ix1 r) * tile2 (cnt20 a1) (ix1 r)
    - broadcastInDim S8192 ![] bcast_S_S8192 (constant (F := Ideal) S_ .f32 0x3F800000#32) (ix1 r) = _
  rw [bcast_scalar, bcast_scalar, constant_apply, constant_apply, word_two, Cert.ReferenceIdeal.RefValue.word_one,
    tile2_apply, cnt20_apply]
  rfl

end Count

/-! ## The buffers as the region finds them -/

variable (m : (ℓ : Loc nD τ sig) → Buf (Elt Ideal) ℓ) (c : Dev nD)

/-- No host operation before the region writes the features … -/
theorem V_main_arg0 : V m c main_arg0 = m ((c.tc : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- … or the labels. -/
theorem V_main_arg1 : V m c main_arg1 = m ((c.tc : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The kernel's features are the reference program's normalised rows of the same array (the same operations in the
    same order; the final change of format is the identity on the extended reals). -/
theorem V_v8_eq : (V m c main_v8 : S8192x128.Idx → EReal)
    = Cert.ReferenceIdeal.Read.val_main_v10 (F := Ideal) (m ((c.tc : Thread nD τ).loc main_arg0)) := by
  dsimp only [V, V0]
  simp only [hostOps0, hostOps0_1, hostOps0_2, List.flatten_cons, List.flatten_nil, List.append_nil, List.cons_append,
    List.nil_append]
  after_results_simp
  rfl

theorem V_v8_apply (r : Fin 8192) (d : Fin 128) :
    (V m c main_v8 : S8192x128.Idx → EReal) (ix2 r d)
      = Cert.Spec.feat (xOfK (m ((c.tc : Thread nD τ).loc main_arg0))) r d :=
  (congrFun (V_v8_eq m c) (ix2 r d)).trans (Cert.ReferenceIdeal.RefValue.v10_at _ r d)

/-- The row labels: the labels tiled over the two views, as a column and as a row. -/
theorem V_v12_eq : (V m c main_v12 : S8192x1.Idx → BitVec 32)
    = shapeCast S8192x1 (tile2 (m ((c.tc : Thread nD τ).loc main_arg1) : S4096.Idx → BitVec 32)) shapeCasts_S8192_S8192x1 := by
  dsimp only [V, V0]
  simp only [hostOps0, hostOps0_1, hostOps0_2, List.flatten_cons, List.flatten_nil, List.append_nil, List.cons_append,
    List.nil_append]
  after_results_simp
  rfl
theorem V_v13_eq : (V m c main_v13 : S1x8192.Idx → BitVec 32)
    = shapeCast S1x8192 (tile2 (m ((c.tc : Thread nD τ).loc main_arg1) : S4096.Idx → BitVec 32)) shapeCasts_S8192_S1x8192 := by
  dsimp only [V, V0]
  simp only [hostOps0, hostOps0_1, hostOps0_2, List.flatten_cons, List.flatten_nil, List.append_nil, List.cons_append,
    List.nil_append]
  after_results_simp
  rfl

theorem V_v12_apply (r : Fin 8192) :
    (V m c main_v12 : S8192x1.Idx → BitVec 32) (ix2 r (0 : Fin 1))
      = lbOfK (m ((c.tc : Thread nD τ).loc main_arg1)) (Cert.Spec.labOf r) := by
  rw [V_v12_eq, cast_col, tile2_apply]
  rfl
theorem V_v13_apply (r : Fin 8192) :
    (V m c main_v13 : S1x8192.Idx → BitVec 32) (ix2 (0 : Fin 1) r)
      = lbOfK (m ((c.tc : Thread nD τ).loc main_arg1)) (Cert.Spec.labOf r) := by
  rw [V_v13_eq, cast_row, tile2_apply]
  rfl

/-- The per-row count. -/
theorem V_v28_eq : (V m c main_v28 : S8192x1.Idx → EReal)
    = shapeCast S8192x1 (cnt27 (m ((c.tc : Thread nD τ).loc main_arg1))) shapeCasts_S8192_S8192x1 := by
  dsimp only [V, V0]
  simp only [hostOps0, hostOps0_1, hostOps0_2, List.flatten_cons, List.flatten_nil, List.append_nil, List.cons_append,
    List.nil_append]
  after_results_simp
  rfl
theorem V_v28_apply (r : Fin 8192) :
    (V m c main_v28 : S8192x1.Idx → EReal) (ix2 r (0 : Fin 1))
      = Cert.Spec.cntK (lbOfK (m ((c.tc : Thread nD τ).loc main_arg1))) r := by
  rw [V_v28_eq, cast_col, cnt27_apply]

end Cert.KernelIdeal.KValue

end
-- ==== Proof.KIMean.lean ====
/-
  The four host lines after the region, read on the extended reals: the result is the sum of the 8192 entries of the
  loss column divided by 8192 (the reduction's initial value is the zero word; 8192.0 is the word 0x46000000).
-/
import proofs.«125888_j37538014167620_2_alg».proof.Proof.KIBase
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

theorem ofBits_8192 : Ideal.ofBits .f32 0x46000000#32 = (8192 : EReal) := by
  simp [Ideal.ofBits, Ideal.ieee]
  rw [← EReal.coe_mul]
  rw [show (8192 : EReal) = ((8192 : ℝ) : EReal) from rfl]
  exact congrArg _ (by norm_num)

theorem mean_apply (A5 : FVec Ideal S8192x1 .f32) (i : S_.Idx) :
    Host.divf (F := Ideal) (Host.reduceAdd (F := Ideal) A5 (constant (F := Ideal) S_ .f32 0x00000000#32) reducesTo_S8192x1_S_d0_1 h_S_)
        (constant (F := Ideal) S_ .f32 0x46000000#32) i
      = Ideal.div (∑ r : Fin 8192, A5 (ix2 r (0 : Fin 1))) 8192 := by
  simp only [Host.divf, Host.reduceAdd, constant, Ideal.hostDivf_def, Ideal.hostReduceAdd_def, Ideal.ofBits_def]
  rw [Ideal.hostReduceAdd_total reducesTo_S8192x1_S_d0_1 (fun b => b.elim0)]
  rw [Ideal.ofBits_zero_f32, zero_add, ofBits_8192, sum_idx2]
  refine congrArg (fun s => Ideal.div s 8192) (Finset.sum_congr rfl fun r _ => ?_)
  rw [Fin.sum_univ_one]

end Cert.KernelIdeal.Hand

end
-- ==== Proof.KIPieces.lean ====
/-
  The found pieces of the body's whole runs at the grid points that write no loss (cases A to D), read back as values.
  Each case's run leaves, in each of the three buffers that carry the running statistics of a row tile, a list of
  whole-buffer stores (last store first). The list covers the buffer, so reading it back through any whole view, over
  whatever the buffer held, gives the last store's payload; the loads that payload was computed from read whole buffers
  (or, for the resident arrays, the column tile's rectangle), and a load that follows the reset's store reads the reset
  value. The results are stated over the named payloads of the body's skeleton and packaged as one point's update
  `stepP` of the triple of statistics. The views the pieces are read through are those of the three carried buffers;
  any whole view of the same shape would give the same value.
-/
import proofs.«125888_j37538014167620_2_alg».proof.Proof.KIPieceDefs
import proofs.«125888_j37538014167620_2_alg».proof.Proof.KIRunA
import proofs.«125888_j37538014167620_2_alg».proof.Proof.KIRunB
import proofs.«125888_j37538014167620_2_alg».proof.Proof.KIRunC
import proofs.«125888_j37538014167620_2_alg».proof.Proof.KIRunD
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Case A: the first point of the grid: the diagonal tile that is also the first of its row of tiles (the statistics are reset, then updated without the self-pairs) -/

/-- Case A's pieces for running statistic 0 tile the buffer, so they cover it. -/
theorem pcover_A_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).1 S1024x1.size (by sl_kernel_rfl) y

/-- Case A, running statistic 0 (the running maximum): the pieces the run found read back as the update of the reset value. -/
theorem read_A_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_0.view.read (Elt F) (scM0_0.view.writes (Elt F) scM0_0.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).1)
      = k0_pay10 x0 (ktile i x1) (k0_pay4 (F := F)) := by
  rw [View.read_writes_eq_canon _ _ _ (pcover_A_0 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_A
  dsimp only
  sl_unfold_run_names
  rw [View.canon_cons_unit_zero (S := S1024x1) hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case A's pieces for running statistic 1 tile the buffer, so they cover it. -/
theorem pcover_A_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.1 S1024x1.size (by sl_kernel_rfl) y

/-- Case A, running statistic 1 (the running sum of exponentials): the pieces the run found read back as the update of the reset value. -/
theorem read_A_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_1.view.read (Elt F) (scM0_1.view.writes (Elt F) scM0_1.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.1)
      = k0_pay13 i x0 (ktile i x1) (k0_pay4 (F := F)) (k0_pay5 (F := F)) := by
  rw [View.read_writes_eq_canon _ _ _ (pcover_A_1 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_A
  dsimp only
  sl_unfold_run_names
  rw [View.canon_cons_unit_zero (S := S1024x1) hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case A's pieces for running statistic 2 tile the buffer, so they cover it. -/
theorem pcover_A_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.2.1 S1024x1.size (by sl_kernel_rfl) y

/-- Case A, running statistic 2 (the running sum over positives): the pieces the run found read back as the update of the reset value. -/
theorem read_A_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_2.view.read (Elt F) (scM0_2.view.writes (Elt F) scM0_2.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = k0_pay14 i x0 (ktile i x1) (klabs i x3) x2 (k0_pay6 (F := F)) := by
  rw [View.read_writes_eq_canon _ _ _ (pcover_A_2 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_A
  dsimp only
  sl_unfold_run_names
  rw [View.canon_cons_unit_zero (S := S1024x1) hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case A's three read-backs are the point's update of the running statistics (started from the reset values, whatever the buffers held). -/
theorem step_A (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((scM0_0.view.read (Elt F) (scM0_0.view.writes (Elt F) scM0_0.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).1),
      scM0_1.view.read (Elt F) (scM0_1.view.writes (Elt F) scM0_1.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.1),
      scM0_2.view.read (Elt F) (scM0_2.view.writes (Elt F) scM0_2.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.2.1)) : Trip F)
      = stepP i x0 x1 x2 x3 x4 (xs0, xs1, xs2) := by
  rw [read_A_0 c i arg2 harg2 arg3 harg3 arg4 harg4 arg5 harg5 arg6 harg6 arg7 harg7 arg8 harg8 arg9 harg9 arg10 harg10 hc0 hc1 hc2 hc3 x0 x1 x2 x3 x4 xs0 xs1 xs2, read_A_1 c i arg2 harg2 arg3 harg3 arg4 harg4 arg5 harg5 arg6 harg6 arg7 harg7 arg8 harg8 arg9 harg9 arg10 harg10 hc0 hc1 hc2 hc3 x0 x1 x2 x3 x4 xs0 xs1 xs2, read_A_2 c i arg2 harg2 arg3 harg3 arg4 harg4 arg5 harg5 arg6 harg6 arg7 harg7 arg8 harg8 arg9 harg9 arg10 harg10 hc0 hc1 hc2 hc3 x0 x1 x2 x3 x4 xs0 xs1 xs2]
  unfold stepP
  simp only [if_pos hc0, if_pos hc1]

/-- In case A (a first column tile) the read-back of running statistic 0 does not depend on what the buffers held. -/
theorem indep_A_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (ys0 ys1 ys2 : Vec F S1024x1 .f32) :
    scM0_0.view.read (Elt F) (scM0_0.view.writes (Elt F) scM0_0.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).1)
      = scM0_0.view.read (Elt F) (scM0_0.view.writes (Elt F) scM0_0.view.junk (kernelRun0_A c i arg2 harg2 arg3 harg3 arg4 harg4 arg5 harg5 arg6 harg6 arg7 harg7 arg8 harg8 arg9 harg9 arg10 harg10 hc0 hc1 hc2 hc3 x0 x1 x2 x3 x4 ys0 ys1 ys2).1) := by
  rw [read_A_0 c i arg2 harg2 arg3 harg3 arg4 harg4 arg5 harg5 arg6 harg6 arg7 harg7 arg8 harg8 arg9 harg9 arg10 harg10 hc0 hc1 hc2 hc3 x0 x1 x2 x3 x4 xs0 xs1 xs2, read_A_0 c i arg2 harg2 arg3 harg3 arg4 harg4 arg5 harg5 arg6 harg6 arg7 harg7 arg8 harg8 arg9 harg9 arg10 harg10 hc0 hc1 hc2 hc3 x0 x1 x2 x3 x4 ys0 ys1 ys2]

/-- In case A (a first column tile) the read-back of running statistic 1 does not depend on what the buffers held. -/
theorem indep_A_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (ys0 ys1 ys2 : Vec F S1024x1 .f32) :
    scM0_1.view.read (Elt F) (scM0_1.view.writes (Elt F) scM0_1.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.1)
      = scM0_1.view.read (Elt F) (scM0_1.view.writes (Elt F) scM0_1.view.junk (kernelRun0_A c i arg2 harg2 arg3 harg3 arg4 harg4 arg5 harg5 arg6 harg6 arg7 harg7 arg8 harg8 arg9 harg9 arg10 harg10 hc0 hc1 hc2 hc3 x0 x1 x2 x3 x4 ys0 ys1 ys2).2.1) := by
  rw [read_A_1 c i arg2 harg2 arg3 harg3 arg4 harg4 arg5 harg5 arg6 harg6 arg7 harg7 arg8 harg8 arg9 harg9 arg10 harg10 hc0 hc1 hc2 hc3 x0 x1 x2 x3 x4 xs0 xs1 xs2, read_A_1 c i arg2 harg2 arg3 harg3 arg4 harg4 arg5 harg5 arg6 harg6 arg7 harg7 arg8 harg8 arg9 harg9 arg10 harg10 hc0 hc1 hc2 hc3 x0 x1 x2 x3 x4 ys0 ys1 ys2]

/-- In case A (a first column tile) the read-back of running statistic 2 does not depend on what the buffers held. -/
theorem indep_A_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (ys0 ys1 ys2 : Vec F S1024x1 .f32) :
    scM0_2.view.read (Elt F) (scM0_2.view.writes (Elt F) scM0_2.view.junk (kernelRun0_A c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = scM0_2.view.read (Elt F) (scM0_2.view.writes (Elt F) scM0_2.view.junk (kernelRun0_A c i arg2 harg2 arg3 harg3 arg4 harg4 arg5 harg5 arg6 harg6 arg7 harg7 arg8 harg8 arg9 harg9 arg10 harg10 hc0 hc1 hc2 hc3 x0 x1 x2 x3 x4 ys0 ys1 ys2).2.2.1) := by
  rw [read_A_2 c i arg2 harg2 arg3 harg3 arg4 harg4 arg5 harg5 arg6 harg6 arg7 harg7 arg8 harg8 arg9 harg9 arg10 harg10 hc0 hc1 hc2 hc3 x0 x1 x2 x3 x4 xs0 xs1 xs2, read_A_2 c i arg2 harg2 arg3 harg3 arg4 harg4 arg5 harg5 arg6 harg6 arg7 harg7 arg8 harg8 arg9 harg9 arg10 harg10 hc0 hc1 hc2 hc3 x0 x1 x2 x3 x4 ys0 ys1 ys2]

/-! ## Case B: the first tile of a later row of tiles, off the diagonal (the statistics are reset, then updated over all pairs) -/

/-- Case B's pieces for running statistic 0 tile the buffer, so they cover it. -/
theorem pcover_B_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).1 S1024x1.size (by sl_kernel_rfl) y

/-- Case B, running statistic 0 (the running maximum): the pieces the run found read back as the update of the reset value. -/
theorem read_B_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_0.view.read (Elt F) (scM0_0.view.writes (Elt F) scM0_0.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).1)
      = k0_pay10 x0 (ktile i x1) (k0_pay4 (F := F)) := by
  rw [View.read_writes_eq_canon _ _ _ (pcover_B_0 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_B
  dsimp only
  sl_unfold_run_names
  rw [View.canon_cons_unit_zero (S := S1024x1) hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case B's pieces for running statistic 1 tile the buffer, so they cover it. -/
theorem pcover_B_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.1 S1024x1.size (by sl_kernel_rfl) y

/-- Case B, running statistic 1 (the running sum of exponentials): the pieces the run found read back as the update of the reset value. -/
theorem read_B_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_1.view.read (Elt F) (scM0_1.view.writes (Elt F) scM0_1.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.1)
      = k0_pay1 (k0_pay7 x0 (ktile i x1)) (k0_pay8 x0 (ktile i x1) (k0_pay4 (F := F))) (k0_pay9 x0 (ktile i x1) (k0_pay4 (F := F))) (k0_pay5 (F := F)) := by
  rw [View.read_writes_eq_canon _ _ _ (pcover_B_1 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_B
  dsimp only
  sl_unfold_run_names
  rw [View.canon_cons_unit_zero (S := S1024x1) hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case B's pieces for running statistic 2 tile the buffer, so they cover it. -/
theorem pcover_B_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.2.1 S1024x1.size (by sl_kernel_rfl) y

/-- Case B, running statistic 2 (the running sum over positives): the pieces the run found read back as the update of the reset value. -/
theorem read_B_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_2.view.read (Elt F) (scM0_2.view.writes (Elt F) scM0_2.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = k0_pay2 (k0_pay7 x0 (ktile i x1)) (k0_pay11 (klabs i x3) x2) (k0_pay6 (F := F)) := by
  rw [View.read_writes_eq_canon _ _ _ (pcover_B_2 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_B
  dsimp only
  sl_unfold_run_names
  rw [View.canon_cons_unit_zero (S := S1024x1) hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case B's three read-backs are the point's update of the running statistics (started from the reset values, whatever the buffers held). -/
theorem step_B (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((scM0_0.view.read (Elt F) (scM0_0.view.writes (Elt F) scM0_0.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).1),
      scM0_1.view.read (Elt F) (scM0_1.view.writes (Elt F) scM0_1.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.1),
      scM0_2.view.read (Elt F) (scM0_2.view.writes (Elt F) scM0_2.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.2.1)) : Trip F)
      = stepP i x0 x1 x2 x3 x4 (xs0, xs1, xs2) := by
  rw [read_B_0 c i arg2 harg2 arg3 harg3 arg4 harg4 arg5 harg5 arg6 harg6 arg7 harg7 arg8 harg8 arg9 harg9 arg10 harg10 hc0 hc1 hc2 hc3 x0 x1 x2 x3 x4 xs0 xs1 xs2, read_B_1 c i arg2 harg2 arg3 harg3 arg4 harg4 arg5 harg5 arg6 harg6 arg7 harg7 arg8 harg8 arg9 harg9 arg10 harg10 hc0 hc1 hc2 hc3 x0 x1 x2 x3 x4 xs0 xs1 xs2, read_B_2 c i arg2 harg2 arg3 harg3 arg4 harg4 arg5 harg5 arg6 harg6 arg7 harg7 arg8 harg8 arg9 harg9 arg10 harg10 hc0 hc1 hc2 hc3 x0 x1 x2 x3 x4 xs0 xs1 xs2]
  unfold stepP
  simp only [if_pos hc0, if_neg hc1]

/-- In case B (a first column tile) the read-back of running statistic 0 does not depend on what the buffers held. -/
theorem indep_B_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (ys0 ys1 ys2 : Vec F S1024x1 .f32) :
    scM0_0.view.read (Elt F) (scM0_0.view.writes (Elt F) scM0_0.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).1)
      = scM0_0.view.read (Elt F) (scM0_0.view.writes (Elt F) scM0_0.view.junk (kernelRun0_B c i arg2 harg2 arg3 harg3 arg4 harg4 arg5 harg5 arg6 harg6 arg7 harg7 arg8 harg8 arg9 harg9 arg10 harg10 hc0 hc1 hc2 hc3 x0 x1 x2 x3 x4 ys0 ys1 ys2).1) := by
  rw [read_B_0 c i arg2 harg2 arg3 harg3 arg4 harg4 arg5 harg5 arg6 harg6 arg7 harg7 arg8 harg8 arg9 harg9 arg10 harg10 hc0 hc1 hc2 hc3 x0 x1 x2 x3 x4 xs0 xs1 xs2, read_B_0 c i arg2 harg2 arg3 harg3 arg4 harg4 arg5 harg5 arg6 harg6 arg7 harg7 arg8 harg8 arg9 harg9 arg10 harg10 hc0 hc1 hc2 hc3 x0 x1 x2 x3 x4 ys0 ys1 ys2]

/-- In case B (a first column tile) the read-back of running statistic 1 does not depend on what the buffers held. -/
theorem indep_B_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (ys0 ys1 ys2 : Vec F S1024x1 .f32) :
    scM0_1.view.read (Elt F) (scM0_1.view.writes (Elt F) scM0_1.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.1)
      = scM0_1.view.read (Elt F) (scM0_1.view.writes (Elt F) scM0_1.view.junk (kernelRun0_B c i arg2 harg2 arg3 harg3 arg4 harg4 arg5 harg5 arg6 harg6 arg7 harg7 arg8 harg8 arg9 harg9 arg10 harg10 hc0 hc1 hc2 hc3 x0 x1 x2 x3 x4 ys0 ys1 ys2).2.1) := by
  rw [read_B_1 c i arg2 harg2 arg3 harg3 arg4 harg4 arg5 harg5 arg6 harg6 arg7 harg7 arg8 harg8 arg9 harg9 arg10 harg10 hc0 hc1 hc2 hc3 x0 x1 x2 x3 x4 xs0 xs1 xs2, read_B_1 c i arg2 harg2 arg3 harg3 arg4 harg4 arg5 harg5 arg6 harg6 arg7 harg7 arg8 harg8 arg9 harg9 arg10 harg10 hc0 hc1 hc2 hc3 x0 x1 x2 x3 x4 ys0 ys1 ys2]

/-- In case B (a first column tile) the read-back of running statistic 2 does not depend on what the buffers held. -/
theorem indep_B_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (ys0 ys1 ys2 : Vec F S1024x1 .f32) :
    scM0_2.view.read (Elt F) (scM0_2.view.writes (Elt F) scM0_2.view.junk (kernelRun0_B c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = scM0_2.view.read (Elt F) (scM0_2.view.writes (Elt F) scM0_2.view.junk (kernelRun0_B c i arg2 harg2 arg3 harg3 arg4 harg4 arg5 harg5 arg6 harg6 arg7 harg7 arg8 harg8 arg9 harg9 arg10 harg10 hc0 hc1 hc2 hc3 x0 x1 x2 x3 x4 ys0 ys1 ys2).2.2.1) := by
  rw [read_B_2 c i arg2 harg2 arg3 harg3 arg4 harg4 arg5 harg5 arg6 harg6 arg7 harg7 arg8 harg8 arg9 harg9 arg10 harg10 hc0 hc1 hc2 hc3 x0 x1 x2 x3 x4 xs0 xs1 xs2, read_B_2 c i arg2 harg2 arg3 harg3 arg4 harg4 arg5 harg5 arg6 harg6 arg7 harg7 arg8 harg8 arg9 harg9 arg10 harg10 hc0 hc1 hc2 hc3 x0 x1 x2 x3 x4 ys0 ys1 ys2]

/-! ## Case C: a diagonal tile that is neither first nor last of its row (the statistics are updated without the self-pairs) -/

/-- Case C's pieces for running statistic 0 tile the buffer, so they cover it. -/
theorem pcover_C_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).1 S1024x1.size (by sl_kernel_rfl) y

/-- Case C, running statistic 0 (the running maximum): the pieces the run found read back as the update of what the buffer held. -/
theorem read_C_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_0.view.read (Elt F) (scM0_0.view.writes (Elt F) scM0_0.view.junk (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).1)
      = k0_pay10 x0 (ktile i x1) xs0 := by
  rw [View.read_writes_eq_canon _ _ _ (pcover_C_0 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_C
  dsimp only
  sl_unfold_run_names
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case C's pieces for running statistic 1 tile the buffer, so they cover it. -/
theorem pcover_C_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.1 S1024x1.size (by sl_kernel_rfl) y

/-- Case C, running statistic 1 (the running sum of exponentials): the pieces the run found read back as the update of what the buffer held. -/
theorem read_C_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_1.view.read (Elt F) (scM0_1.view.writes (Elt F) scM0_1.view.junk (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.1)
      = k0_pay13 i x0 (ktile i x1) xs0 xs1 := by
  rw [View.read_writes_eq_canon _ _ _ (pcover_C_1 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_C
  dsimp only
  sl_unfold_run_names
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case C's pieces for running statistic 2 tile the buffer, so they cover it. -/
theorem pcover_C_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.2.1 S1024x1.size (by sl_kernel_rfl) y

/-- Case C, running statistic 2 (the running sum over positives): the pieces the run found read back as the update of what the buffer held. -/
theorem read_C_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_2.view.read (Elt F) (scM0_2.view.writes (Elt F) scM0_2.view.junk (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = k0_pay14 i x0 (ktile i x1) (klabs i x3) x2 xs2 := by
  rw [View.read_writes_eq_canon _ _ _ (pcover_C_2 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_C
  dsimp only
  sl_unfold_run_names
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case C's three read-backs are the point's update of the running statistics from what the buffers held. -/
theorem step_C (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((scM0_0.view.read (Elt F) (scM0_0.view.writes (Elt F) scM0_0.view.junk (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).1),
      scM0_1.view.read (Elt F) (scM0_1.view.writes (Elt F) scM0_1.view.junk (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.1),
      scM0_2.view.read (Elt F) (scM0_2.view.writes (Elt F) scM0_2.view.junk (kernelRun0_C c i arg2 harg2 arg3 harg3 arg4 harg4 arg5 harg5 arg6 harg6 arg7 harg7 arg8 harg8 arg9 harg9 arg10 harg10 hc0 hc1 hc2 hc3 x0 x1 x2 x3 x4 xs0 xs1 xs2).2.2.1)) : Trip F)
      = stepP i x0 x1 x2 x3 x4 (xs0, xs1, xs2) := by
  rw [read_C_0 c i arg2 harg2 arg3 harg3 arg4 harg4 arg5 harg5 arg6 harg6 arg7 harg7 arg8 harg8 arg9 harg9 arg10 harg10 hc0 hc1 hc2 hc3 x0 x1 x2 x3 x4 xs0 xs1 xs2, read_C_1 c i arg2 harg2 arg3 harg3 arg4 harg4 arg5 harg5 arg6 harg6 arg7 harg7 arg8 harg8 arg9 harg9 arg10 harg10 hc0 hc1 hc2 hc3 x0 x1 x2 x3 x4 xs0 xs1 xs2, read_C_2 c i arg2 harg2 arg3 harg3 arg4 harg4 arg5 harg5 arg6 harg6 arg7 harg7 arg8 harg8 arg9 harg9 arg10 harg10 hc0 hc1 hc2 hc3 x0 x1 x2 x3 x4 xs0 xs1 xs2]
  unfold stepP
  simp only [if_neg hc0, if_pos hc1]

/-! ## Case D: a tile off the diagonal that is neither first nor last of its row (the statistics are updated over all pairs) -/

/-- Case D's pieces for running statistic 0 tile the buffer, so they cover it. -/
theorem pcover_D_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).1 S1024x1.size (by sl_kernel_rfl) y

/-- Case D, running statistic 0 (the running maximum): the pieces the run found read back as the update of what the buffer held. -/
theorem read_D_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_0.view.read (Elt F) (scM0_0.view.writes (Elt F) scM0_0.view.junk (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).1)
      = k0_pay10 x0 (ktile i x1) xs0 := by
  rw [View.read_writes_eq_canon _ _ _ (pcover_D_0 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_D
  dsimp only
  sl_unfold_run_names
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case D's pieces for running statistic 1 tile the buffer, so they cover it. -/
theorem pcover_D_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.1 S1024x1.size (by sl_kernel_rfl) y

/-- Case D, running statistic 1 (the running sum of exponentials): the pieces the run found read back as the update of what the buffer held. -/
theorem read_D_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_1.view.read (Elt F) (scM0_1.view.writes (Elt F) scM0_1.view.junk (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.1)
      = k0_pay1 (k0_pay7 x0 (ktile i x1)) (k0_pay8 x0 (ktile i x1) xs0) (k0_pay9 x0 (ktile i x1) xs0) xs1 := by
  rw [View.read_writes_eq_canon _ _ _ (pcover_D_1 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_D
  dsimp only
  sl_unfold_run_names
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case D's pieces for running statistic 2 tile the buffer, so they cover it. -/
theorem pcover_D_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.2.1, y ∈ pc.1.set :=
  View.cover_of_tiledL (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.2.1 S1024x1.size (by sl_kernel_rfl) y

/-- Case D, running statistic 2 (the running sum over positives): the pieces the run found read back as the update of what the buffer held. -/
theorem read_D_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_2.view.read (Elt F) (scM0_2.view.writes (Elt F) scM0_2.view.junk (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = k0_pay2 (k0_pay7 x0 (ktile i x1)) (k0_pay11 (klabs i x3) x2) xs2 := by
  rw [View.read_writes_eq_canon _ _ _ (pcover_D_2 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_D
  dsimp only
  sl_unfold_run_names
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case D's three read-backs are the point's update of the running statistics from what the buffers held. -/
theorem step_D (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((scM0_0.view.read (Elt F) (scM0_0.view.writes (Elt F) scM0_0.view.junk (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).1),
      scM0_1.view.read (Elt F) (scM0_1.view.writes (Elt F) scM0_1.view.junk (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.1),
      scM0_2.view.read (Elt F) (scM0_2.view.writes (Elt F) scM0_2.view.junk (kernelRun0_D c i arg2 harg2 arg3 harg3 arg4 harg4 arg5 harg5 arg6 harg6 arg7 harg7 arg8 harg8 arg9 harg9 arg10 harg10 hc0 hc1 hc2 hc3 x0 x1 x2 x3 x4 xs0 xs1 xs2).2.2.1)) : Trip F)
      = stepP i x0 x1 x2 x3 x4 (xs0, xs1, xs2) := by
  rw [read_D_0 c i arg2 harg2 arg3 harg3 arg4 harg4 arg5 harg5 arg6 harg6 arg7 harg7 arg8 harg8 arg9 harg9 arg10 harg10 hc0 hc1 hc2 hc3 x0 x1 x2 x3 x4 xs0 xs1 xs2, read_D_1 c i arg2 harg2 arg3 harg3 arg4 harg4 arg5 harg5 arg6 harg6 arg7 harg7 arg8 harg8 arg9 harg9 arg10 harg10 hc0 hc1 hc2 hc3 x0 x1 x2 x3 x4 xs0 xs1 xs2, read_D_2 c i arg2 harg2 arg3 harg3 arg4 harg4 arg5 harg5 arg6 harg6 arg7 harg7 arg8 harg8 arg9 harg9 arg10 harg10 hc0 hc1 hc2 hc3 x0 x1 x2 x3 x4 xs0 xs1 xs2]
  unfold stepP
  simp only [if_neg hc0, if_neg hc1]

end Cert.KernelIdeal.Hand

end
-- ==== Proof.KIPiecesEF.lean ====
/-
  The pieces the case runs E and F found, read back as values. At the last column tile of a row of tiles the body
  raises the running maximum by the tile's row maxima, rescales and extends the two running sums (on the diagonal tile
  without the self-pairs), and writes the row tile's block of losses from the three statistics it has just updated. Each
  buffer the body stores into ends holding one whole-buffer store, so its contents are that store's payload, the loads
  inside it being the whole input blocks, the column tile of the resident arrays, and the statistics the body found.
-/
import proofs.«125888_j37538014167620_2_alg».proof.Proof.KIPieceDefs
import proofs.«125888_j37538014167620_2_alg».proof.Proof.KIRunE
import proofs.«125888_j37538014167620_2_alg».proof.Proof.KIRunF
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Case E -/

/-- Case E's pieces for the output block's buffer cover it (one store of the whole block). -/
theorem pcover_E_5 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).1, y ∈ pc.1.set :=
  View.cover_of_tiledL _ S1024x1.size (by sl_kernel_rfl) y

/-- Case E's pieces for the running maximum's buffer cover it (one store of the whole block). -/
theorem pcover_E_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.1, y ∈ pc.1.set :=
  View.cover_of_tiledL _ S1024x1.size (by sl_kernel_rfl) y

/-- Case E's pieces for the buffer of the running sum of exponentials cover it (one store of the whole block). -/
theorem pcover_E_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.2.1, y ∈ pc.1.set :=
  View.cover_of_tiledL _ S1024x1.size (by sl_kernel_rfl) y

/-- Case E's pieces for the buffer of the running sum over positives cover it (one store of the whole block). -/
theorem pcover_E_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.2.2.1, y ∈ pc.1.set :=
  View.cover_of_tiledL _ S1024x1.size (by sl_kernel_rfl) y

/-- What case E leaves in the running maximum's buffer. -/
theorem read_E_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_0.view.read (Elt F) (scM0_0.view.writes (Elt F) scM0_0.view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.1)
      = k0_pay10 x0 (ktile i x1) xs0 := by
  rw [View.read_writes_eq_canon _ _ _ (pcover_E_0 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_E
  dsimp only
  sl_unfold_words
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- What case E leaves in the buffer of the running sum of exponentials. -/
theorem read_E_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_1.view.read (Elt F) (scM0_1.view.writes (Elt F) scM0_1.view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = k0_pay13 i x0 (ktile i x1) xs0 xs1 := by
  rw [View.read_writes_eq_canon _ _ _ (pcover_E_1 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_E
  dsimp only
  sl_unfold_words
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- What case E leaves in the buffer of the running sum over positives. -/
theorem read_E_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_2.view.read (Elt F) (scM0_2.view.writes (Elt F) scM0_2.view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.2.2.1)
      = k0_pay14 i x0 (ktile i x1) (klabs i x3) x2 xs2 := by
  rw [View.read_writes_eq_canon _ _ _ (pcover_E_2 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_E
  dsimp only
  sl_unfold_words
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- What case E leaves in the output block's buffer. -/
theorem read_E_5 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    (Memref.whole cc0_stg5_0 : Memref sig .tc .vmem S1024x1 .f32).view.read (Elt F) ((Memref.whole cc0_stg5_0 : Memref sig .tc .vmem S1024x1 .f32).view.writes (Elt F) (Memref.whole cc0_stg5_0 : Memref sig .tc .vmem S1024x1 .f32).view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).1)
      = k0_pay3 (k0_pay13 i x0 (ktile i x1) xs0 xs1) x4 (k0_pay14 i x0 (ktile i x1) (klabs i x3) x2 xs2) (k0_pay10 x0 (ktile i x1) xs0) := by
  rw [View.read_writes_eq_canon _ _ _ (pcover_E_5 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_E
  dsimp only
  sl_unfold_words
  rw [View.canon_unit_zero hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case E's three statistics are one point's update of those the body found. -/
theorem step_E (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((scM0_0.view.read (Elt F) (scM0_0.view.writes (Elt F) scM0_0.view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.1),
      scM0_1.view.read (Elt F) (scM0_1.view.writes (Elt F) scM0_1.view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.2.1),
      scM0_2.view.read (Elt F) (scM0_2.view.writes (Elt F) scM0_2.view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).2.2.2.1)) : Trip F)
      = stepP i x0 x1 x2 x3 x4 (xs0, xs1, xs2) := by
  rw [read_E_0, read_E_1, read_E_2]; unfold stepP; simp only [if_neg hc0, if_pos hc1]

/-- Case E's output block is the block of losses of the statistics just updated. -/
theorem out_E (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    (Memref.whole cc0_stg5_0 : Memref sig .tc .vmem S1024x1 .f32).view.read (Elt F) ((Memref.whole cc0_stg5_0 : Memref sig .tc .vmem S1024x1 .f32).view.writes (Elt F) (Memref.whole cc0_stg5_0 : Memref sig .tc .vmem S1024x1 .f32).view.junk (kernelRun0_E c i arg2 harg2 arg3 harg3 arg4 harg4 arg5 harg5 arg6 harg6 arg7 harg7 arg8 harg8 arg9 harg9 arg10 harg10 hc0 hc1 hc2 hc3 x0 x1 x2 x3 x4 xs0 xs1 xs2).1)
      = outP i x0 x1 x2 x3 x4 (xs0, xs1, xs2) := by
  rw [read_E_5]; unfold outP stepP; simp only [if_neg hc0, if_pos hc1]

/-! ## Case F -/

/-- Case F's pieces for the output block's buffer cover it (one store of the whole block). -/
theorem pcover_F_5 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).1, y ∈ pc.1.set :=
  View.cover_of_tiledL _ S1024x1.size (by sl_kernel_rfl) y

/-- Case F's pieces for the running maximum's buffer cover it (one store of the whole block). -/
theorem pcover_F_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.1, y ∈ pc.1.set :=
  View.cover_of_tiledL _ S1024x1.size (by sl_kernel_rfl) y

/-- Case F's pieces for the buffer of the running sum of exponentials cover it (one store of the whole block). -/
theorem pcover_F_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.2.1, y ∈ pc.1.set :=
  View.cover_of_tiledL _ S1024x1.size (by sl_kernel_rfl) y

/-- Case F's pieces for the buffer of the running sum over positives cover it (one store of the whole block). -/
theorem pcover_F_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) (y : S1024x1.Idx) :
    ∃ pc ∈ (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.2.2.1, y ∈ pc.1.set :=
  View.cover_of_tiledL _ S1024x1.size (by sl_kernel_rfl) y

/-- What case F leaves in the running maximum's buffer. -/
theorem read_F_0 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_0.view.read (Elt F) (scM0_0.view.writes (Elt F) scM0_0.view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.1)
      = k0_pay10 x0 (ktile i x1) xs0 := by
  rw [View.read_writes_eq_canon _ _ _ (pcover_F_0 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_F
  dsimp only
  sl_unfold_words
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- What case F leaves in the buffer of the running sum of exponentials. -/
theorem read_F_1 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_1.view.read (Elt F) (scM0_1.view.writes (Elt F) scM0_1.view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.2.1)
      = k0_pay1 (k0_pay7 x0 (ktile i x1)) (k0_pay8 x0 (ktile i x1) xs0) (k0_pay9 x0 (ktile i x1) xs0) xs1 := by
  rw [View.read_writes_eq_canon _ _ _ (pcover_F_1 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_F
  dsimp only
  sl_unfold_words
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- What case F leaves in the buffer of the running sum over positives. -/
theorem read_F_2 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    scM0_2.view.read (Elt F) (scM0_2.view.writes (Elt F) scM0_2.view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.2.2.1)
      = k0_pay2 (k0_pay7 x0 (ktile i x1)) (k0_pay11 (klabs i x3) x2) xs2 := by
  rw [View.read_writes_eq_canon _ _ _ (pcover_F_2 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_F
  dsimp only
  sl_unfold_words
  rw [View.canon_unit_zero hzero2]
  simp only [View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- What case F leaves in the output block's buffer. -/
theorem read_F_5 (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    (Memref.whole cc0_stg5_0 : Memref sig .tc .vmem S1024x1 .f32).view.read (Elt F) ((Memref.whole cc0_stg5_0 : Memref sig .tc .vmem S1024x1 .f32).view.writes (Elt F) (Memref.whole cc0_stg5_0 : Memref sig .tc .vmem S1024x1 .f32).view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).1)
      = k0_pay3 (k0_pay1 (k0_pay7 x0 (ktile i x1)) (k0_pay8 x0 (ktile i x1) xs0) (k0_pay9 x0 (ktile i x1) xs0) xs1) x4 (k0_pay2 (k0_pay7 x0 (ktile i x1)) (k0_pay11 (klabs i x3) x2) xs2) (k0_pay10 x0 (ktile i x1) xs0) := by
  rw [View.read_writes_eq_canon _ _ _ (pcover_F_5 c i arg2 harg2 arg3 harg3 arg4 harg4 arg5 harg5 arg6 harg6 arg7 harg7 arg8 harg8 arg9 harg9 arg10 harg10 hc0 hc1 hc2 hc3 x0 x1 x2 x3 x4 xs0 xs1 xs2)]
  unfold kernelRun0_F
  dsimp only
  sl_unfold_words
  rw [View.canon_unit_zero hzero2]
  simp only [View.readCov_unit_zero (S := S1024x1) _ hzero2, View.readAt_eq_ld, harg2.read_unread, harg3.read_unread, harg4.read_unread, harg5.read_unread, harg6.read_unread, harg8.read_unread, harg9.read_unread, harg10.read_unread, View.ld_unit_zero (S := S1024x128) hzero2, View.ld_unit_zero (S := S1024x1) hzero2]
  rfl

/-- Case F's three statistics are one point's update of those the body found. -/
theorem step_F (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((scM0_0.view.read (Elt F) (scM0_0.view.writes (Elt F) scM0_0.view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.1),
      scM0_1.view.read (Elt F) (scM0_1.view.writes (Elt F) scM0_1.view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.2.1),
      scM0_2.view.read (Elt F) (scM0_2.view.writes (Elt F) scM0_2.view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).2.2.2.1)) : Trip F)
      = stepP i x0 x1 x2 x3 x4 (xs0, xs1, xs2) := by
  rw [read_F_0, read_F_1, read_F_2]; unfold stepP; simp only [if_neg hc0, if_neg hc1]

/-- Case F's output block is the block of losses of the statistics just updated. -/
theorem out_F (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    (Memref.whole cc0_stg5_0 : Memref sig .tc .vmem S1024x1 .f32).view.read (Elt F) ((Memref.whole cc0_stg5_0 : Memref sig .tc .vmem S1024x1 .f32).view.writes (Elt F) (Memref.whole cc0_stg5_0 : Memref sig .tc .vmem S1024x1 .f32).view.junk (kernelRun0_F c i arg2 harg2 arg3 harg3 arg4 harg4 arg5 harg5 arg6 harg6 arg7 harg7 arg8 harg8 arg9 harg9 arg10 harg10 hc0 hc1 hc2 hc3 x0 x1 x2 x3 x4 xs0 xs1 xs2).1)
      = outP i x0 x1 x2 x3 x4 (xs0, xs1, xs2) := by
  rw [read_F_5]; unfold outP stepP; simp only [if_neg hc0, if_neg hc1]

end Cert.KernelIdeal.Hand

end
-- ==== Proof.KIGlueFold.lean ====
/-
  The recurrence of the three running statistics over the grid, and the block of losses at the end of a row of tiles.
  The proof data state what the output's buffer and the three carried buffers hold after each point by recursion on the
  point, case by case, as the found pieces of that case's run read back. Here each case's read-backs are identified with
  the values: the three statistics a point leaves are one update `stepP` of the statistics it started from, at the five
  blocks the point reads, and at a last column tile the output block is `outP` of them. Point by point: at a first
  column tile the statistics are the update of some starting value (the update resets them first, so the point before is
  not read); at every other point they are the update of what the point before left; at a last column tile the output
  block is the block of losses computed from what the point before left. All generic in the float interpretation.
-/
import proofs.«125888_j37538014167620_2_alg».proof.Proof.KIFrameA
import proofs.«125888_j37538014167620_2_alg».proof.Proof.KIPieces
import proofs.«125888_j37538014167620_2_alg».proof.Proof.KIPiecesEF
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Case by case, at any buffers -/

/-- Case A: the three statistics the body leaves are one point's update of those it found. -/
theorem sout_trip_A (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((sout0_A_0 c i arg2 harg2 arg3 harg3 arg4 harg4 arg5 harg5 arg6 harg6 arg7 harg7 arg8 harg8 arg9 harg9 arg10 harg10 hc0 hc1 hc2 hc3 x0 x1 x2 x3 x4 xs0 xs1 xs2, sout0_A_1 c i arg2 harg2 arg3 harg3 arg4 harg4 arg5 harg5 arg6 harg6 arg7 harg7 arg8 harg8 arg9 harg9 arg10 harg10 hc0 hc1 hc2 hc3 x0 x1 x2 x3 x4 xs0 xs1 xs2, sout0_A_2 c i arg2 harg2 arg3 harg3 arg4 harg4 arg5 harg5 arg6 harg6 arg7 harg7 arg8 harg8 arg9 harg9 arg10 harg10 hc0 hc1 hc2 hc3 x0 x1 x2 x3 x4 xs0 xs1 xs2) : Trip F)
      = stepP i x0 x1 x2 x3 x4 (xs0, xs1, xs2) := by
  unfold sout0_A_0 sout0_A_1 sout0_A_2
  exact step_A c i arg2 harg2 arg3 harg3 arg4 harg4 arg5 harg5 arg6 harg6 arg7 harg7 arg8 harg8 arg9 harg9 arg10 harg10 hc0 hc1 hc2 hc3 x0 x1 x2 x3 x4 xs0 xs1 xs2

/-- Case B: the three statistics the body leaves are one point's update of those it found. -/
theorem sout_trip_B (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((sout0_B_0 c i arg2 harg2 arg3 harg3 arg4 harg4 arg5 harg5 arg6 harg6 arg7 harg7 arg8 harg8 arg9 harg9 arg10 harg10 hc0 hc1 hc2 hc3 x0 x1 x2 x3 x4 xs0 xs1 xs2, sout0_B_1 c i arg2 harg2 arg3 harg3 arg4 harg4 arg5 harg5 arg6 harg6 arg7 harg7 arg8 harg8 arg9 harg9 arg10 harg10 hc0 hc1 hc2 hc3 x0 x1 x2 x3 x4 xs0 xs1 xs2, sout0_B_2 c i arg2 harg2 arg3 harg3 arg4 harg4 arg5 harg5 arg6 harg6 arg7 harg7 arg8 harg8 arg9 harg9 arg10 harg10 hc0 hc1 hc2 hc3 x0 x1 x2 x3 x4 xs0 xs1 xs2) : Trip F)
      = stepP i x0 x1 x2 x3 x4 (xs0, xs1, xs2) := by
  unfold sout0_B_0 sout0_B_1 sout0_B_2
  exact step_B c i arg2 harg2 arg3 harg3 arg4 harg4 arg5 harg5 arg6 harg6 arg7 harg7 arg8 harg8 arg9 harg9 arg10 harg10 hc0 hc1 hc2 hc3 x0 x1 x2 x3 x4 xs0 xs1 xs2

/-- Case C: the three statistics the body leaves are one point's update of those it found. -/
theorem sout_trip_C (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((sout0_C_0 c i arg2 harg2 arg3 harg3 arg4 harg4 arg5 harg5 arg6 harg6 arg7 harg7 arg8 harg8 arg9 harg9 arg10 harg10 hc0 hc1 hc2 hc3 x0 x1 x2 x3 x4 xs0 xs1 xs2, sout0_C_1 c i arg2 harg2 arg3 harg3 arg4 harg4 arg5 harg5 arg6 harg6 arg7 harg7 arg8 harg8 arg9 harg9 arg10 harg10 hc0 hc1 hc2 hc3 x0 x1 x2 x3 x4 xs0 xs1 xs2, sout0_C_2 c i arg2 harg2 arg3 harg3 arg4 harg4 arg5 harg5 arg6 harg6 arg7 harg7 arg8 harg8 arg9 harg9 arg10 harg10 hc0 hc1 hc2 hc3 x0 x1 x2 x3 x4 xs0 xs1 xs2) : Trip F)
      = stepP i x0 x1 x2 x3 x4 (xs0, xs1, xs2) := by
  unfold sout0_C_0 sout0_C_1 sout0_C_2
  exact step_C c i arg2 harg2 arg3 harg3 arg4 harg4 arg5 harg5 arg6 harg6 arg7 harg7 arg8 harg8 arg9 harg9 arg10 harg10 hc0 hc1 hc2 hc3 x0 x1 x2 x3 x4 xs0 xs1 xs2

/-- Case D: the three statistics the body leaves are one point's update of those it found. -/
theorem sout_trip_D (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : ¬cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((sout0_D_0 c i arg2 harg2 arg3 harg3 arg4 harg4 arg5 harg5 arg6 harg6 arg7 harg7 arg8 harg8 arg9 harg9 arg10 harg10 hc0 hc1 hc2 hc3 x0 x1 x2 x3 x4 xs0 xs1 xs2, sout0_D_1 c i arg2 harg2 arg3 harg3 arg4 harg4 arg5 harg5 arg6 harg6 arg7 harg7 arg8 harg8 arg9 harg9 arg10 harg10 hc0 hc1 hc2 hc3 x0 x1 x2 x3 x4 xs0 xs1 xs2, sout0_D_2 c i arg2 harg2 arg3 harg3 arg4 harg4 arg5 harg5 arg6 harg6 arg7 harg7 arg8 harg8 arg9 harg9 arg10 harg10 hc0 hc1 hc2 hc3 x0 x1 x2 x3 x4 xs0 xs1 xs2) : Trip F)
      = stepP i x0 x1 x2 x3 x4 (xs0, xs1, xs2) := by
  unfold sout0_D_0 sout0_D_1 sout0_D_2
  exact step_D c i arg2 harg2 arg3 harg3 arg4 harg4 arg5 harg5 arg6 harg6 arg7 harg7 arg8 harg8 arg9 harg9 arg10 harg10 hc0 hc1 hc2 hc3 x0 x1 x2 x3 x4 xs0 xs1 xs2

/-- Case E: the three statistics the body leaves are one point's update of those it found. -/
theorem sout_trip_E (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((sout0_E_0 c i arg2 harg2 arg3 harg3 arg4 harg4 arg5 harg5 arg6 harg6 arg7 harg7 arg8 harg8 arg9 harg9 arg10 harg10 hc0 hc1 hc2 hc3 x0 x1 x2 x3 x4 xs0 xs1 xs2, sout0_E_1 c i arg2 harg2 arg3 harg3 arg4 harg4 arg5 harg5 arg6 harg6 arg7 harg7 arg8 harg8 arg9 harg9 arg10 harg10 hc0 hc1 hc2 hc3 x0 x1 x2 x3 x4 xs0 xs1 xs2, sout0_E_2 c i arg2 harg2 arg3 harg3 arg4 harg4 arg5 harg5 arg6 harg6 arg7 harg7 arg8 harg8 arg9 harg9 arg10 harg10 hc0 hc1 hc2 hc3 x0 x1 x2 x3 x4 xs0 xs1 xs2) : Trip F)
      = stepP i x0 x1 x2 x3 x4 (xs0, xs1, xs2) := by
  unfold sout0_E_0 sout0_E_1 sout0_E_2
  exact step_E c i arg2 harg2 arg3 harg3 arg4 harg4 arg5 harg5 arg6 harg6 arg7 harg7 arg8 harg8 arg9 harg9 arg10 harg10 hc0 hc1 hc2 hc3 x0 x1 x2 x3 x4 xs0 xs1 xs2

/-- Case F: the three statistics the body leaves are one point's update of those it found. -/
theorem sout_trip_F (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    ((sout0_F_0 c i arg2 harg2 arg3 harg3 arg4 harg4 arg5 harg5 arg6 harg6 arg7 harg7 arg8 harg8 arg9 harg9 arg10 harg10 hc0 hc1 hc2 hc3 x0 x1 x2 x3 x4 xs0 xs1 xs2, sout0_F_1 c i arg2 harg2 arg3 harg3 arg4 harg4 arg5 harg5 arg6 harg6 arg7 harg7 arg8 harg8 arg9 harg9 arg10 harg10 hc0 hc1 hc2 hc3 x0 x1 x2 x3 x4 xs0 xs1 xs2, sout0_F_2 c i arg2 harg2 arg3 harg3 arg4 harg4 arg5 harg5 arg6 harg6 arg7 harg7 arg8 harg8 arg9 harg9 arg10 harg10 hc0 hc1 hc2 hc3 x0 x1 x2 x3 x4 xs0 xs1 xs2) : Trip F)
      = stepP i x0 x1 x2 x3 x4 (xs0, xs1, xs2) := by
  unfold sout0_F_0 sout0_F_1 sout0_F_2
  exact step_F c i arg2 harg2 arg3 harg3 arg4 harg4 arg5 harg5 arg6 harg6 arg7 harg7 arg8 harg8 arg9 harg9 arg10 harg10 hc0 hc1 hc2 hc3 x0 x1 x2 x3 x4 xs0 xs1 xs2

/-- Case E: the output block the body leaves is the block of losses of the statistics it has just updated. -/
theorem out_loss_E (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (hc2 : ¬cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    out0_E_5 c i arg2 harg2 arg3 harg3 arg4 harg4 arg5 harg5 arg6 harg6 arg7 harg7 arg8 harg8 arg9 harg9 arg10 harg10 hc0 hc1 hc2 hc3 x0 x1 x2 x3 x4 xs0 xs1 xs2 = outP i x0 x1 x2 x3 x4 (xs0, xs1, xs2) := by
  unfold out0_E_5
  exact out_E c i arg2 harg2 arg3 harg3 arg4 harg4 arg5 harg5 arg6 harg6 arg7 harg7 arg8 harg8 arg9 harg9 arg10 harg10 hc0 hc1 hc2 hc3 x0 x1 x2 x3 x4 xs0 xs1 xs2

/-- Case F: the output block the body leaves is the block of losses of the statistics it has just updated. -/
theorem out_loss_F (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S1024x1 .i32) (harg4 : arg4.IsWhole) (arg5 : Memref sig .tc .vmem S1x8192 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (hc2 : cond0_2 i) (hc3 : cond0_3 i)
    (x0 : Vec F S1024x128 .bf16) (x1 : Vec F S8192x128 .bf16) (x2 : Vec F S1024x1 .i32) (x3 : Vec F S1x8192 .i32) (x4 : Vec F S1024x1 .f32)
    (xs0 xs1 xs2 : Vec F S1024x1 .f32) :
    out0_F_5 c i arg2 harg2 arg3 harg3 arg4 harg4 arg5 harg5 arg6 harg6 arg7 harg7 arg8 harg8 arg9 harg9 arg10 harg10 hc0 hc1 hc2 hc3 x0 x1 x2 x3 x4 xs0 xs1 xs2 = outP i x0 x1 x2 x3 x4 (xs0, xs1, xs2) := by
  unfold out0_F_5
  exact out_F c i arg2 harg2 arg3 harg3 arg4 harg4 arg5 harg5 arg6 harg6 arg7 harg7 arg8 harg8 arg9 harg9 arg10 harg10 hc0 hc1 hc2 hc3 x0 x1 x2 x3 x4 xs0 xs1 xs2

/-! ## Case by case, at a grid point -/

/-- At a point of case A, started from the statistics `s`, the body leaves the point's update of `s`. -/
theorem at0_A_snd (c : Dev nD) (t : Fin cfg0.N) (s : Trip F) (h0 : t.val % 8 = 0) (h1 : t.val / 8 = t.val % 8) (h3 : ¬t.val % 8 = 7) :
    (at0_A m c t s.1 s.2.1 s.2.2 h0 h1 h3).2
      = stepP (grid0.coords t) (iblk m c 0 t) (iblk m c 1 t) (iblk m c 2 t) (iblk m c 3 t) (iblk m c 4 t) s := by
  unfold at0_A
  dsimp only
  exact sout_trip_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    ((hcond0_0 t).mpr h0) ((hcond0_1 t).mpr h1) (fun h => (hcond0_2 t).mp h h1) (fun h => h3 ((hcond0_3 t).mp h))
    (iblk m c 0 t) (iblk m c 1 t) (iblk m c 2 t) (iblk m c 3 t) (iblk m c 4 t) s.1 s.2.1 s.2.2

/-- At a point of case B, started from the statistics `s`, the body leaves the point's update of `s`. -/
theorem at0_B_snd (c : Dev nD) (t : Fin cfg0.N) (s : Trip F) (h0 : t.val % 8 = 0) (h1 : ¬t.val / 8 = t.val % 8) (h3 : ¬t.val % 8 = 7) :
    (at0_B m c t s.1 s.2.1 s.2.2 h0 h1 h3).2
      = stepP (grid0.coords t) (iblk m c 0 t) (iblk m c 1 t) (iblk m c 2 t) (iblk m c 3 t) (iblk m c 4 t) s := by
  unfold at0_B
  dsimp only
  exact sout_trip_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    ((hcond0_0 t).mpr h0) (fun h => h1 ((hcond0_1 t).mp h)) ((hcond0_2 t).mpr h1) (fun h => h3 ((hcond0_3 t).mp h))
    (iblk m c 0 t) (iblk m c 1 t) (iblk m c 2 t) (iblk m c 3 t) (iblk m c 4 t) s.1 s.2.1 s.2.2

/-- At a point of case C, started from the statistics `s`, the body leaves the point's update of `s`. -/
theorem at0_C_snd (c : Dev nD) (t : Fin cfg0.N) (s : Trip F) (h0 : ¬t.val % 8 = 0) (h1 : t.val / 8 = t.val % 8) (h3 : ¬t.val % 8 = 7) :
    (at0_C m c t s.1 s.2.1 s.2.2 h0 h1 h3).2
      = stepP (grid0.coords t) (iblk m c 0 t) (iblk m c 1 t) (iblk m c 2 t) (iblk m c 3 t) (iblk m c 4 t) s := by
  unfold at0_C
  dsimp only
  exact sout_trip_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) (fun h => h3 ((hcond0_3 t).mp h))
    (iblk m c 0 t) (iblk m c 1 t) (iblk m c 2 t) (iblk m c 3 t) (iblk m c 4 t) s.1 s.2.1 s.2.2

/-- At a point of case D, started from the statistics `s`, the body leaves the point's update of `s`. -/
theorem at0_D_snd (c : Dev nD) (t : Fin cfg0.N) (s : Trip F) (h0 : ¬t.val % 8 = 0) (h1 : ¬t.val / 8 = t.val % 8) (h3 : ¬t.val % 8 = 7) :
    (at0_D m c t s.1 s.2.1 s.2.2 h0 h1 h3).2
      = stepP (grid0.coords t) (iblk m c 0 t) (iblk m c 1 t) (iblk m c 2 t) (iblk m c 3 t) (iblk m c 4 t) s := by
  unfold at0_D
  dsimp only
  exact sout_trip_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) (fun h => h3 ((hcond0_3 t).mp h))
    (iblk m c 0 t) (iblk m c 1 t) (iblk m c 2 t) (iblk m c 3 t) (iblk m c 4 t) s.1 s.2.1 s.2.2

/-- At a point of case E, started from the statistics `s`, the body leaves the point's update of `s`. -/
theorem at0_E_snd (c : Dev nD) (t : Fin cfg0.N) (s : Trip F) (h0 : ¬t.val % 8 = 0) (h1 : t.val / 8 = t.val % 8) (h3 : t.val % 8 = 7) :
    (at0_E m c t s.1 s.2.1 s.2.2 h0 h1 h3).2
      = stepP (grid0.coords t) (iblk m c 0 t) (iblk m c 1 t) (iblk m c 2 t) (iblk m c 3 t) (iblk m c 4 t) s := by
  unfold at0_E
  dsimp only
  exact sout_trip_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) ((hcond0_3 t).mpr h3)
    (iblk m c 0 t) (iblk m c 1 t) (iblk m c 2 t) (iblk m c 3 t) (iblk m c 4 t) s.1 s.2.1 s.2.2

/-- At a point of case F, started from the statistics `s`, the body leaves the point's update of `s`. -/
theorem at0_F_snd (c : Dev nD) (t : Fin cfg0.N) (s : Trip F) (h0 : ¬t.val % 8 = 0) (h1 : ¬t.val / 8 = t.val % 8) (h3 : t.val % 8 = 7) :
    (at0_F m c t s.1 s.2.1 s.2.2 h0 h1 h3).2
      = stepP (grid0.coords t) (iblk m c 0 t) (iblk m c 1 t) (iblk m c 2 t) (iblk m c 3 t) (iblk m c 4 t) s := by
  unfold at0_F
  dsimp only
  exact sout_trip_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) ((hcond0_3 t).mpr h3)
    (iblk m c 0 t) (iblk m c 1 t) (iblk m c 2 t) (iblk m c 3 t) (iblk m c 4 t) s.1 s.2.1 s.2.2

/-- At a point of case E, started from the statistics `s`, the output block the body leaves is the point's block of losses. -/
theorem at0_E_fst (c : Dev nD) (t : Fin cfg0.N) (s : Trip F) (h0 : ¬t.val % 8 = 0) (h1 : t.val / 8 = t.val % 8) (h3 : t.val % 8 = 7) :
    (at0_E m c t s.1 s.2.1 s.2.2 h0 h1 h3).1
      = outP (grid0.coords t) (iblk m c 0 t) (iblk m c 1 t) (iblk m c 2 t) (iblk m c 3 t) (iblk m c 4 t) s := by
  unfold at0_E
  dsimp only
  exact out_loss_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun h => h0 ((hcond0_0 t).mp h)) ((hcond0_1 t).mpr h1) (fun h => (hcond0_2 t).mp h h1) ((hcond0_3 t).mpr h3)
    (iblk m c 0 t) (iblk m c 1 t) (iblk m c 2 t) (iblk m c 3 t) (iblk m c 4 t) s.1 s.2.1 s.2.2

/-- At a point of case F, started from the statistics `s`, the output block the body leaves is the point's block of losses. -/
theorem at0_F_fst (c : Dev nD) (t : Fin cfg0.N) (s : Trip F) (h0 : ¬t.val % 8 = 0) (h1 : ¬t.val / 8 = t.val % 8) (h3 : t.val % 8 = 7) :
    (at0_F m c t s.1 s.2.1 s.2.2 h0 h1 h3).1
      = outP (grid0.coords t) (iblk m c 0 t) (iblk m c 1 t) (iblk m c 2 t) (iblk m c 3 t) (iblk m c 4 t) s := by
  unfold at0_F
  dsimp only
  exact out_loss_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (fun h => h0 ((hcond0_0 t).mp h)) (fun h => h1 ((hcond0_1 t).mp h)) ((hcond0_2 t).mpr h1) ((hcond0_3 t).mpr h3)
    (iblk m c 0 t) (iblk m c 1 t) (iblk m c 2 t) (iblk m c 3 t) (iblk m c 4 t) s.1 s.2.1 s.2.2

/-! ## The recurrence over the points -/

/-- The contents after a point do not depend on how the point's number is written. -/
theorem outsAt0_cast (c : Dev nD) {n n' : ℕ} (e : n = n') (h : n < cfg0.N) (h' : n' < cfg0.N) :
    outsAt0 m c n h = outsAt0 m c n' h' := by subst e; rfl

/-- At a first column tile the statistics the body leaves are the point's update of SOME statistics: the update resets
    them before it reads them, so what the point before left does not matter. -/
theorem trip_reset (c : Dev nD) (n : ℕ) (h : n < cfg0.N) (h0 : n % 8 = 0) :
    ∃ s : Trip F, (outsAt0 m c n h).2
      = stepP (grid0.coords ⟨n, h⟩) (iblk m c 0 ⟨n, h⟩) (iblk m c 1 ⟨n, h⟩) (iblk m c 2 ⟨n, h⟩) (iblk m c 3 ⟨n, h⟩) (iblk m c 4 ⟨n, h⟩) s := by
  have hN : n < 64 := lt_of_lt_of_eq h N_0
  by_cases hz : n = 0
  · have h1 : n / 8 = n % 8 := by omega
    have h3 : ¬n % 8 = 7 := by omega
    exact ⟨(unread0, unread0, unread0), (congrArg Prod.snd (outsAt0_A m c ⟨n, h⟩ hz)).trans
      (at0_A_snd m c ⟨n, h⟩ (unread0, unread0, unread0) h0 h1 h3)⟩
  · have h1 : ¬n / 8 = n % 8 := by omega
    have h3 : ¬n % 8 = 7 := by omega
    exact ⟨(prev0 m c ⟨n, h⟩).2, (congrArg Prod.snd (outsAt0_B m c ⟨n, h⟩ hz h0 h1 h3)).trans
      (at0_B_snd m c ⟨n, h⟩ (prev0 m c ⟨n, h⟩).2 h0 h1 h3)⟩

/-- At every other point the statistics the body leaves are the point's update of those the point before left. -/
theorem trip_step (c : Dev nD) (n : ℕ) (h : n + 1 < cfg0.N) (hn : ¬(n + 1) % 8 = 0) :
    (outsAt0 m c (n + 1) h).2
      = stepP (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩)
          ((outsAt0 m c n (Nat.lt_of_succ_lt h)).2) := by
  have e : prev0 m c ⟨n + 1, h⟩ = outsAt0 m c n (Nat.lt_of_succ_lt h) :=
    outsAt0_cast m c (Nat.add_sub_cancel n 1) _ _
  rw [← e]
  by_cases h1 : (n + 1) / 8 = (n + 1) % 8 <;> by_cases h3 : (n + 1) % 8 = 7
  · exact (congrArg Prod.snd (outsAt0_E m c ⟨n + 1, h⟩ hn h1 h3)).trans (at0_E_snd m c ⟨n + 1, h⟩ (prev0 m c ⟨n + 1, h⟩).2 hn h1 h3)
  · exact (congrArg Prod.snd (outsAt0_C m c ⟨n + 1, h⟩ hn h1 h3)).trans (at0_C_snd m c ⟨n + 1, h⟩ (prev0 m c ⟨n + 1, h⟩).2 hn h1 h3)
  · exact (congrArg Prod.snd (outsAt0_F m c ⟨n + 1, h⟩ hn h1 h3)).trans (at0_F_snd m c ⟨n + 1, h⟩ (prev0 m c ⟨n + 1, h⟩).2 hn h1 h3)
  · exact (congrArg Prod.snd (outsAt0_D m c ⟨n + 1, h⟩ hn h1 h3)).trans (at0_D_snd m c ⟨n + 1, h⟩ (prev0 m c ⟨n + 1, h⟩).2 hn h1 h3)

/-- At a last column tile the output block the body leaves is the point's block of losses, computed from the statistics
    the point before left. -/
theorem out_at (c : Dev nD) (n : ℕ) (h : n < cfg0.N) (h7 : n % 8 = 7) :
    (outsAt0 m c n h).1
      = outP (grid0.coords ⟨n, h⟩) (iblk m c 0 ⟨n, h⟩) (iblk m c 1 ⟨n, h⟩) (iblk m c 2 ⟨n, h⟩) (iblk m c 3 ⟨n, h⟩) (iblk m c 4 ⟨n, h⟩)
          ((outsAt0 m c (n - 1) (Nat.lt_of_le_of_lt (Nat.sub_le _ _) h)).2) := by
  have h0 : ¬n % 8 = 0 := by omega
  by_cases h1 : n / 8 = n % 8
  · exact (congrArg Prod.fst (outsAt0_E m c ⟨n, h⟩ h0 h1 h7)).trans (at0_E_fst m c ⟨n, h⟩ (prev0 m c ⟨n, h⟩).2 h0 h1 h7)
  · exact (congrArg Prod.fst (outsAt0_F m c ⟨n, h⟩ h0 h1 h7)).trans (at0_F_fst m c ⟨n, h⟩ (prev0 m c ⟨n, h⟩).2 h0 h1 h7)

end Cert.KernelIdeal.Hand

end
-- ==== Proof.KIGlue.lean ====
/-
  The write-back side of the idealized kernel's value: the array of per-row losses after the run. The output window's
  block is written back exactly at the last column tile of each row of tiles (point 8 q + 7 for row tile q), and the
  eight blocks written tile the 8192 rows; so row r of the array ends holding row r mod 1024 of the block the body left
  at point 8 (r / 1024) + 7.
-/
import proofs.«125888_j37538014167620_2_alg».proof.Proof.KIFrameA
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window's block index at point `t`: the row tile `t / 8`, the one column block. -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The point that writes back the row tile holding row `r` is a point of the grid. -/
theorem flushPt_lt (r : ℕ) (h : r < 8192) : 8 * (r / 1024) + 7 < cfg0.N := by
  rw [show cfg0.N = 64 from N_0]; omega

/-- What a point leaves does not depend on how the point's number is spelt. -/
theorem outsAt0_congr (c : Dev nD) {n n' : ℕ} (e : n = n') (h : n < cfg0.N) (h' : n' < cfg0.N) :
    outsAt0 m c n h = outsAt0 m c n' h' := by subst e; rfl

/-- THE ARRAY OF LOSSES after the run: row `r` holds row `r mod 1024` of the block the body left at the last column
    tile of row tile `r / 1024`. -/
def lossArr (c : Dev nD) : Buf (Elt F) ((c : Thread nD τ).loc main_v29) := fun (y : S8192x1.Idx) =>
  (outsAt0 m c (8 * ((y 0).val / 1024) + 7) (flushPt_lt _ (idx2_lt0 y))).1
    (ix2 ⟨(y 0).val % 1024, Nat.mod_lt _ (by decide)⟩ (y 1))

/-- The array of losses at the place of element `j` of the block of a point `t` that writes back: the element. -/
theorem lossArr_at (c : Dev nD) (t : Fin cfg0.N) (h7 : t.val % 8 = 7) (y : S8192x1.Idx) (j : S1024x1.Idx)
    (h0 : (y 0).val = t.val / 8 * 1024 + (j 0).val) (h1 : (y 1).val = (j 1).val) :
    lossArr m c y = (outsAt0 m c t.val t.isLt).1 j := by
  have hj0 : (j 0).val < 1024 := idx2_lt0 j
  have hpt : 8 * ((y 0).val / 1024) + 7 = t.val := by omega
  show (outsAt0 m c (8 * ((y 0).val / 1024) + 7) (flushPt_lt _ (idx2_lt0 y))).1
    (ix2 ⟨(y 0).val % 1024, Nat.mod_lt _ (by decide)⟩ (y 1)) = _
  rw [outsAt0_congr m c hpt _ t.isLt]
  refine congrArg (outsAt0 m c t.val t.isLt).1 ?_
  funext a
  match a with
  | ⟨0, _⟩ => exact Fin.ext (show (y 0).val % 1024 = (j 0).val by omega)
  | ⟨1, _⟩ => exact Fin.ext (show (y 1).val = (j 1).val from h1)

/-- WHAT A FLUSHING POINT WRITES BACK is its block of the array of losses. -/
theorem flushed_eq (c : Dev nD) (t : Fin cfg0.N) (hf : (cfg0.win 5).flush t = true) :
    (dats m 0 c).flushed 5 t = ((cfg0.win 5).blk t).view.read (Elt F) (lossArr m c) := by
  have h7 : t.val % 8 = 7 := (flush0_5 t).mp hf
  obtain ⟨e0, e1⟩ := idx5 t
  show (cfg0.win 5).cut (grid0.coords t) ((dats m 0 c).after 5 t) = _
  rw [after0_5]
  funext j
  show (outsAt0 m c t.val t.isLt).1 j = lossArr m c (((cfg0.win 5).blk t).view.emb j)
  refine (lossArr_at m c t h7 _ j ?_ ?_).symm
  · show win0_5.index t (0 : Fin 2) * 1024 + 1 * (j 0).val = _
    rw [e0]; omega
  · show win0_5.index t (1 : Fin 2) * 1 + 1 * (j 1).val = _
    rw [e1]; omega

/-- An index of the array is in point `t`'s block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v29).slice (win0_5.rect t)).set ↔ _
  rw [View.set_slice_whole, Rect.mem_set_unit]
  exact Iff.rfl

/-- Every row of the array is in the block of the point that writes back its row tile. -/
theorem cover5 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  refine ⟨⟨8 * ((i 0).val / 1024) + 7, flushPt_lt _ hi0⟩, (flush0_5 _).mpr (by show (8 * ((i 0).val / 1024) + 7) % 8 = 7; omega), ?_⟩
  obtain ⟨e0, e1⟩ := idx5 ⟨8 * ((i 0).val / 1024) + 7, flushPt_lt _ hi0⟩
  have e0' : win0_5.index ⟨8 * ((i 0).val / 1024) + 7, flushPt_lt _ hi0⟩ (0 : Fin 2) = (i 0).val / 1024 := by
    rw [e0]; show (8 * ((i 0).val / 1024) + 7) / 8 = _; omega
  rw [mem_blk5]
  intro a
  match a with
  | ⟨0, _⟩ => show win0_5.index _ (0 : Fin 2) * 1024 ≤ (i 0).val ∧ (i 0).val < win0_5.index _ (0 : Fin 2) * 1024 + 1024
              rw [e0']; omega
  | ⟨1, _⟩ => show win0_5.index _ (1 : Fin 2) * 1 ≤ (i 1).val ∧ (i 1).val < win0_5.index _ (1 : Fin 2) * 1 + 1
              rw [e1]; omega

/-- THE ARRAY after the run is the array of losses: the eight blocks written back tile it. -/
theorem final_v29 (c : Dev nD) : (dats m 0 c).arrAt 5 cfg0.N = lossArr m c :=
  (dats m 0 c).arrAt_eq_of_cover 5 (lossArr m c) (flushed_eq m c) (cover5)

/-- THE ARRAY after the run, row by row: row `r` ends holding row `r mod 1024` of the block left at point `8 (r / 1024) + 7`. -/
theorem final_v29_fun (c : Dev nD) : (dats m 0 c).arrAt 5 cfg0.N = fun (y : S8192x1.Idx) =>
    (outsAt0 m c (8 * ((y 0).val / 1024) + 7) (flushPt_lt _ (idx2_lt0 y))).1
      (ix2 ⟨(y 0).val % 1024, Nat.mod_lt _ (by decide)⟩ (y 1)) :=
  final_v29 m c

end Cert.KernelIdeal.Hand

end
-- ==== Proof.KIResult.lean ====
/-
  The result buffer's final contents are the specification's kernel-side loss. After the run, row r of the array of
  per-row losses holds what the point of the last column tile of row tile r / 1024 wrote at row r mod 1024; along that
  row of tiles the running statistics are the specification's carried triple, so what is written is the specification's
  loss of row r; and the four host lines after the region average the 8192 rows.
-/
import proofs.«125888_j37538014167620_2_alg».proof.Proof.KIBase
import proofs.«125888_j37538014167620_2_alg».proof.Proof.KIBlocks
import proofs.«125888_j37538014167620_2_alg».proof.Proof.KIPieceDefs
import proofs.«125888_j37538014167620_2_alg».proof.Proof.KIFinal
import proofs.«125888_j37538014167620_2_alg».proof.Proof.KIValueHost
import proofs.«125888_j37538014167620_2_alg».proof.Proof.KIMean
import proofs.«125888_j37538014167620_2_alg».proof.Proof.KIFrameA
import proofs.«125888_j37538014167620_2_alg».proof.Proof.KIGlueFold
import proofs.«125888_j37538014167620_2_alg».proof.Proof.KIGlue
import proofs.«125888_j37538014167620_2_alg».proof.Proof.KILaunch
import proofs.«125888_j37538014167620_2_alg».proof.Proof.Spec

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- Row `r` of the array of losses after the run is the specification's loss of row `r`. -/
theorem col_eq (r : Fin 8192) :
    (Hand.dats (F := Ideal) m 0 c).arrAt 5 cfg0.N (ix2 r (0 : Fin 1))
      = Cert.Spec.lossK (xOfK (m ((c.tc : Thread nD τ).loc main_arg0))) (lbOfK (m ((c.tc : Thread nD τ).loc main_arg1))) r := by
  have hlt : 8 * (r.val / 1024) + 7 < cfg0.N := Hand.flushPt_lt _ r.isLt
  have h7 : (8 * (r.val / 1024) + 7) % 8 = 7 := by omega
  have ha : r.val % 1024 < 1024 := Nat.mod_lt _ (by decide)
  have hr : 1024 * ((8 * (r.val / 1024) + 7) / 8) + (⟨r.val % 1024, ha⟩ : Fin 1024).val < 8192 := by
    have := r.isLt; show 1024 * ((8 * (r.val / 1024) + 7) / 8) + r.val % 1024 < 8192; omega
  have key := out_eq_lossK m c (xOfK (m ((c.tc : Thread nD τ).loc main_arg0))) (lbOfK (m ((c.tc : Thread nD τ).loc main_arg1)))
    (V_v8_apply m c) (V_v12_apply m c) (V_v13_apply m c) (V_v28_apply m c)
    (fun n h => (Hand.outsAt0 (F := Ideal) m c n h).2) (Hand.trip_reset m c) (Hand.trip_step m c)
    (8 * (r.val / 1024) + 7) hlt h7 ⟨r.val % 1024, ha⟩ hr
  have er : (⟨1024 * ((8 * (r.val / 1024) + 7) / 8) + (⟨r.val % 1024, ha⟩ : Fin 1024).val, hr⟩ : Fin 8192) = r :=
    Fin.ext (by show 1024 * ((8 * (r.val / 1024) + 7) / 8) + r.val % 1024 = r.val; omega)
  rw [er] at key
  rw [Hand.final_v29]
  show (Hand.outsAt0 (F := Ideal) m c (8 * (r.val / 1024) + 7) _).1 (ix2 ⟨r.val % 1024, _⟩ (0 : Fin 1)) = _
  rw [Hand.out_at m c _ _ h7]
  exact key

/-- THE RESULT: the mean of the array of losses is the specification's kernel-side loss. -/
theorem result_eq :
    Hand.resOf (F := Ideal) c ((Hand.dats (F := Ideal) m 0 c).arrAt 5 cfg0.N)
      = fun _ => Cert.Spec.kerLoss (xOfK (m ((c.tc : Thread nD τ).loc main_arg0))) (lbOfK (m ((c.tc : Thread nD τ).loc main_arg1))) := by
  funext i
  unfold Hand.resOf
  refine (Hand.mean_apply _ i).trans ?_
  unfold Cert.Spec.kerLoss
  exact congrArg (fun s => Ideal.div s 8192) (Finset.sum_congr rfl fun r _ => col_eq m c r)

end Cert.KernelIdeal.KValue

end
-- ==== Proof.RefValue.lean ====
/-
  The reference program's result is the specification's reference loss: the mean over the 8192 rows (summed as 2 x 4096,
  row 4096 v + b at (v, b)) of the per-row losses, each read off the program's stages.
-/
import proofs.«125888_j37538014167620_2_alg».proof.Proof.RefValueA

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The pair (view, sample) of row 4096 v + b. -/
def rowEquiv : Fin 2 × Fin 4096 ≃ Fin 8192 where
  toFun p := ⟨p.1.val * 4096 + p.2.val, by have h1 := p.1.isLt; have h2 := p.2.isLt; omega⟩
  invFun r := (⟨r.val / 4096, by have h := r.isLt; omega⟩, ⟨r.val % 4096, by omega⟩)
  left_inv p := by
    have h1 := p.1.isLt
    have h2 := p.2.isLt
    refine Prod.ext (Fin.ext ?_) (Fin.ext ?_)
    · show (p.1.val * 4096 + p.2.val) / 4096 = p.1.val; omega
    · show (p.1.val * 4096 + p.2.val) % 4096 = p.2.val; omega
  right_inv r := Fin.ext (by show r.val / 4096 * 4096 + r.val % 4096 = r.val; omega)

/-- The sum of the per-row losses, taken over the 2 x 4096 arrangement of the rows. -/
theorem v48_at (x0 : (⟨S4096x2x128, .f32⟩ : BufTy).Contents (Elt Ideal)) (x1 : (⟨S4096, .i32⟩ : BufTy).Contents (Elt Ideal))
    (i : S_.Idx) :
    val_main_v48 (F := Ideal) x0 x1 i = ∑ r : Fin 8192, Spec.lossR (xOf x0) (lbOf x1) r := by
  rw [val_main_v48_apply, val_main_cst_9_apply, Ideal.ofBits_def, Ideal.ofBits_zero_f32, zero_add, sum_idx2,
    ← Equiv.sum_comp rowEquiv (fun r => Spec.lossR (xOf x0) (lbOf x1) r), Fintype.sum_prod_type]
  refine Finset.sum_congr rfl fun v _ => Finset.sum_congr rfl fun b _ => ?_
  have e : idx_main_v47 (ix2 v b) = ix1 (rowEquiv (v, b)) := funext fun a => Fin.ext (by match a with | ⟨0, _⟩ => rfl)
  rw [val_main_v47_apply, e, v46_at]

/-- The reference's result is the specification's reference loss of the two argument arrays. -/
theorem res_eq (m : (ℓ : Loc nD τ sig) → Buf (Elt Ideal) ℓ) (c : Dev nD) :
    Cert.ReferenceIdeal.Value.res_main_v49 (F := Ideal) m c
      = fun _ => Cert.Spec.refLoss (xOf (m ((c.tc : Thread nD τ).loc main_arg0))) (lbOf (m ((c.tc : Thread nD τ).loc main_arg1))) := by
  rw [val_main_v49_eq]
  funext i
  rw [val_main_v49_apply, v48_at, val_main_cst_10_apply, Ideal.ofBits_def, word_8192]
  rfl

end Cert.ReferenceIdeal.RefValue

end
-- ==== Proof.AlgebraA.lean ====
/-
  Literals and finiteness for the contrastive-loss identity: the two word literals are positive reals, and under the
  hypothesis that every feature is a real number the rows, their norms, the normalised rows, the inner products and the
  scaled similarities are all real numbers. Division by the temperature is multiplication by its exact reciprocal, so the
  two programs' similarities agree. The 0-1 masks are coercions of real 0-1 indicators, and the positives' count of a row
  is twice the number of samples carrying the row's label, minus one (each sample appears in two rows, and the row itself
  is excluded).
-/
import proofs.«125888_j37538014167620_2_alg».proof.Proof.Spec

noncomputable section

namespace Cert.Spec

open Idealize.ShloMosaic

/-! ## The two literals -/

/-- The guard literal is the positive real 9223372 * 2^-63. -/
theorem eps_pos : ∃ e : ℝ, 0 < e ∧ eps = (e : EReal) := by
  refine ⟨9223372 * (2 : ℝ) ^ (-63 : ℤ), by positivity, ?_⟩
  simp [eps, Ideal.ofBits, Ideal.ieee, -EReal.coe_mul]

/-- The temperature literal is the rational 9395241 / 2^27. -/
theorem temp_eq : temp = ((9395241 / 134217728 : ℝ) : EReal) := by
  simp [temp, Ideal.ofBits, Ideal.ieee, -EReal.coe_mul]
  norm_num

/-! ## Coercions and sums -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

/-- The supremum of finitely many real numbers, taken in the extended reals, is the coercion of their real supremum. -/
theorem sup_coe {ι : Type*} (t : Finset ι) (ht : t.Nonempty) (f : ι → ℝ) :
    t.sup (fun i => (f i : EReal)) = ((t.sup' ht f : ℝ) : EReal) := by
  rw [← Finset.sup'_eq_sup ht]
  exact (Finset.comp_sup'_eq_sup'_comp ht (fun a : ℝ => (a : EReal)) (fun a b => coe_max a b)).symm

/-- The 8192 columns are the 8 tiles of 1024 columns. -/
theorem sum_tiles {M : Type*} [AddCommMonoid M] (f : Fin 8192 → M) :
    ∑ j : Fin 8192, f j = ∑ k : Fin 8, ∑ jj : Fin 1024, f (col k jj) := by
  rw [← Fintype.sum_prod_type']
  refine (Fintype.sum_equiv (finProdFinEquiv (m := 8) (n := 1024)) _ _ ?_).symm
  rintro ⟨k, jj⟩
  refine congrArg f ?_
  apply Fin.ext
  simp [col, finProdFinEquiv]
  omega

/-- Each sample's label is carried by two rows. -/
theorem sum_views {M : Type*} [AddCommMonoid M] (g : Fin 4096 → M) :
    ∑ j : Fin 8192, g (labOf j) = ∑ b : Fin 4096, g b + ∑ b : Fin 4096, g b := by
  have h : ∑ j : Fin 8192, g (labOf j) = ∑ v : Fin 2, ∑ b : Fin 4096, g b := by
    rw [← Fintype.sum_prod_type']
    refine (Fintype.sum_equiv (finProdFinEquiv (m := 2) (n := 4096)) _ _ ?_).symm
    rintro ⟨v, b⟩
    refine congrArg g ?_
    apply Fin.ext
    have hb := b.isLt
    simp [labOf, finProdFinEquiv]
    omega
  rw [h, Fin.sum_univ_two]

/-! ## Finiteness -/

variable (x : Fin 4096 → Fin 2 → Fin 128 → EReal) (lb : Fin 4096 → BitVec 32)

theorem row_real (hx : Finite x) : ∃ xr : Fin 8192 → Fin 128 → ℝ, ∀ r d, row x r d = (xr r d : EReal) :=
  ⟨fun r d => (row x r d).toReal, fun r d => by
    unfold row
    exact (EReal.coe_toReal (hx _ _ _).1 (hx _ _ _).2).symm⟩

theorem nrm_real (hx : Finite x) :
    ∃ nr : Fin 8192 → ℝ, (∀ r, 0 < nr r) ∧ ∀ r, nrm x r = (nr r : EReal) := by
  obtain ⟨xr, hxr⟩ := row_real x hx
  obtain ⟨e, he, hee⟩ := eps_pos
  refine ⟨fun r => max e (Real.sqrt (∑ d, xr r d * xr r d)), fun r => lt_max_of_lt_left he, fun r => ?_⟩
  unfold nrm
  simp only [hxr, ← EReal.coe_mul, ← coe_sum]
  rw [Ideal.sqrt_coe, if_neg (not_lt.mpr (Finset.sum_nonneg fun d _ => mul_self_nonneg _)), hee, coe_max]

theorem feat_real (hx : Finite x) : ∃ f : Fin 8192 → Fin 128 → ℝ, ∀ r d, feat x r d = (f r d : EReal) := by
  obtain ⟨xr, hxr⟩ := row_real x hx
  obtain ⟨nr, hpos, hnr⟩ := nrm_real x hx
  refine ⟨fun r d => xr r d * (1 / nr r), fun r d => ?_⟩
  unfold feat
  rw [hxr, hnr, Ideal.div_coe (ne_of_gt (hpos r)), ← EReal.coe_mul]

theorem dot_real (hx : Finite x) : ∃ g : Fin 8192 → Fin 8192 → ℝ, ∀ r j, dot x r j = (g r j : EReal) := by
  obtain ⟨f, hf⟩ := feat_real x hx
  refine ⟨fun r j => ∑ d, f r d * f j d, fun r j => ?_⟩
  unfold dot
  simp only [hf, ← EReal.coe_mul, ← coe_sum]

/-- Dividing by the temperature is multiplying by its reciprocal. -/
theorem sR_eq_sK (r j : Fin 8192) : sR x r j = sK x r j := by
  unfold sR sK invTemp
  rw [temp_eq, Ideal.div_coe (by norm_num)]
  norm_num

theorem sK_real (hx : Finite x) : ∃ s : Fin 8192 → Fin 8192 → ℝ, ∀ r j, sK x r j = (s r j : EReal) := by
  obtain ⟨g, hg⟩ := dot_real x hx
  exact ⟨fun r j => g r j * (134217728 / 9395241), fun r j => by unfold sK invTemp; rw [hg, ← EReal.coe_mul]⟩

/-! ## The masks -/

def sameR (r j : Fin 8192) : ℝ := if lb (labOf r) = lb (labOf j) then 1 else 0
def offR (r j : Fin 8192) : ℝ := if r = j then 0 else 1

theorem same_coe (r j : Fin 8192) : same lb r j = (sameR lb r j : EReal) := by
  unfold same sameR
  split_ifs <;> simp

theorem off_coe (r j : Fin 8192) : off r j = (offR r j : EReal) := by
  unfold off offR
  by_cases h : r = j
  · rw [if_pos h, if_pos h, ← EReal.coe_one, ← EReal.coe_sub, sub_self]
  · rw [if_neg h, if_neg h, sub_zero, EReal.coe_one]

theorem offR_nonneg (r j : Fin 8192) : 0 ≤ offR r j := by
  unfold offR; split_ifs <;> norm_num

theorem msk_coe (r j : Fin 8192) : mskR lb r j = ((sameR lb r j * offR r j : ℝ) : EReal) := by
  unfold mskR
  rw [same_coe, off_coe, ← EReal.coe_mul]

/-- The positives of a row: twice the samples carrying its label, minus the row itself. -/
theorem cnt_real (r : Fin 8192) :
    ∑ j : Fin 8192, sameR lb r j * offR r j =
      2 * (∑ b : Fin 4096, if lb (labOf r) = lb b then (1 : ℝ) else 0) - 1 := by
  have h1 : ∀ j : Fin 8192, sameR lb r j * offR r j =
      (if lb (labOf r) = lb (labOf j) then (1 : ℝ) else 0) - (if j = r then 1 else 0) := by
    intro j
    unfold sameR offR
    by_cases h : r = j
    · subst h; simp
    · have h' : ¬ j = r := fun e => h e.symm
      simp [h, h']
  simp only [h1, Finset.sum_sub_distrib]
  rw [sum_views (fun b => if lb (labOf r) = lb b then (1 : ℝ) else 0), Finset.sum_ite_eq' Finset.univ r]
  simp
  ring

theorem cnt_eq (r : Fin 8192) : cntK lb r = ∑ j : Fin 8192, mskR lb r j := by
  simp only [msk_coe, ← coe_sum]
  rw [cnt_real]
  unfold cntK
  have h : ∀ b : Fin 4096, (if lb (labOf r) = lb b then (1 : EReal) else 0) =
      (((if lb (labOf r) = lb b then (1 : ℝ) else 0 : ℝ)) : EReal) := by
    intro b; split_ifs <;> simp
  simp only [h, ← coe_sum]
  rw [EReal.coe_sub, EReal.coe_mul, EReal.coe_one]
  rfl

end Cert.Spec

end
-- ==== Proof.AlgebraB.lean ====
/-
  The tile recurrence of the online softmax, for one row whose similarities are real numbers s, with real weights o (the
  off-diagonal mask) and w (the positives' mask). Walking the 8 tiles of 1024 columns with the running maximum, the
  rescaled running sum of exponentials and the running positive sum gives, after the last tile, the row maximum M, the
  sum over all columns of exp(s - M) * o, and the sum over all columns of w * s: the rescaling factor exp(m - m') turns
  every earlier term exp(s - m) into exp(s - m'). The first tile starts from the maximum -inf, where the rescaling factor
  is exp(-inf) = 0 against a running sum that is 0.
-/
import proofs.«125888_j37538014167620_2_alg».proof.Proof.AlgebraA

noncomputable section

namespace Cert.Spec

open Idealize.ShloMosaic

/-- Column j of tile k with the tile counted by a natural number (tiles past the eighth are never read). -/
def colN (k : ℕ) (j : Fin 1024) : Fin 8192 := if h : k < 8 then col ⟨k, h⟩ j else ⟨0, by norm_num⟩

theorem colN_val (k : Fin 8) (j : Fin 1024) : colN k.val j = col k j := by
  unfold colN; rw [dif_pos k.isLt]

theorem eq_colN (j : Fin 8192) : j = colN (j.val / 1024) ⟨j.val % 1024, Nat.mod_lt _ (by norm_num)⟩ := by
  have h : j.val / 1024 < 8 := by omega
  unfold colN; rw [dif_pos h]
  apply Fin.ext
  simp only [col]
  omega

/-- A sum over the 8 tiles, counted by natural numbers, is the sum over all columns. -/
theorem sum_tilesN (f : Fin 8192 → ℝ) :
    ∑ k ∈ Finset.range 8, ∑ j : Fin 1024, f (colN k j) = ∑ j : Fin 8192, f j := by
  rw [sum_tiles f, ← Fin.sum_univ_eq_sum_range (fun k => ∑ j : Fin 1024, f (colN k j)) 8]
  refine Finset.sum_congr rfl fun k _ => ?_
  refine Finset.sum_congr rfl fun j _ => ?_
  rw [colN_val]

section Real

variable (s o w : Fin 8192 → ℝ)

/-- The maximum of tile k. -/
def tmax (k : ℕ) : ℝ := Finset.univ.sup' Finset.univ_nonempty fun j : Fin 1024 => s (colN k j)

/-- The running maximum after tiles 0..n. -/
def Mr : ℕ → ℝ
  | 0 => tmax s 0
  | n + 1 => max (Mr n) (tmax s (n + 1))

/-- Tile k's sum of exponentials against the maximum m. -/
def Et (k : ℕ) (m : ℝ) : ℝ := ∑ j : Fin 1024, Real.exp (s (colN k j) - m) * o (colN k j)

/-- The running sum of exponentials after tiles 0..n. -/
def Lr : ℕ → ℝ
  | 0 => Et s o 0 (Mr s 0)
  | n + 1 => Lr n * Real.exp (Mr s n - Mr s (n + 1)) + Et s o (n + 1) (Mr s (n + 1))

/-- Tile k's positive sum. -/
def Pt (k : ℕ) : ℝ := ∑ j : Fin 1024, w (colN k j) * s (colN k j)

/-- The running positive sum after tiles 0..n. -/
def Pr : ℕ → ℝ
  | 0 => Pt s w 0
  | n + 1 => Pr n + Pt s w (n + 1)

/-- Rescaling by exp(m - m') moves a tile's sum from the maximum m to the maximum m'. -/
theorem Et_shift (k : ℕ) (m m' : ℝ) : Et s o k m * Real.exp (m - m') = Et s o k m' := by
  unfold Et
  rw [Finset.sum_mul]
  refine Finset.sum_congr rfl fun j _ => ?_
  rw [mul_right_comm, ← Real.exp_add]
  congr 2
  ring

theorem Lr_closed (n : ℕ) : Lr s o n = ∑ k ∈ Finset.range (n + 1), Et s o k (Mr s n) := by
  induction n with
  | zero => simp [Lr]
  | succ n ih =>
    rw [Lr, ih, Finset.sum_mul, Finset.sum_range_succ _ (n + 1)]
    congr 1
    exact Finset.sum_congr rfl fun k _ => Et_shift s o k _ _

theorem Pr_closed (n : ℕ) : Pr s w n = ∑ k ∈ Finset.range (n + 1), Pt s w k := by
  induction n with
  | zero => simp [Pr]
  | succ n ih => rw [Pr, ih, Finset.sum_range_succ _ (n + 1)]

theorem tmax_le_Mr {k n : ℕ} (h : k ≤ n) : tmax s k ≤ Mr s n := by
  induction n with
  | zero => rw [Nat.le_zero.mp h]; exact le_refl _
  | succ n ih =>
    rw [Mr]
    rcases Nat.lt_or_ge k (n + 1) with h' | h'
    · exact le_trans (ih (Nat.lt_succ_iff.mp h')) (le_max_left _ _)
    · rw [le_antisymm h h']; exact le_max_right _ _

/-- The running maximum after the last tile is the row maximum. -/
theorem Mr_last : Mr s 7 = Finset.univ.sup' Finset.univ_nonempty s := by
  apply le_antisymm
  · have h : ∀ n, Mr s n ≤ Finset.univ.sup' Finset.univ_nonempty s := by
      have ht : ∀ k, tmax s k ≤ Finset.univ.sup' Finset.univ_nonempty s := fun k =>
        Finset.sup'_le _ _ fun j _ => Finset.le_sup' s (Finset.mem_univ _)
      intro n
      induction n with
      | zero => exact ht 0
      | succ n ih => rw [Mr]; exact max_le ih (ht _)
    exact h 7
  · refine Finset.sup'_le _ _ fun j _ => ?_
    have hk : j.val / 1024 ≤ 7 := by omega
    rw [eq_colN j]
    exact le_trans (Finset.le_sup' (fun jj : Fin 1024 => s (colN (j.val / 1024) jj)) (Finset.mem_univ _))
      (tmax_le_Mr s hk)

theorem Lr_last : Lr s o 7 = ∑ j : Fin 8192, Real.exp (s j - Mr s 7) * o j := by
  rw [Lr_closed]
  exact sum_tilesN fun j => Real.exp (s j - Mr s 7) * o j

theorem Pr_last : Pr s w 7 = ∑ j : Fin 8192, w j * s j := by
  rw [Pr_closed]
  exact sum_tilesN fun j => w j * s j

end Real

/-! ## The carried triple is real after every tile -/

section Tiles

variable (x : Fin 4096 → Fin 2 → Fin 128 → EReal) (lb : Fin 4096 → BitVec 32) (r : Fin 8192)
variable (s o w : Fin 8192 → ℝ)

theorem tile_sup (hs : ∀ j, sK x r j = (s j : EReal)) (k : Fin 8) :
    (Finset.univ.sup fun j : Fin 1024 => sK x r (col k j)) = ((tmax s k.val : ℝ) : EReal) := by
  simp only [hs]
  rw [sup_coe Finset.univ Finset.univ_nonempty]
  unfold tmax
  simp only [colN_val]

theorem tile_exp (hs : ∀ j, sK x r j = (s j : EReal)) (ho : ∀ j, off r j = (o j : EReal)) (k : Fin 8) (m : ℝ) :
    ∑ j : Fin 1024, Ideal.exp (sK x r (col k j) - (m : EReal)) * off r (col k j) = ((Et s o k.val m : ℝ) : EReal) := by
  unfold Et
  simp only [hs, ho, colN_val, ← EReal.coe_sub, Ideal.exp_coe, ← EReal.coe_mul, ← coe_sum]

theorem tile_pos (hs : ∀ j, sK x r j = (s j : EReal)) (hw : ∀ j, same lb r j * off r j = (w j : EReal)) (k : Fin 8) :
    ∑ j : Fin 1024, (same lb r (col k j) * off r (col k j)) * sK x r (col k j) = ((Pt s w k.val : ℝ) : EReal) := by
  unfold Pt
  simp only [hs, hw, colN_val, ← EReal.coe_mul, ← coe_sum]

/-- The first tile, from the maximum -inf and zero sums. -/
theorem stepK_bot (hs : ∀ j, sK x r j = (s j : EReal)) (ho : ∀ j, off r j = (o j : EReal))
    (hw : ∀ j, same lb r j * off r j = (w j : EReal)) (k : Fin 8) :
    stepK x lb r k (⊥, 0, 0) =
      (((tmax s k.val : ℝ) : EReal), ((Et s o k.val (tmax s k.val) : ℝ) : EReal), ((Pt s w k.val : ℝ) : EReal)) := by
  unfold stepK
  simp only [tile_sup x r s hs k, tile_pos x lb r s w hs hw k]
  rw [max_eq_right bot_le, tile_exp x r s o hs ho k, zero_mul, zero_add, zero_add]

/-- A later tile, from real carried values. -/
theorem stepK_real (hs : ∀ j, sK x r j = (s j : EReal)) (ho : ∀ j, off r j = (o j : EReal))
    (hw : ∀ j, same lb r j * off r j = (w j : EReal)) (k : Fin 8) (m l p : ℝ) :
    stepK x lb r k ((m : EReal), (l : EReal), (p : EReal)) =
      (((max m (tmax s k.val) : ℝ) : EReal),
       ((l * Real.exp (m - max m (tmax s k.val)) + Et s o k.val (max m (tmax s k.val)) : ℝ) : EReal),
       ((p + Pt s w k.val : ℝ) : EReal)) := by
  unfold stepK
  simp only [tile_sup x r s hs k, tile_pos x lb r s w hs hw k]
  rw [← coe_max, tile_exp x r s o hs ho k, ← EReal.coe_sub, Ideal.exp_coe, ← EReal.coe_mul, ← EReal.coe_add,
    ← EReal.coe_add]

theorem stateK_succ (hs : ∀ j, sK x r j = (s j : EReal)) (ho : ∀ j, off r j = (o j : EReal))
    (hw : ∀ j, same lb r j * off r j = (w j : EReal)) (n : ℕ) (hn : n < 8) :
    stateK x lb r (n + 1) = (((Mr s n : ℝ) : EReal), ((Lr s o n : ℝ) : EReal), ((Pr s w n : ℝ) : EReal)) := by
  induction n with
  | zero =>
    rw [stateK, dif_pos hn, stateK]
    exact stepK_bot x lb r s o w hs ho hw ⟨0, hn⟩
  | succ n ih =>
    rw [stateK, dif_pos hn, ih (Nat.lt_of_succ_lt hn)]
    exact stepK_real x lb r s o w hs ho hw ⟨n + 1, hn⟩ _ _ _

/-- After the last tile: the row maximum, the sum of exponentials against it, and the positive sum. -/
theorem stateK_last (hs : ∀ j, sK x r j = (s j : EReal)) (ho : ∀ j, off r j = (o j : EReal))
    (hw : ∀ j, same lb r j * off r j = (w j : EReal)) :
    stateK x lb r 8 =
      (((Finset.univ.sup' Finset.univ_nonempty s : ℝ) : EReal),
       ((∑ j : Fin 8192, Real.exp (s j - Finset.univ.sup' Finset.univ_nonempty s) * o j : ℝ) : EReal),
       ((∑ j : Fin 8192, w j * s j : ℝ) : EReal)) := by
  rw [stateK_succ x lb r s o w hs ho hw 7 (by norm_num), Lr_last, Pr_last, Mr_last]

end Tiles

end Cert.Spec

end
-- ==== Proof.Algebra.lean ====
/-
  The supervised-contrastive loss: the tiled online-softmax form equals the plain form. For every row, once the
  similarities are known to be real numbers s_j, the reference's mean of the positives' log-probabilities
      sum_j w_j * ((s_j - M) - L) / max(1, sum_j w_j),   L = log(sum_j exp(s_j - M) * o_j + eps),
  equals the kernel's (P - (M + L) * cnt) / max(cnt, 1) with P = sum_j w_j * s_j and cnt = sum_j w_j, because
  sum_j w_j * ((s_j - M) - L) = sum_j w_j * s_j - (M + L) * sum_j w_j; the tile recurrence delivers M, the sum of
  exponentials and P, and the count lemma identifies cnt.
-/
import proofs.«125888_j37538014167620_2_alg».proof.Proof.AlgebraB

noncomputable section

namespace Cert.Spec

open Idealize.ShloMosaic

/-- The row identity in the reals. -/
theorem row_identity (s w : Fin 8192 → ℝ) (M L : ℝ) :
    ∑ j : Fin 8192, w j * ((s j - M) - L) = (∑ j : Fin 8192, w j * s j) - (M + L) * ∑ j : Fin 8192, w j := by
  rw [Finset.mul_sum, ← Finset.sum_sub_distrib]
  exact Finset.sum_congr rfl fun j _ => by ring

variable (x : Fin 4096 → Fin 2 → Fin 128 → EReal) (lb : Fin 4096 → BitVec 32)

/-- One row, given its real similarities s, its real positives' mask w and the guard e. -/
theorem lossK_eq_lossR_of_real (r : Fin 8192) (s w : Fin 8192 → ℝ) (e : ℝ) (he : 0 < e) (hee : eps = (e : EReal))
    (hs : ∀ j, sK x r j = (s j : EReal)) (hmsk : ∀ j, mskR lb r j = (w j : EReal)) :
    lossK x lb r = lossR x lb r := by
  have hst := stateK_last x lb r s (offR r) w hs (off_coe r) (fun j => hmsk j)
  generalize hM : Finset.univ.sup' Finset.univ_nonempty s = M at hst
  generalize hZ : (∑ j : Fin 8192, Real.exp (s j - M) * offR r j) = Z at hst
  have hZ0 : 0 ≤ Z := by
    rw [← hZ]
    exact Finset.sum_nonneg fun j _ => mul_nonneg (Real.exp_pos _).le (offR_nonneg r j)
  have hlog : Ideal.log ((Z : EReal) + eps) = ((Real.log (Z + e) : ℝ) : EReal) := by
    rw [hee, ← EReal.coe_add, Ideal.log_coe, if_neg (not_le.mpr (by linarith))]
  have hsR : ∀ j, sR x r j = (s j : EReal) := fun j => by rw [sR_eq_sK, hs]
  have hmR : mR x r = (M : EReal) := by
    have h : sR x r = fun j => (s j : EReal) := funext hsR
    rw [mR, h, sup_coe Finset.univ Finset.univ_nonempty, hM]
  have hzR : zR x r = (Z : EReal) := by
    unfold zR
    simp only [hsR, hmR, off_coe, ← EReal.coe_sub, Ideal.exp_coe, ← EReal.coe_mul, ← coe_sum]
    rw [hZ]
  have hlp : ∀ j, lpR x r j = (((s j - M) - Real.log (Z + e) : ℝ) : EReal) := fun j => by
    unfold lpR
    rw [hsR, hmR, hzR, hlog, ← EReal.coe_sub, ← EReal.coe_sub]
  have hnumR : ∑ j : Fin 8192, mskR lb r j * lpR x r j =
      ((∑ j : Fin 8192, w j * ((s j - M) - Real.log (Z + e)) : ℝ) : EReal) := by
    simp only [hlp, hmsk, ← EReal.coe_mul, ← coe_sum]
  have hsumm : ∑ j : Fin 8192, mskR lb r j = ((∑ j : Fin 8192, w j : ℝ) : EReal) := by
    simp only [hmsk, ← coe_sum]
  have hcnt : cntK lb r = ((∑ j : Fin 8192, w j : ℝ) : EReal) := by rw [cnt_eq, hsumm]
  have hnumK : ((∑ j : Fin 8192, w j * s j : ℝ) : EReal)
      - ((M : EReal) + ((Real.log (Z + e) : ℝ) : EReal)) * ((∑ j : Fin 8192, w j : ℝ) : EReal) =
      (((∑ j : Fin 8192, w j * s j) - (M + Real.log (Z + e)) * ∑ j : Fin 8192, w j : ℝ) : EReal) := by
    rw [EReal.coe_sub, EReal.coe_mul, EReal.coe_add]
  unfold lossK lossR
  rw [hst]
  dsimp only
  rw [hlog, hcnt, hnumR, hsumm, row_identity, hnumK, max_comm]

theorem lossK_eq_lossR (hx : Finite x) (r : Fin 8192) : lossK x lb r = lossR x lb r := by
  obtain ⟨sa, hsa⟩ := sK_real x hx
  obtain ⟨e, he, hee⟩ := eps_pos
  exact lossK_eq_lossR_of_real x lb r (sa r) (fun j => sameR lb r j * offR r j) e he hee (hsa r)
    (fun j => msk_coe lb r j)

/-- At the extended reals, with every feature a real number, the tiled loss is the plain loss. -/
theorem kerLoss_eq_refLoss (x : Fin 4096 → Fin 2 → Fin 128 → EReal) (lb : Fin 4096 → BitVec 32) (hx : Finite x) :
    kerLoss x lb = refLoss x lb := by
  unfold kerLoss refLoss
  exact congrArg (fun t => Ideal.div t 8192) (Finset.sum_congr rfl fun r _ => lossK_eq_lossR x lb hx r)

end Cert.Spec

end
-- ==== Proof.Finite.lean ====
import proofs.«125888_j37538014167620_2_alg».proof.Proof.Gen.Pre_finite_inputs
import proofs.«125888_j37538014167620_2_alg».proof.Proof.Spec
import Idealize.ShloMosaic.Lib.ReduceAll
import Idealize.ShloMosaic.Lib.ValueIdx
import Idealize.ShloMosaic.PureOps.Ideal.Laws

noncomputable section

/-
  The precondition read back: `finite_inputs` says that the conjunction, over all 4096 x 2 x 128 features, of
  |x| < +inf is true; so each feature's absolute value max(x, -x) lies strictly below the top of the extended reals,
  which excludes both infinities: every feature is a real number.
-/

namespace Cert.Proof.Finite

open Idealize.ShloMosaic

instance : Subsingleton Cert.Pre_finite_inputs.S_.Idx := ⟨fun a b => funext fun d => d.elim0⟩

theorem finite_of_pre [hP : Cert.Pre_finite_inputs.Facts]
    (a0 : FVec Ideal Cert.Pre_finite_inputs.S4096x2x128 .f32) (a1 : IVec Cert.Pre_finite_inputs.S4096 32)
    (h : Cert.Pre_finite_inputs.fn (F := Ideal) a0 a1 = fun _ => 1#1) (i : Cert.Pre_finite_inputs.S4096x2x128.Idx) :
    a0 i ≠ ⊤ ∧ a0 i ≠ ⊥ := by
  have h0 := congrFun h ValueIdx.ix0
  dsimp only [Cert.Pre_finite_inputs.fn] at h0
  have h1 := Host.reduce_andi_all _ _ _ _ _ h0 i
  simp only [cmpf, Host.absf, broadcastInDim, constant, Ideal.cmpf_def, Ideal.hostAbsf_def, Ideal.absf_def, Ideal.ofBits_def] at h1
  have htop : Ideal.ofBits .f32 0x7F800000#32 = (⊤ : EReal) := by simp [Ideal.ofBits, Ideal.ieee]
  rw [htop] at h1
  have hlt : max (a0 i) (-a0 i) < (⊤ : EReal) := by
    by_contra hn
    have : Ideal.cmp CmpFPredicate.olt (max (a0 i) (-a0 i)) (⊤ : EReal) = 0#1 := by
      simp only [Ideal.cmp, hn, decide_false, BitVec.ofBool_false]; rfl
    rw [this] at h1
    exact absurd h1 (by decide)
  constructor
  · intro e; rw [e] at hlt; simp at hlt
  · intro e; rw [e] at hlt; simp at hlt

end Cert.Proof.Finite

end
-- ==== Proof.lean ====
/-
  The certificate of a supervised-contrastive loss kernel against its plain reference.

  The kernel normalises 8192 feature rows (4096 samples, two views), and in one 8 x 8 grid of 1024 x 1024 tiles walks,
  for each row tile, the eight column tiles of the similarity matrix  s = (f . f^T) * (1 / temperature), carrying per
  row the running maximum m, the running sum l of exp(s - m) over the columns other than the row itself (rescaled by
  exp(m_old - m_new) whenever the maximum moves) and the running sum p of the positives' similarities; after the last
  column tile it writes  -(p - (m + log(l + eps)) * cnt) / max(cnt, 1),  cnt the number of positives of the row, and
  @main averages the 8192 per-row losses. The reference materialises the whole matrix, divides by the temperature,
  subtracts the row maximum, and averages  -(sum_j mask * (logit - log(sum_j exp(logit) * offdiag + eps))) / max(1, sum_j mask).

  On the extended reals the two agree for finite features: multiplying by the exact reciprocal of the temperature is
  dividing by it; the running triple after eight tiles is (row maximum, sum of exp(s - max) * offdiag, sum of
  mask * s) because exp(a) * exp(b) = exp(a + b); the positives' count computed from the labels alone is the row sum
  of the mask; and  sum_j mask_j * ((s_j - M) - L) = sum_j mask_j * s_j - (M + L) * sum_j mask_j  (all terms real).

  The kernel's scale 14.2857141 is the f32 nearest to 1 / 0.07f; it is read at the extended reals as that reciprocal
  exactly (the one rewrite of the idealization, `preserves`). Both kernel programs (the word-level one and the idealized
  one) run to the end, fault nowhere and leave their arguments unchanged: their one region is launched with the row
  tile's block and the whole feature array staged from ONE array, each window holding half of it.
-/
import proofs.«125888_j37538014167620_2_alg».proof.Defs
import proofs.«125888_j37538014167620_2_alg».proof.Proof.Gen.Kernel
import proofs.«125888_j37538014167620_2_alg».proof.Proof.Gen.KernelIdeal
import proofs.«125888_j37538014167620_2_alg».proof.Proof.Gen.ReferenceIdeal
import proofs.«125888_j37538014167620_2_alg».proof.Proof.Gen.ReferenceIdeal.Run
import proofs.«125888_j37538014167620_2_alg».proof.Proof.Gen.ReferenceIdeal.Read
import proofs.«125888_j37538014167620_2_alg».proof.Proof.Gen.Pre_finite_inputs
import proofs.«125888_j37538014167620_2_alg».proof.Proof.KMain
import proofs.«125888_j37538014167620_2_alg».proof.Proof.KIMain
import proofs.«125888_j37538014167620_2_alg».proof.Proof.KIResult
import proofs.«125888_j37538014167620_2_alg».proof.Proof.RefValue
import proofs.«125888_j37538014167620_2_alg».proof.Proof.Algebra
import proofs.«125888_j37538014167620_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves both argument arrays as it found them. -/
theorem frame_Kernel : @Cert.frame_Kernel Cert.Kernel.Gen.facts Cert.Pre_finite_inputs.Gen.facts :=
  fun m ρ _ => (θ_run Cert.Kernel.defs _ _).mono (fun _ h c => (h c).2) (Cert.Kernel.Hand.run_main (F := Bits) m ρ)

/-- So does the idealized kernel. -/
theorem frame_KernelIdeal : @Cert.frame_KernelIdeal Cert.KernelIdeal.Gen.facts Cert.Pre_finite_inputs.Gen.facts :=
  fun m ρ _ => (θ_run Cert.KernelIdeal.defs _ _).mono (fun _ h c => (h c).2) (Cert.KernelIdeal.Hand.run_main (F := Ideal) m ρ)

/-- The reference is a host program with no kernel launch: its run terminates, faults nowhere and leaves both
    argument arrays as it found them; the frame is that run with the result's value dropped. -/
theorem frame_ReferenceIdeal : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- The one rewrite of the idealization: the kernel's scale `14.2857141` (the f32 nearest to the reciprocal of the
    reference's divisor `0.07` as an f32, `9395241 / 2^27`) is read at the extended reals as that reciprocal exactly,
    `134217728 / 9395241`. -/
theorem preserves : Cert.preserves_Kernel_KernelIdeal :=
  IdealRules.named_const.statement Cert.KernelIdeal.κ "fold_c_134217728_9395241" .f32 0x41649249#32
    ((134217728 / 9395241 : ℝ) : EReal) rfl

/-- With finite features the two idealized programs end with the same loss: the kernel's result is the mean of the
    per-row losses computed tile by tile, the reference's the mean of the per-row losses computed from the whole
    similarity matrix, and the two per-row losses are one real number. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => fun _ => Cert.Spec.refLoss
      (Cert.ReferenceIdeal.RefValue.xOf (m' ((c.tc : Thread Cert.ReferenceIdeal.nD Cert.ReferenceIdeal.τ).loc Cert.ReferenceIdeal.main_arg0)))
      (Cert.ReferenceIdeal.RefValue.lbOf (m' ((c.tc : Thread Cert.ReferenceIdeal.nD Cert.ReferenceIdeal.τ).loc Cert.ReferenceIdeal.main_arg1))), ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.KValue.result_eq m c]
    beta_reduce
    rw [(hagree c).1, (hagree c).2]
    funext _
    exact Cert.Spec.kerLoss_eq_refLoss _ _ (fun b v d =>
      @Cert.Proof.Finite.finite_of_pre Cert.Pre_finite_inputs.Gen.facts _ _ (hpre c) (ValueIdx.ix3 b v d))
  · exact (θ_run Cert.ReferenceIdeal.defs _ _).mono
      (fun _ h c => ⟨(h c).1.trans (Cert.ReferenceIdeal.RefValue.res_eq m' c), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves, algebraic⟩

end Cert.Proof

end
